-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x300 : Shape := ⟨2, ![100000, 300]⟩
abbrev S100000x50 : Shape := ⟨2, ![100000, 50]⟩
abbrev S100000x168 : Shape := ⟨2, ![100000, 168]⟩
abbrev S300x672 : Shape := ⟨2, ![300, 672]⟩
abbrev S50x672 : Shape := ⟨2, ![50, 672]⟩
abbrev S168x672 : Shape := ⟨2, ![168, 672]⟩
abbrev S672 : Shape := ⟨1, ![672]⟩
abbrev S50x840 : Shape := ⟨2, ![50, 840]⟩
abbrev S168x840 : Shape := ⟨2, ![168, 840]⟩
abbrev S840 : Shape := ⟨1, ![840]⟩
abbrev S_ : Shape := ⟨0, ![]⟩

class Facts : Prop where
  bcast_S_S100000x300 : S_.BroadcastsInDim S100000x300 (![] : Fin 0 → Fin S100000x300.rank)
  reducesTo_S100000x300_S_d0_1 : S100000x300.ReducesTo [0, 1] S_
  h_S_ : 0 < S_.numel
  bcast_S_S100000x50 : S_.BroadcastsInDim S100000x50 (![] : Fin 0 → Fin S100000x50.rank)
  reducesTo_S100000x50_S_d0_1 : S100000x50.ReducesTo [0, 1] S_
  bcast_S_S100000x168 : S_.BroadcastsInDim S100000x168 (![] : Fin 0 → Fin S100000x168.rank)
  reducesTo_S100000x168_S_d0_1 : S100000x168.ReducesTo [0, 1] S_
  bcast_S_S300x672 : S_.BroadcastsInDim S300x672 (![] : Fin 0 → Fin S300x672.rank)
  reducesTo_S300x672_S_d0_1 : S300x672.ReducesTo [0, 1] S_
  bcast_S_S50x672 : S_.BroadcastsInDim S50x672 (![] : Fin 0 → Fin S50x672.rank)
  reducesTo_S50x672_S_d0_1 : S50x672.ReducesTo [0, 1] S_
  bcast_S_S168x672 : S_.BroadcastsInDim S168x672 (![] : Fin 0 → Fin S168x672.rank)
  reducesTo_S168x672_S_d0_1 : S168x672.ReducesTo [0, 1] S_
  bcast_S_S672 : S_.BroadcastsInDim S672 (![] : Fin 0 → Fin S672.rank)
  reducesTo_S672_S_d0 : S672.ReducesTo [0] S_
  bcast_S_S50x840 : S_.BroadcastsInDim S50x840 (![] : Fin 0 → Fin S50x840.rank)
  reducesTo_S50x840_S_d0_1 : S50x840.ReducesTo [0, 1] S_
  bcast_S_S168x840 : S_.BroadcastsInDim S168x840 (![] : Fin 0 → Fin S168x840.rank)
  reducesTo_S168x840_S_d0_1 : S168x840.ReducesTo [0, 1] S_
  bcast_S_S840 : S_.BroadcastsInDim S840 (![] : Fin 0 → Fin S840.rank)
  reducesTo_S840_S_d0 : S840.ReducesTo [0] S_

variable [Facts]

def fn_part4 {F : FTy → Type} [FloatOps F] (main_arg14 : FVec F S168x840 .f32) (main_arg15 : FVec F S168x672 .f32) (main_arg16 : FVec F S840 .f32) (main_v63 : IVec S_ 1) (main_v67 : IVec S_ 1) : IVec S_ 1 :=
  let main_v68 : IVec S_ 1 := andi main_v63 main_v67
  let main_v69 : FVec F S168x840 .f32 := Host.absf main_arg14
  let main_cst_26 : FVec F S_ .f32 := constant S_ .f32 0x7F800000#32
  let main_v70 : FVec F S168x840 .f32 := broadcastInDim S168x840 ![] bcast_S_S168x840 main_cst_26
  let main_v71 : IVec S168x840 1 := cmpf .olt main_v69 main_v70
  let main_c_27 : IVec S_ 1 := constantI S_ 1 1#1
  let main_v72 : IVec S_ 1 := (fun x v => Host.reduce IntOp.andi x v reducesTo_S168x840_S_d0_1 h_S_) main_v71 main_c_27
  let main_v73 : IVec S_ 1 := andi main_v68 main_v72
  let main_v74 : FVec F S168x672 .f32 := Host.absf main_arg15
  let main_cst_28 : FVec F S_ .f32 := constant S_ .f32 0x7F800000#32
  let main_v75 : FVec F S168x672 .f32 := broadcastInDim S168x672 ![] bcast_S_S168x672 main_cst_28
  let main_v76 : IVec S168x672 1 := cmpf .olt main_v74 main_v75
  let main_c_29 : IVec S_ 1 := constantI S_ 1 1#1
  let main_v77 : IVec S_ 1 := (fun x v => Host.reduce IntOp.andi x v reducesTo_S168x672_S_d0_1 h_S_) main_v76 main_c_29
  let main_v78 : IVec S_ 1 := andi main_v73 main_v77
  let main_v79 : FVec F S840 .f32 := Host.absf main_arg16
  let main_cst_30 : FVec F S_ .f32 := constant S_ .f32 0x7F800000#32
  let main_v80 : FVec F S840 .f32 := broadcastInDim S840 ![] bcast_S_S840 main_cst_30
  let main_v81 : IVec S840 1 := cmpf .olt main_v79 main_v80
  let main_c_31 : IVec S_ 1 := constantI S_ 1 1#1
  let main_v82 : IVec S_ 1 := (fun x v => Host.reduce IntOp.andi x v reducesTo_S840_S_d0 h_S_) main_v81 main_c_31
  let main_v83 : IVec S_ 1 := andi main_v78 main_v82
  main_v83

def fn_part3 {F : FTy → Type} [FloatOps F] (main_arg11 : FVec F S672 .f32) (main_arg12 : FVec F S50x840 .f32) (main_arg13 : FVec F S50x840 .f32) (main_arg14 : FVec F S168x840 .f32) (main_arg15 : FVec F S168x672 .f32) (main_arg16 : FVec F S840 .f32) (main_v48 : IVec S_ 1) (main_v49 : FVec F S168x672 .f32) (main_v50 : FVec F S168x672 .f32) : IVec S_ 1 :=
  let main_v51 : IVec S168x672 1 := cmpf .olt main_v49 main_v50
  let main_c_19 : IVec S_ 1 := constantI S_ 1 1#1
  let main_v52 : IVec S_ 1 := (fun x v => Host.reduce IntOp.andi x v reducesTo_S168x672_S_d0_1 h_S_) main_v51 main_c_19
  let main_v53 : IVec S_ 1 := andi main_v48 main_v52
  let main_v54 : FVec F S672 .f32 := Host.absf main_arg11
  let main_cst_20 : FVec F S_ .f32 := constant S_ .f32 0x7F800000#32
  let main_v55 : FVec F S672 .f32 := broadcastInDim S672 ![] bcast_S_S672 main_cst_20
  let main_v56 : IVec S672 1 := cmpf .olt main_v54 main_v55
  let main_c_21 : IVec S_ 1 := constantI S_ 1 1#1
  let main_v57 : IVec S_ 1 := (fun x v => Host.reduce IntOp.andi x v reducesTo_S672_S_d0 h_S_) main_v56 main_c_21
  let main_v58 : IVec S_ 1 := andi main_v53 main_v57
  let main_v59 : FVec F S50x840 .f32 := Host.absf main_arg12
  let main_cst_22 : FVec F S_ .f32 := constant S_ .f32 0x7F800000#32
  let main_v60 : FVec F S50x840 .f32 := broadcastInDim S50x840 ![] bcast_S_S50x840 main_cst_22
  let main_v61 : IVec S50x840 1 := cmpf .olt main_v59 main_v60
  let main_c_23 : IVec S_ 1 := constantI S_ 1 1#1
  let main_v62 : IVec S_ 1 := (fun x v => Host.reduce IntOp.andi x v reducesTo_S50x840_S_d0_1 h_S_) main_v61 main_c_23
  let main_v63 : IVec S_ 1 := andi main_v58 main_v62
  let main_v64 : FVec F S50x840 .f32 := Host.absf main_arg13
  let main_cst_24 : FVec F S_ .f32 := constant S_ .f32 0x7F800000#32
  let main_v65 : FVec F S50x840 .f32 := broadcastInDim S50x840 ![] bcast_S_S50x840 main_cst_24
  let main_v66 : IVec S50x840 1 := cmpf .olt main_v64 main_v65
  let main_c_25 : IVec S_ 1 := constantI S_ 1 1#1
  let main_v67 : IVec S_ 1 := (fun x v => Host.reduce IntOp.andi x v reducesTo_S50x840_S_d0_1 h_S_) main_v66 main_c_25
  fn_part4 (F := F) main_arg14 main_arg15 main_arg16 main_v63 main_v67

def fn_part2 {F : FTy → Type} [FloatOps F] (main_arg7 : FVec F S300x672 .f32) (main_arg8 : FVec F S50x672 .f32) (main_arg9 : FVec F S50x672 .f32) (main_arg10 : FVec F S168x672 .f32) (main_arg11 : FVec F S672 .f32) (main_arg12 : FVec F S50x840 .f32) (main_arg13 : FVec F S50x840 .f32) (main_arg14 : FVec F S168x840 .f32) (main_arg15 : FVec F S168x672 .f32) (main_arg16 : FVec F S840 .f32) (main_v33 : IVec S_ 1) : IVec S_ 1 :=
  let main_v34 : FVec F S300x672 .f32 := Host.absf main_arg7
  let main_cst_12 : FVec F S_ .f32 := constant S_ .f32 0x7F800000#32
  let main_v35 : FVec F S300x672 .f32 := broadcastInDim S300x672 ![] bcast_S_S300x672 main_cst_12
  let main_v36 : IVec S300x672 1 := cmpf .olt main_v34 main_v35
  let main_c_13 : IVec S_ 1 := constantI S_ 1 1#1
  let main_v37 : IVec S_ 1 := (fun x v => Host.reduce IntOp.andi x v reducesTo_S300x672_S_d0_1 h_S_) main_v36 main_c_13
  let main_v38 : IVec S_ 1 := andi main_v33 main_v37
  let main_v39 : FVec F S50x672 .f32 := Host.absf main_arg8
  let main_cst_14 : FVec F S_ .f32 := constant S_ .f32 0x7F800000#32
  let main_v40 : FVec F S50x672 .f32 := broadcastInDim S50x672 ![] bcast_S_S50x672 main_cst_14
  let main_v41 : IVec S50x672 1 := cmpf .olt main_v39 main_v40
  let main_c_15 : IVec S_ 1 := constantI S_ 1 1#1
  let main_v42 : IVec S_ 1 := (fun x v => Host.reduce IntOp.andi x v reducesTo_S50x672_S_d0_1 h_S_) main_v41 main_c_15
  let main_v43 : IVec S_ 1 := andi main_v38 main_v42
  let main_v44 : FVec F S50x672 .f32 := Host.absf main_arg9
  let main_cst_16 : FVec F S_ .f32 := constant S_ .f32 0x7F800000#32
  let main_v45 : FVec F S50x672 .f32 := broadcastInDim S50x672 ![] bcast_S_S50x672 main_cst_16
  let main_v46 : IVec S50x672 1 := cmpf .olt main_v44 main_v45
  let main_c_17 : IVec S_ 1 := constantI S_ 1 1#1
  let main_v47 : IVec S_ 1 := (fun x v => Host.reduce IntOp.andi x v reducesTo_S50x672_S_d0_1 h_S_) main_v46 main_c_17
  let main_v48 : IVec S_ 1 := andi main_v43 main_v47
  let main_v49 : FVec F S168x672 .f32 := Host.absf main_arg10
  let main_cst_18 : FVec F S_ .f32 := constant S_ .f32 0x7F800000#32
  let main_v50 : FVec F S168x672 .f32 := broadcastInDim S168x672 ![] bcast_S_S168x672 main_cst_18
  fn_part3 (F := F) main_arg11 main_arg12 main_arg13 main_arg14 main_arg15 main_arg16 main_v48 main_v49 main_v50

def fn_part1 {F : FTy → Type} [FloatOps F] (main_arg4 : FVec F S100000x168 .f32) (main_arg5 : FVec F S100000x168 .f32) (main_arg6 : FVec F S100000x168 .f32) (main_arg7 : FVec F S300x672 .f32) (main_arg8 : FVec F S50x672 .f32) (main_arg9 : FVec F S50x672 .f32) (main_arg10 : FVec F S168x672 .f32) (main_arg11 : FVec F S672 .f32) (main_arg12 : FVec F S50x840 .f32) (main_arg13 : FVec F S50x840 .f32) (main_arg14 : FVec F S168x840 .f32) (main_arg15 : FVec F S168x672 .f32) (main_arg16 : FVec F S840 .f32) (main_v13 : IVec S_ 1) (main_v16 : IVec S100000x168 1) : IVec S_ 1 :=
  let main_c_5 : IVec S_ 1 := constantI S_ 1 1#1
  let main_v17 : IVec S_ 1 := (fun x v => Host.reduce IntOp.andi x v reducesTo_S100000x168_S_d0_1 h_S_) main_v16 main_c_5
  let main_v18 : IVec S_ 1 := andi main_v13 main_v17
  let main_v19 : FVec F S100000x168 .f32 := Host.absf main_arg4
  let main_cst_6 : FVec F S_ .f32 := constant S_ .f32 0x7F800000#32
  let main_v20 : FVec F S100000x168 .f32 := broadcastInDim S100000x168 ![] bcast_S_S100000x168 main_cst_6
  let main_v21 : IVec S100000x168 1 := cmpf .olt main_v19 main_v20
  let main_c_7 : IVec S_ 1 := constantI S_ 1 1#1
  let main_v22 : IVec S_ 1 := (fun x v => Host.reduce IntOp.andi x v reducesTo_S100000x168_S_d0_1 h_S_) main_v21 main_c_7
  let main_v23 : IVec S_ 1 := andi main_v18 main_v22
  let main_v24 : FVec F S100000x168 .f32 := Host.absf main_arg5
  let main_cst_8 : FVec F S_ .f32 := constant S_ .f32 0x7F800000#32
  let main_v25 : FVec F S100000x168 .f32 := broadcastInDim S100000x168 ![] bcast_S_S100000x168 main_cst_8
  let main_v26 : IVec S100000x168 1 := cmpf .olt main_v24 main_v25
  let main_c_9 : IVec S_ 1 := constantI S_ 1 1#1
  let main_v27 : IVec S_ 1 := (fun x v => Host.reduce IntOp.andi x v reducesTo_S100000x168_S_d0_1 h_S_) main_v26 main_c_9
  let main_v28 : IVec S_ 1 := andi main_v23 main_v27
  let main_v29 : FVec F S100000x168 .f32 := Host.absf main_arg6
  let main_cst_10 : FVec F S_ .f32 := constant S_ .f32 0x7F800000#32
  let main_v30 : FVec F S100000x168 .f32 := broadcastInDim S100000x168 ![] bcast_S_S100000x168 main_cst_10
  let main_v31 : IVec S100000x168 1 := cmpf .olt main_v29 main_v30
  let main_c_11 : IVec S_ 1 := constantI S_ 1 1#1
  let main_v32 : IVec S_ 1 := (fun x v => Host.reduce IntOp.andi x v reducesTo_S100000x168_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S100000x300 .f32) (main_arg1 : FVec F S100000x50 .f32) (main_arg2 : FVec F S100000x50 .f32) (main_arg3 : FVec F S100000x168 .f32) (main_arg4 : FVec F S100000x168 .f32) (main_arg5 : FVec F S100000x168 .f32) (main_arg6 : FVec F S100000x168 .f32) (main_arg7 : FVec F S300x672 .f32) (main_arg8 : FVec F S50x672 .f32) (main_arg9 : FVec F S50x672 .f32) (main_arg10 : FVec F S168x672 .f32) (main_arg11 : FVec F S672 .f32) (main_arg12 : FVec F S50x840 .f32) (main_arg13 : FVec F S50x840 .f32) (main_arg14 : FVec F S168x840 .f32) (main_arg15 : FVec F S168x672 .f32) (main_arg16 : FVec F S840 .f32) : IVec S_ 1 :=
  let main_v0 : FVec F S100000x300 .f32 := Host.absf main_arg0
  let main_cst : FVec F S_ .f32 := constant S_ .f32 0x7F800000#32
  let main_v1 : FVec F S100000x300 .f32 := broadcastInDim S100000x300 ![] bcast_S_S100000x300 main_cst
  let main_v2 : IVec S100000x300 1 := cmpf .olt main_v0 main_v1
  let main_c : IVec S_ 1 := constantI S_ 1 1#1
  let main_v3 : IVec S_ 1 := (fun x v => Host.reduce IntOp.andi x v reducesTo_S100000x300_S_d0_1 h_S_) main_v2 main_c
  let main_v4 : FVec F S100000x50 .f32 := Host.absf main_arg1
  let main_cst_0 : FVec F S_ .f32 := constant S_ .f32 0x7F800000#32
  let main_v5 : FVec F S100000x50 .f32 := broadcastInDim S100000x50 ![] bcast_S_S100000x50 main_cst_0
  let main_v6 : IVec S100000x50 1 := cmpf .olt main_v4 main_v5
  let main_c_1 : IVec S_ 1 := constantI S_ 1 1#1
  let main_v7 : IVec S_ 1 := (fun x v => Host.reduce IntOp.andi x v reducesTo_S100000x50_S_d0_1 h_S_) main_v6 main_c_1
  let main_v8 : IVec S_ 1 := andi main_v3 main_v7
  let main_v9 : FVec F S100000x50 .f32 := Host.absf main_arg2
  let main_cst_2 : FVec F S_ .f32 := constant S_ .f32 0x7F800000#32
  let main_v10 : FVec F S100000x50 .f32 := broadcastInDim S100000x50 ![] bcast_S_S100000x50 main_cst_2
  let main_v11 : IVec S100000x50 1 := cmpf .olt main_v9 main_v10
  let main_c_3 : IVec S_ 1 := constantI S_ 1 1#1
  let main_v12 : IVec S_ 1 := (fun x v => Host.reduce IntOp.andi x v reducesTo_S100000x50_S_d0_1 h_S_) main_v11 main_c_3
  let main_v13 : IVec S_ 1 := andi main_v8 main_v12
  let main_v14 : FVec F S100000x168 .f32 := Host.absf main_arg3
  let main_cst_4 : FVec F S_ .f32 := constant S_ .f32 0x7F800000#32
  let main_v15 : FVec F S100000x168 .f32 := broadcastInDim S100000x168 ![] bcast_S_S100000x168 main_cst_4
  let main_v16 : IVec S100000x168 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S100000x300 : Shape := ⟨2, ![100000, 300]⟩
abbrev S100000x50 : Shape := ⟨2, ![100000, 50]⟩
abbrev S100000x168 : Shape := ⟨2, ![100000, 168]⟩
abbrev S300x672 : Shape := ⟨2, ![300, 672]⟩
abbrev S50x672 : Shape := ⟨2, ![50, 672]⟩
abbrev S168x672 : Shape := ⟨2, ![168, 672]⟩
abbrev S672 : Shape := ⟨1, ![672]⟩
abbrev S50x840 : Shape := ⟨2, ![50, 840]⟩
abbrev S168x840 : Shape := ⟨2, ![168, 840]⟩
abbrev S840 : Shape := ⟨1, ![840]⟩
abbrev S300x4x168 : Shape := ⟨3, ![300, 4, 168]⟩
abbrev S_ : Shape := ⟨0, ![]⟩
abbrev S300x4x256 : Shape := ⟨3, ![300, 4, 256]⟩
abbrev S300x1024 : Shape := ⟨2, ![300, 1024]⟩
abbrev S50x4x168 : Shape := ⟨3, ![50, 4, 168]⟩
abbrev S50x4x256 : Shape := ⟨3, ![50, 4, 256]⟩
abbrev S50x1024 : Shape := ⟨2, ![50, 1024]⟩
abbrev S168x4x168 : Shape := ⟨3, ![168, 4, 168]⟩
abbrev S168x4x256 : Shape := ⟨3, ![168, 4, 256]⟩
abbrev S168x1024 : Shape := ⟨2, ![168, 1024]⟩
abbrev S4x168 : Shape := ⟨2, ![4, 168]⟩
abbrev S4x256 : Shape := ⟨2, ![4, 256]⟩
abbrev S1x1024 : Shape := ⟨2, ![1, 1024]⟩
abbrev S50x5x168 : Shape := ⟨3, ![50, 5, 168]⟩
abbrev S50x5x256 : Shape := ⟨3, ![50, 5, 256]⟩
abbrev S50x1280 : Shape := ⟨2, ![50, 1280]⟩
abbrev S168x5x168 : Shape := ⟨3, ![168, 5, 168]⟩
abbrev S168x5x256 : Shape := ⟨3, ![168, 5, 256]⟩
abbrev S168x1280 : Shape := ⟨2, ![168, 1280]⟩
abbrev S5x168 : Shape := ⟨2, ![5, 168]⟩
abbrev S5x256 : Shape := ⟨2, ![5, 256]⟩
abbrev S1x1280 : Shape := ⟨2, ![1, 1280]⟩
abbrev S100000x336 : Shape := ⟨2, ![100000, 336]⟩
abbrev S1000x300 : Shape := ⟨2, ![1000, 300]⟩
abbrev S1000x50 : Shape := ⟨2, ![1000, 50]⟩
abbrev S1000x168 : Shape := ⟨2, ![1000, 168]⟩
abbrev S1000x336 : Shape := ⟨2, ![1000, 336]⟩
abbrev S200x300 : Shape := ⟨2, ![200, 300]⟩
abbrev S200x50 : Shape := ⟨2, ![200, 50]⟩
abbrev S200x168 : Shape := ⟨2, ![200, 168]⟩
abbrev S200x1024 : Shape := ⟨2, ![200, 1024]⟩
abbrev S200x1280 : Shape := ⟨2, ![200, 1280]⟩

abbrev nBuf : Space → Nat
  | .hbm => 76
  | .vmem => 26
  | .smem => 0
  | _ => 0

abbrev bufTy : (tb : Table) → Fin (tcTables nBuf tb) → BufTy
  | .hbm, ⟨0, _⟩ => ⟨S100000x300, .f32⟩
  | .hbm, ⟨1, _⟩ => ⟨S100000x50, .f32⟩
  | .hbm, ⟨2, _⟩ => ⟨S100000x50, .f32⟩
  | .hbm, ⟨3, _⟩ => ⟨S100000x168, .f32⟩
  | .hbm, ⟨4, _⟩ => ⟨S100000x168, .f32⟩
  | .hbm, ⟨5, _⟩ => ⟨S100000x168, .f32⟩
  | .hbm, ⟨6, _⟩ => ⟨S100000x168, .f32⟩
  | .hbm, ⟨7, _⟩ => ⟨S300x672, .f32⟩
  | .hbm, ⟨8, _⟩ => ⟨S50x672, .f32⟩
  | .hbm, ⟨9, _⟩ => ⟨S50x672, .f32⟩
  | .hbm, ⟨10, _⟩ => ⟨S168x672, .f32⟩
  | .hbm, ⟨11, _⟩ => ⟨S672, .f32⟩
  | .hbm, ⟨12, _⟩ => ⟨S50x840, .f32⟩
  | .hbm, ⟨13, _⟩ => ⟨S50x840, .f32⟩
  | .hbm, ⟨14, _⟩ => ⟨S168x840, .f32⟩
  | .hbm, ⟨15, _⟩ => ⟨S168x672, .f32⟩
  | .hbm, ⟨16, _⟩ => ⟨S840, .f32⟩
  | .hbm, ⟨17, _⟩ => ⟨S300x4x168, .f32⟩
  | .hbm, ⟨18, _⟩ => ⟨S_, .i32⟩
  | .hbm, ⟨19, _⟩ => ⟨S_, .f32⟩
  | .hbm, ⟨20, _⟩ => ⟨S300x4x256, .f32⟩
  | .hbm, ⟨21, _⟩ => ⟨S300x1024, .f32⟩
  | .hbm, ⟨22, _⟩ => ⟨S300x1024, .bf16⟩
  | .hbm, ⟨23, _⟩ => ⟨S50x4x168, .f32⟩
  | .hbm, ⟨24, _⟩ => ⟨S_, .i32⟩
  | .hbm, ⟨25, _⟩ => ⟨S_, .f32⟩
  | .hbm, ⟨26, _⟩ => ⟨S50x4x256, .f32⟩
  | .hbm, ⟨27, _⟩ => ⟨S50x1024, .f32⟩
  | .hbm, ⟨28, _⟩ => ⟨S50x1024, .bf16⟩
  | .hbm, ⟨29, _⟩ => ⟨S50x4x168, .f32⟩
  | .hbm, ⟨30, _⟩ => ⟨S_, .i32⟩
  | .hbm, ⟨31, _⟩ => ⟨S_, .f32⟩
  | .hbm, ⟨32, _⟩ => ⟨S50x4x256, .f32⟩
  | .hbm, ⟨33, _⟩ => ⟨S50x1024, .f32⟩
  | .hbm, ⟨34, _⟩ => ⟨S50x1024, .bf16⟩
  | .hbm, ⟨35, _⟩ => ⟨S168x4x168, .f32⟩
  | .hbm, ⟨36, _⟩ => ⟨S_, .i32⟩
  | .hbm, ⟨37, _⟩ => ⟨S_, .f32⟩
  | .hbm, ⟨38, _⟩ => ⟨S168x4x256, .f32⟩
  | .hbm, ⟨39, _⟩ => ⟨S168x1024, .f32⟩
  | .hbm, ⟨40, _⟩ => ⟨S168x1024, .bf16⟩
  | .hbm, ⟨41, _⟩ => ⟨S4x168, .f32⟩
  | .hbm, ⟨42, _⟩ => ⟨S_, .i32⟩
  | .hbm, ⟨43, _⟩ => ⟨S_, .f32⟩
  | .hbm, ⟨44, _⟩ => ⟨S4x256, .f32⟩
  | .hbm, ⟨45, _⟩ => ⟨S1x1024, .f32⟩
  | .hbm, ⟨46, _⟩ => ⟨S50x5x168, .f32⟩
  | .hbm, ⟨47, _⟩ => ⟨S_, .i32⟩
  | .hbm, ⟨48, _⟩ => ⟨S_, .f32⟩
  | .hbm, ⟨49, _⟩ => ⟨S50x5x256, .f32⟩
  | .hbm, ⟨50, _⟩ => ⟨S50x1280, .f32⟩
  | .hbm, ⟨51, _⟩ => ⟨S50x1280, .bf16⟩
  | .hbm, ⟨52, _⟩ => ⟨S50x5x168, .f32⟩
  | .hbm, ⟨53, _⟩ => ⟨S_, .i32⟩
  | .hbm, ⟨54, _⟩ => ⟨S_, .f32⟩
  | .hbm, ⟨55, _⟩ => ⟨S50x5x256, .f32⟩
  | .hbm, ⟨56, _⟩ => ⟨S50x1280, .f32⟩
  | .hbm, ⟨57, _⟩ => ⟨S50x1280, .bf16⟩
  | .hbm, ⟨58, _⟩ => ⟨S168x5x168, .f32⟩
  | .hbm, ⟨59, _⟩ => ⟨S_, .i32⟩
  | .hbm, ⟨60, _⟩ => ⟨S_, .f32⟩
  | .hbm, ⟨61, _⟩ => ⟨S168x5x256, .f32⟩
  | .hbm, ⟨62, _⟩ => ⟨S168x1280, .f32⟩
  | .hbm, ⟨63, _⟩ => ⟨S168x1280, .bf16⟩
  | .hbm, ⟨64, _⟩ => ⟨S168x4x168, .f32⟩
  | .hbm, ⟨65, _⟩ => ⟨S_, .i32⟩
  | .hbm, ⟨66, _⟩ => ⟨S_, .f32⟩
  | .hbm, ⟨67, _⟩ => ⟨S168x4x256, .f32⟩
  | .hbm, ⟨68, _⟩ => ⟨S168x1024, .f32⟩
  | .hbm, ⟨69, _⟩ => ⟨S168x1024, .bf16⟩
  | .hbm, ⟨70, _⟩ => ⟨S5x168, .f32⟩
  | .hbm, ⟨71, _⟩ => ⟨S_, .i32⟩
  | .hbm, ⟨72, _⟩ => ⟨S_, .f32⟩
  | .hbm, ⟨73, _⟩ => ⟨S5x256, .f32⟩
  | .hbm, ⟨74, _⟩ => ⟨S1x1280, .f32⟩
  | .hbm, ⟨75, _⟩ => ⟨S100000x336, .f32⟩
  | .local _ .vmem, ⟨0, _⟩ => ⟨S1000x300, .f32⟩
  | .local _ .vmem, ⟨1, _⟩ => ⟨S1000x300, .f32⟩
  | .local _ .vmem, ⟨2, _⟩ => ⟨S1000x50, .f32⟩
  | .local _ .vmem, ⟨3, _⟩ => ⟨S1000x50, .f32⟩
  | .local _ .vmem, ⟨4, _⟩ => ⟨S1000x50, .f32⟩
  | .local _ .vmem, ⟨5, _⟩ => ⟨S1000x50, .f32⟩
  | .local _ .vmem, ⟨6, _⟩ => ⟨S1000x168, .f32⟩
  | .local _ .vmem, ⟨7, _⟩ => ⟨S1000x168, .f32⟩
  | .local _ .vmem, ⟨8, _⟩ => ⟨S1000x168, .f32⟩
  | .local _ .vmem, ⟨9, _⟩ => ⟨S1000x168, .f32⟩
  | .local _ .vmem, ⟨10, _⟩ => ⟨S1000x168, .f32⟩
  | .local _ .vmem, ⟨11, _⟩ => ⟨S1000x168, .f32⟩
  | .local _ .vmem, ⟨12, _⟩ => ⟨S1000x168, .f32⟩
  | .local _ .vmem, ⟨13, _⟩ => ⟨S1000x168, .f32⟩
  | .local _ .vmem, ⟨14, _⟩ => ⟨S300x1024, .bf16⟩
  | .local _ .vmem, ⟨15, _⟩ => ⟨S50x1024, .bf16⟩
  | .local _ .vmem, ⟨16, _⟩ => ⟨S50x1024, .bf16⟩
  | .local _ .vmem, ⟨17, _⟩ => ⟨S168x1024, .bf16⟩
  | .local _ .vmem, ⟨18, _⟩ => ⟨S1x1024, .f32⟩
  | .local _ .vmem, ⟨19, _⟩ => ⟨S50x1280, .bf16⟩
  | .local _ .vmem, ⟨20, _⟩ => ⟨S50x1280, .bf16⟩
  | .local _ .vmem, ⟨21, _⟩ => ⟨S168x1280, .bf16⟩
  | .local _ .vmem, ⟨22, _⟩ => ⟨S168x1024, .bf16⟩
  | .local _ .vmem, ⟨23, _⟩ => ⟨S1x1280, .f32⟩
  | .local _ .vmem, ⟨24, _⟩ => ⟨S1000x336, .f32⟩
  | .local _ .vmem, ⟨25, _⟩ => ⟨S1000x336, .f32⟩
  | _, _ => ⟨S100000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_call0_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c_0 : Ref sig .tc := ⟨.hbm, 24, rfl⟩
abbrev main_call1_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_c_1 : Ref sig .tc := ⟨.hbm, 30, rfl⟩
abbrev main_call2_v0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_call3_v0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_call4_v0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_call5_v0 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_call6_v0 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_6 : Ref sig .tc := ⟨.hbm, 59, rfl⟩
abbrev main_call7_v0 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_7 : Ref sig .tc := ⟨.hbm, 65, rfl⟩
abbrev main_call8_v0 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c_8 : Ref sig .tc := ⟨.hbm, 71, rfl⟩
abbrev main_call9_v0 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![100], ![false]⟩

@[reducible] def k0_t1_loop : Scf.Loop 32 :=
  let c0_i32 : BitVec 32 := 0#32
  let c5_i32 : BitVec 32 := 5#32
  let v0 : BitVec 32 := Scalar.addi c0_i32 c5_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg19 : BitVec 32 := Scf.iv c0_i32 c1_i32 k0_t1
  let c1_i32_1 : BitVec 32 := 1#32
  let v1 : BitVec 32 := Scalar.muli arg19 c1_i32_1
  let v2 : BitVec 32 := Scalar.addi c0_i32_2 v1
  let c200_i32 : BitVec 32 := 200#32
  let v3 : BitVec 32 := Scalar.muli v2 c200_i32
  v3
def k0_off1 (k0_t1 : Fin k0_t1_loop.trips) : Fin 2 → Nat :=
  let c0_i32_2 : BitVec 32 := 0#32
  let c0_i32 : BitVec 32 := 0#32
  let c1_i32 : BitVec 32 := 1#32
  let arg19 : BitVec 32 := Scf.iv c0_i32 c1_i32 k0_t1
  let c1_i32_1 : BitVec 32 := 1#32
  let v1 : BitVec 32 := Scalar.muli arg19 c1_i32_1
  let v2 : BitVec 32 := Scalar.addi c0_i32_2 v1
  let c200_i32 : BitVec 32 := 200#32
  let v3 : BitVec 32 := Scalar.muli v2 c200_i32
  let v4 : BitVec 32 := v3
  let v5 : Index := Scalar.indexCast v4
  let c0 : Index := 0#32
  ![v5.toNat, 0]
def k0_off2 (k0_t1 : Fin k0_t1_loop.trips) : Fin 2 → Nat :=
  let c0_i32_2 : BitVec 32 := 0#32
  let c0_i32 : BitVec 32 := 0#32
  let c1_i32 : BitVec 32 := 1#32
  let arg19 : BitVec 32 := Scf.iv c0_i32 c1_i32 k0_t1
  let c1_i32_1 : BitVec 32 := 1#32
  let v1 : BitVec 32 := Scalar.muli arg19 c1_i32_1
  let v2 : BitVec 32 := Scalar.addi c0_i32_2 v1
  let c200_i32 : BitVec 32 := 200#32
  let v3 : BitVec 32 := Scalar.muli v2 c200_i32
  let v4 : BitVec 32 := v3
  let v8 : Index := Scalar.indexCast v4
  let c0_3 : Index := 0#32
  ![v8.toNat, 0]
def k0_off3 (k0_t1 : Fin k0_t1_loop.trips) : Fin 2 → Nat :=
  let c0_i32_2 : BitVec 32 := 0#32
  let c0_i32 : BitVec 32 := 0#32
  let c1_i32 : BitVec 32 := 1#32
  let arg19 : BitVec 32 := Scf.iv c0_i32 c1_i32 k0_t1
  let c1_i32_1 : BitVec 32 := 1#32
  let v1 : BitVec 32 := Scalar.muli arg19 c1_i32_1
  let v2 : BitVec 32 := Scalar.addi c0_i32_2 v1
  let c200_i32 : BitVec 32 := 200#32
  let v3 : BitVec 32 := Scalar.muli v2 c200_i32
  let v4 : BitVec 32 := v3
  let v14 : Index := Scalar.indexCast v4
  let c0_5 : Index := 0#32
  ![v14.toNat, 0]
def k0_off4 (k0_t1 : Fin k0_t1_loop.trips) : Fin 2 → Nat :=
  let c0_i32_2 : BitVec 32 := 0#32
  let c0_i32 : BitVec 32 := 0#32
  let c1_i32 : BitVec 32 := 1#32
  let arg19 : BitVec 32 := Scf.iv c0_i32 c1_i32 k0_t1
  let c1_i32_1 : BitVec 32 := 1#32
  let v1 : BitVec 32 := Scalar.muli arg19 c1_i32_1
  let v2 : BitVec 32 := Scalar.addi c0_i32_2 v1
  let c200_i32 : BitVec 32 := 200#32
  let v3 : BitVec 32 := Scalar.muli v2 c200_i32
  let v4 : BitVec 32 := v3
  let v100 : Index := Scalar.indexCast v4
  let c0_36 : Index := 0#32
  ![v100.toNat, 0]
def k0_off5 (k0_t1 : Fin k0_t1_loop.trips) : Fin 2 → Nat :=
  let c0_i32_2 : BitVec 32 := 0#32
  let c0_i32 : BitVec 32 := 0#32
  let c1_i32 : BitVec 32 := 1#32
  let arg19 : BitVec 32 := Scf.iv c0_i32 c1_i32 k0_t1
  let c1_i32_1 : BitVec 32 := 1#32
  let v1 : BitVec 32 := Scalar.muli arg19 c1_i32_1
  let v2 : BitVec 32 := Scalar.addi c0_i32_2 v1
  let c200_i32 : BitVec 32 := 200#32
  let v3 : BitVec 32 := Scalar.muli v2 c200_i32
  let v4 : BitVec 32 := v3
  let v102 : Index := Scalar.indexCast v4
  let c168 : Index := 168#32
  ![v102.toNat, 168]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x168 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x168 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x168 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S300x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S50x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S50x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S168x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S50x1280 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S50x1280 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S168x1280 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S168x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1280 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1000x336 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  shapeCasts_S300x672_S300x4x168 : S300x672.ShapeCasts S300x4x168
  pads_S300x4x168_S300x4x256_000_000_0880 : S300x4x168.Pads (![0, 0, 0] : Fin 3 → Nat) ![0, 0, 88] ![0, 0, 0] S300x4x256
  h_S_ : 0 < S_.numel
  shapeCasts_S300x4x256_S300x1024 : S300x4x256.ShapeCasts S300x1024
  bitsLt_bf16_f32 : FTy.bits .bf16 < FTy.bits .f32
  shapeCasts_S50x672_S50x4x168 : S50x672.ShapeCasts S50x4x168
  pads_S50x4x168_S50x4x256_000_000_0880 : S50x4x168.Pads (![0, 0, 0] : Fin 3 → Nat) ![0, 0, 88] ![0, 0, 0] S50x4x256
  shapeCasts_S50x4x256_S50x1024 : S50x4x256.ShapeCasts S50x1024
  shapeCasts_S168x672_S168x4x168 : S168x672.ShapeCasts S168x4x168
  pads_S168x4x168_S168x4x256_000_000_0880 : S168x4x168.Pads (![0, 0, 0] : Fin 3 → Nat) ![0, 0, 88] ![0, 0, 0] S168x4x256
  shapeCasts_S168x4x256_S168x1024 : S168x4x256.ShapeCasts S168x1024
  shapeCasts_S672_S4x168 : S672.ShapeCasts S4x168
  pads_S4x168_S4x256_000_0880 : S4x168.Pads (![0, 0] : Fin 2 → Nat) ![0, 88] ![0, 0] S4x256
  shapeCasts_S4x256_S1x1024 : S4x256.ShapeCasts S1x1024
  shapeCasts_S50x840_S50x5x168 : S50x840.ShapeCasts S50x5x168
  pads_S50x5x168_S50x5x256_000_000_0880 : S50x5x168.Pads (![0, 0, 0] : Fin 3 → Nat) ![0, 0, 88] ![0, 0, 0] S50x5x256
  shapeCasts_S50x5x256_S50x1280 : S50x5x256.ShapeCasts S50x1280
  shapeCasts_S168x840_S168x5x168 : S168x840.ShapeCasts S168x5x168
  pads_S168x5x168_S168x5x256_000_000_0880 : S168x5x168.Pads (![0, 0, 0] : Fin 3 → Nat) ![0, 0, 88] ![0, 0, 0] S168x5x256
  shapeCasts_S168x5x256_S168x1280 : S168x5x256.ShapeCasts S168x1280
  shapeCasts_S840_S5x168 : S840.ShapeCasts S5x168
  pads_S5x168_S5x256_000_0880 : S5x168.Pads (![0, 0] : Fin 2 → Nat) ![0, 88] ![0, 0] S5x256
  shapeCasts_S5x256_S1x1280 : S5x256.ShapeCasts S1x1280
  h_S200x300 : 0 < S200x300.numel
  h_S200x50 : 0 < S200x50.numel
  h_S200x168 : 0 < S200x168.numel
  inb_S300x1024_S300x1024_0_0 : ∀ a, (![0, 0] : Fin 2 → Nat) a + S300x1024.size a ≤ S300x1024.size a
  h_S300x1024 : 0 < S300x1024.numel
  shapeCasts_S300x1024_S300x1024 : S300x1024.ShapeCasts S300x1024
  inb_S50x1024_S50x1024_0_0 : ∀ a, (![0, 0] : Fin 2 → Nat) a + S50x1024.size a ≤ S50x1024.size a
  h_S50x1024 : 0 < S50x1024.numel
  shapeCasts_S50x1024_S50x1024 : S50x1024.ShapeCasts S50x1024
  inb_S168x1024_S168x1024_0_0 : ∀ a, (![0, 0] : Fin 2 → Nat) a + S168x1024.size a ≤ S168x1024.size a
  h_S168x1024 : 0 < S168x1024.numel
  shapeCasts_S168x1024_S168x1024 : S168x1024.ShapeCasts S168x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S200x1024 : S1x1024.Broadcasts S200x1024
  slices_S200x1024_o0_0_S200x168 : S200x1024.Slices ![0, 0] S200x168
  slices_S200x1024_o0_256_S200x168 : S200x1024.Slices ![0, 256] S200x168
  slices_S200x1024_o0_512_S200x168 : S200x1024.Slices ![0, 512] S200x168
  slices_S200x1024_o0_768_S200x168 : S200x1024.Slices ![0, 768] S200x168
  inb_S50x1280_S50x1280_0_0 : ∀ a, (![0, 0] : Fin 2 → Nat) a + S50x1280.size a ≤ S50x1280.size a
  h_S50x1280 : 0 < S50x1280.numel
  shapeCasts_S50x1280_S50x1280 : S50x1280.ShapeCasts S50x1280
  inb_S168x1280_S168x1280_0_0 : ∀ a, (![0, 0] : Fin 2 → Nat) a + S168x1280.size a ≤ S168x1280.size a
  h_S168x1280 : 0 < S168x1280.numel
  shapeCasts_S168x1280_S168x1280 : S168x1280.ShapeCasts S168x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S200x1280 : S1x1280.Broadcasts S200x1280
  slices_S200x1280_o0_0_S200x168 : S200x1280.Slices ![0, 0] S200x168
  slices_S200x1280_o0_256_S200x168 : S200x1280.Slices ![0, 256] S200x168
  slices_S200x1280_o0_512_S200x168 : S200x1280.Slices ![0, 512] S200x168
  slices_S200x1280_o0_768_S200x168 : S200x1280.Slices ![0, 768] S200x168
  slices_S200x1280_o0_1024_S200x168 : S200x1280.Slices ![0, 1024] S200x168
  dot_S200x300_S300x1024_S200x1024_1_0_0_1_n_n_wf : DotDims.WF S200x300 S300x1024 S200x1024 [1] [0] [0] [1] [] []
  dot_S200x50_S50x1024_S200x1024_1_0_0_1_n_n_wf : DotDims.WF S200x50 S50x1024 S200x1024 [1] [0] [0] [1] [] []
  dot_S200x168_S168x1024_S200x1024_1_0_0_1_n_n_wf : DotDims.WF S200x168 S168x1024 S200x1024 [1] [0] [0] [1] [] []
  dot_S200x50_S50x1280_S200x1280_1_0_0_1_n_n_wf : DotDims.WF S200x50 S50x1280 S200x1280 [1] [0] [0] [1] [] []
  dot_S200x168_S168x1280_S200x1280_1_0_0_1_n_n_wf : DotDims.WF S200x168 S168x1280 S200x1280 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S200x300.size a ≤ S1000x300.size a
  k0_off2_inb : ∀ k0_t1 : Fin k0_t1_loop.trips, ∀ a, (k0_off2 k0_t1) a + S200x50.size a ≤ S1000x50.size a
  k0_off3_inb : ∀ k0_t1 : Fin k0_t1_loop.trips, ∀ a, (k0_off3 k0_t1) a + S200x168.size a ≤ S1000x168.size a
  k0_off4_inb : ∀ k0_t1 : Fin k0_t1_loop.trips, ∀ a, (k0_off4 k0_t1) a + S200x168.size a ≤ S1000x336.size a
  k0_off5_inb : ∀ k0_t1 : Fin k0_t1_loop.trips, ∀ a, (k0_off5 k0_t1) a + S200x168.size a ≤ S1000x336.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x300.size a ≤ S100000x300.size a
  hwx0_0 : ∀ i : grid0.Coords, EltTy.bits .f32 = 32 ∨ (Rect.block (s := S100000x300) S1000x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x50.size a ≤ S100000x50.size a
  hwx0_1 : ∀ i : grid0.Coords, EltTy.bits .f32 = 32 ∨ (Rect.block (s := S100000x50) S1000x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x50.size a ≤ S100000x50.size a
  hwx0_2 : ∀ i : grid0.Coords, EltTy.bits .f32 = 32 ∨ (Rect.block (s := S100000x50) S1000x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x168.size a ≤ S100000x168.size a
  hwx0_3 : ∀ i : grid0.Coords, EltTy.bits .f32 = 32 ∨ (Rect.block (s := S100000x168) S1000x168.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x168.size a ≤ S100000x168.size a
  hwx0_4 : ∀ i : grid0.Coords, EltTy.bits .f32 = 32 ∨ (Rect.block (s := S100000x168) S1000x168.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x168.size a ≤ S100000x168.size a
  hwx0_5 : ∀ i : grid0.Coords, EltTy.bits .f32 = 32 ∨ (Rect.block (s := S100000x168) S1000x168.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x168.size a ≤ S100000x168.size a
  hwx0_6 : ∀ i : grid0.Coords, EltTy.bits .f32 = 32 ∨ (Rect.block (s := S100000x168) S1000x168.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S300x1024.size a ≤ S300x1024.size a
  hwx0_7 : ∀ i : grid0.Coords, EltTy.bits .bf16 = 32 ∨ (Rect.block (s := S300x1024) S300x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S50x1024.size a ≤ S50x1024.size a
  hwx0_8 : ∀ i : grid0.Coords, EltTy.bits .bf16 = 32 ∨ (Rect.block (s := S50x1024) S50x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S50x1024.size a ≤ S50x1024.size a
  hwx0_9 : ∀ i : grid0.Coords, EltTy.bits .bf16 = 32 ∨ (Rect.block (s := S50x1024) S50x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S168x1024.size a ≤ S168x1024.size a
  hwx0_10 : ∀ i : grid0.Coords, EltTy.bits .bf16 = 32 ∨ (Rect.block (s := S168x1024) S168x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S50x1280.size a ≤ S50x1280.size a
  hwx0_12 : ∀ i : grid0.Coords, EltTy.bits .bf16 = 32 ∨ (Rect.block (s := S50x1280) S50x1280.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S50x1280.size a ≤ S50x1280.size a
  hwx0_13 : ∀ i : grid0.Coords, EltTy.bits .bf16 = 32 ∨ (Rect.block (s := S50x1280) S50x1280.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S168x1280.size a ≤ S168x1280.size a
  hwx0_14 : ∀ i : grid0.Coords, EltTy.bits .bf16 = 32 ∨ (Rect.block (s := S168x1280) S168x1280.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S168x1024.size a ≤ S168x1024.size a
  hwx0_15 : ∀ i : grid0.Coords, EltTy.bits .bf16 = 32 ∨ (Rect.block (s := S168x1024) S168x1024.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1280.size a ≤ S1x1280.size a
  hwx0_16 : ∀ i : grid0.Coords, EltTy.bits .f32 = 32 ∨ (Rect.block (s := S1x1280) S1x1280.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1000x336.size a ≤ S100000x336.size a
  hwx0_17 : ∀ i : grid0.Coords, EltTy.bits .f32 = 32 ∨ (Rect.block (s := S100000x336) S1000x336.size (cc0_transform_17 i) (hinb0_17 i)).WholeWords (EltTy.packing .f32)

variable [Facts₀]

def dot_S200x300_S300x1024_S200x1024_1_0_0_1_n_n : DotDims S200x300 S300x1024 S200x1024 where
  lhsContracting := [1]
  rhsContracting := [0]
  lhsNonContracting := [0]
  rhsNonContracting := [1]
  lhsBatch := []
  rhsBatch := []
  wf := dot_S200x300_S300x1024_S200x1024_1_0_0_1_n_n_wf
def dot_S200x50_S50x1024_S200x1024_1_0_0_1_n_n : DotDims S200x50 S50x1024 S200x1024 where
  lhsContracting := [1]
  rhsContracting := [0]
  lhsNonContracting := [0]
  rhsNonContracting := [1]
  lhsBatch := []
  rhsBatch := []
  wf := dot_S200x50_S50x1024_S200x1024_1_0_0_1_n_n_wf
def dot_S200x168_S168x1024_S200x1024_1_0_0_1_n_n : DotDims S200x168 S168x1024 S200x1024 where
  lhsContracting := [1]
  rhsContracting := [0]
  lhsNonContracting := [0]
  rhsNonContracting := [1]
  lhsBatch := []
  rhsBatch := []
  wf := dot_S200x168_S168x1024_S200x1024_1_0_0_1_n_n_wf
def dot_S200x50_S50x1280_S200x1280_1_0_0_1_n_n : DotDims S200x50 S50x1280 S200x1280 where
  lhsContracting := [1]
  rhsContracting := [0]
  lhsNonContracting := [0]
  rhsNonContracting := [1]
  lhsBatch := []
  rhsBatch := []
  wf := dot_S200x50_S50x1280_S200x1280_1_0_0_1_n_n_wf
def dot_S200x168_S168x1280_S200x1280_1_0_0_1_n_n : DotDims S200x168 S168x1280 S200x1280 where
  lhsContracting := [1]
  rhsContracting := [0]
  lhsNonContracting := [0]
  rhsNonContracting := [1]
  lhsBatch := []
  rhsBatch := []
  wf := dot_S200x168_S168x1280_S200x1280_1_0_0_1_n_n_wf

abbrev win0_0 : Pipeline.Window sig grid0 :=
  Pipeline.Window.ofSpec (Memref.whole main_arg0) S1000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1000x168.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1000x168.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1000x168.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1000x168.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S300x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S50x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S50x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S168x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S50x1280.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v26) S50x1280.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v30) S168x1280.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v34) S168x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v37) S1x1280.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v38) S1000x336.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S100000x300 : Shape := ⟨2, ![100000, 300]⟩
abbrev S100000x50 : Shape := ⟨2, ![100000, 50]⟩
abbrev S100000x168 : Shape := ⟨2, ![100000, 168]⟩
abbrev S300x672 : Shape := ⟨2, ![300, 672]⟩
abbrev S50x672 : Shape := ⟨2, ![50, 672]⟩
abbrev S168x672 : Shape := ⟨2, ![168, 672]⟩
abbrev S672 : Shape := ⟨1, ![672]⟩
abbrev S50x840 : Shape := ⟨2, ![50, 840]⟩
abbrev S168x840 : Shape := ⟨2, ![168, 840]⟩
abbrev S840 : Shape := ⟨1, ![840]⟩
abbrev S100000x672 : Shape := ⟨2, ![100000, 672]⟩
abbrev S1x672 : Shape := ⟨2, ![1, 672]⟩
abbrev S_ : Shape := ⟨0, ![]⟩
abbrev S100000x840 : Shape := ⟨2, ![100000, 840]⟩
abbrev S1x840 : Shape := ⟨2, ![1, 840]⟩
abbrev S100000x336 : Shape := ⟨2, ![100000, 336]⟩

abbrev nBuf : Space → Nat
  | .hbm => 124
  | .vmem => 0
  | .smem => 0
  | _ => 0

abbrev bufTy : (tb : Table) → Fin (tcTables nBuf tb) → BufTy
  | .hbm, ⟨0, _⟩ => ⟨S100000x300, .f32⟩
  | .hbm, ⟨1, _⟩ => ⟨S100000x50, .f32⟩
  | .hbm, ⟨2, _⟩ => ⟨S100000x50, .f32⟩
  | .hbm, ⟨3, _⟩ => ⟨S100000x168, .f32⟩
  | .hbm, ⟨4, _⟩ => ⟨S100000x168, .f32⟩
  | .hbm, ⟨5, _⟩ => ⟨S100000x168, .f32⟩
  | .hbm, ⟨6, _⟩ => ⟨S100000x168, .f32⟩
  | .hbm, ⟨7, _⟩ => ⟨S300x672, .f32⟩
  | .hbm, ⟨8, _⟩ => ⟨S50x672, .f32⟩
  | .hbm, ⟨9, _⟩ => ⟨S50x672, .f32⟩
  | .hbm, ⟨10, _⟩ => ⟨S168x672, .f32⟩
  | .hbm, ⟨11, _⟩ => ⟨S672, .f32⟩
  | .hbm, ⟨12, _⟩ => ⟨S50x840, .f32⟩
  | .hbm, ⟨13, _⟩ => ⟨S50x840, .f32⟩
  | .hbm, ⟨14, _⟩ => ⟨S168x840, .f32⟩
  | .hbm, ⟨15, _⟩ => ⟨S168x672, .f32⟩
  | .hbm, ⟨16, _⟩ => ⟨S840, .f32⟩
  | .hbm, ⟨17, _⟩ => ⟨S100000x672, .f32⟩
  | .hbm, ⟨18, _⟩ => ⟨S100000x672, .f32⟩
  | .hbm, ⟨19, _⟩ => ⟨S100000x672, .f32⟩
  | .hbm, ⟨20, _⟩ => ⟨S100000x672, .f32⟩
  | .hbm, ⟨21, _⟩ => ⟨S100000x672, .f32⟩
  | .hbm, ⟨22, _⟩ => ⟨S100000x672, .f32⟩
  | .hbm, ⟨23, _⟩ => ⟨S100000x672, .f32⟩
  | .hbm, ⟨24, _⟩ => ⟨S1x672, .f32⟩
  | .hbm, ⟨25, _⟩ => ⟨S100000x672, .f32⟩
  | .hbm, ⟨26, _⟩ => ⟨S100000x672, .f32⟩
  | .hbm, ⟨27, _⟩ => ⟨S100000x168, .f32⟩
  | .hbm, ⟨28, _⟩ => ⟨S100000x168, .f32⟩
  | .hbm, ⟨29, _⟩ => ⟨S100000x168, .f32⟩
  | .hbm, ⟨30, _⟩ => ⟨S100000x168, .f32⟩
  | .hbm, ⟨31, _⟩ => ⟨S100000x168, .f32⟩
  | .hbm, ⟨32, _⟩ => ⟨S100000x168, .f32⟩
  | .hbm, ⟨33, _⟩ => ⟨S_, .f32⟩
  | .hbm, ⟨34, _⟩ => ⟨S100000x168, .f32⟩
  | .hbm, ⟨35, _⟩ => ⟨S100000x168, .f32⟩
  | .hbm, ⟨36, _⟩ => ⟨S_, .f32⟩
  | .hbm, ⟨37, _⟩ => ⟨S100000x168, .f32⟩
  | .hbm, ⟨38, _⟩ => ⟨S100000x168, .f32⟩
  | .hbm, ⟨39, _⟩ => ⟨S100000x168, .f32⟩
  | .hbm, ⟨40, _⟩ => ⟨S100000x168, .f32⟩
  | .hbm, ⟨41, _⟩ => ⟨S100000x168, .f32⟩
  | .hbm, ⟨42, _⟩ => ⟨S100000x168, .f32⟩
  | .hbm, ⟨43, _⟩ => ⟨S_, .f32⟩
  | .hbm, ⟨44, _⟩ => ⟨S100000x168, .f32⟩
  | .hbm, ⟨45, _⟩ => ⟨S100000x168, .f32⟩
  | .hbm, ⟨46, _⟩ => ⟨S_, .f32⟩
  | .hbm, ⟨47, _⟩ => ⟨S100000x168, .f32⟩
  | .hbm, ⟨48, _⟩ => ⟨S100000x168, .f32⟩
  | .hbm, ⟨49, _⟩ => ⟨S100000x168, .f32⟩
  | .hbm, ⟨50, _⟩ => ⟨S100000x168, .f32⟩
  | .hbm, ⟨51, _⟩ => ⟨S100000x168, .f32⟩
  | .hbm, ⟨52, _⟩ => ⟨S100000x168, .f32⟩
  | .hbm, ⟨53, _⟩ => ⟨S_, .f32⟩
  | .hbm, ⟨54, _⟩ => ⟨S100000x168, .f32⟩
  | .hbm, ⟨55, _⟩ => ⟨S100000x168, .f32⟩
  | .hbm, ⟨56, _⟩ => ⟨S_, .f32⟩
  | .hbm, ⟨57, _⟩ => ⟨S100000x168, .f32⟩
  | .hbm, ⟨58, _⟩ => ⟨S100000x168, .f32⟩
  | .hbm, ⟨59, _⟩ => ⟨S100000x168, .f32⟩
  | .hbm, ⟨60, _⟩ => ⟨S100000x168, .f32⟩
  | .hbm, ⟨61, _⟩ => ⟨S100000x840, .f32⟩
  | .hbm, ⟨62, _⟩ => ⟨S100000x840, .f32⟩
  | .hbm, ⟨63, _⟩ => ⟨S100000x840, .f32⟩
  | .hbm, ⟨64, _⟩ => ⟨S100000x840, .f32⟩
  | .hbm, ⟨65, _⟩ => ⟨S100000x840, .f32⟩
  | .hbm, ⟨66, _⟩ => ⟨S1x840, .f32⟩
  | .hbm, ⟨67, _⟩ => ⟨S100000x840, .f32⟩
  | .hbm, ⟨68, _⟩ => ⟨S100000x840, .f32⟩
  | .hbm, ⟨69, _⟩ => ⟨S100000x672, .f32⟩
  | .hbm, ⟨70, _⟩ => ⟨S100000x168, .f32⟩
  | .hbm, ⟨71, _⟩ => ⟨S100000x168, .f32⟩
  | .hbm, ⟨72, _⟩ => ⟨S100000x168, .f32⟩
  | .hbm, ⟨73, _⟩ => ⟨S100000x168, .f32⟩
  | .hbm, ⟨74, _⟩ => ⟨S100000x168, .f32⟩
  | .hbm, ⟨75, _⟩ => ⟨S100000x168, .f32⟩
  | .hbm, ⟨76, _⟩ => ⟨S100000x168, .f32⟩
  | .hbm, ⟨77, _⟩ => ⟨S100000x168, .f32⟩
  | .hbm, ⟨78, _⟩ => ⟨S100000x168, .f32⟩
  | .hbm, ⟨79, _⟩ => ⟨S100000x168, .f32⟩
  | .hbm, ⟨80, _⟩ => ⟨S100000x168, .f32⟩
  | .hbm, ⟨81, _⟩ => ⟨S100000x168, .f32⟩
  | .hbm, ⟨82, _⟩ => ⟨S100000x168, .f32⟩
  | .hbm, ⟨83, _⟩ => ⟨S100000x168, .f32⟩
  | .hbm, ⟨84, _⟩ => ⟨S100000x168, .f32⟩
  | .hbm, ⟨85, _⟩ => ⟨S_, .f32⟩
  | .hbm, ⟨86, _⟩ => ⟨S100000x168, .f32⟩
  | .hbm, ⟨87, _⟩ => ⟨S100000x168, .f32⟩
  | .hbm, ⟨88, _⟩ => ⟨S_, .f32⟩
  | .hbm, ⟨89, _⟩ => ⟨S100000x168, .f32⟩
  | .hbm, ⟨90, _⟩ => ⟨S100000x168, .f32⟩
  | .hbm, ⟨91, _⟩ => ⟨S100000x168, .f32⟩
  | .hbm, ⟨92, _⟩ => ⟨S100000x168, .f32⟩
  | .hbm, ⟨93, _⟩ => ⟨S100000x168, .f32⟩
  | .hbm, ⟨94, _⟩ => ⟨S100000x168, .f32⟩
  | .hbm, ⟨95, _⟩ => ⟨S_, .f32⟩
  | .hbm, ⟨96, _⟩ => ⟨S100000x168, .f32⟩
  | .hbm, ⟨97, _⟩ => ⟨S100000x168, .f32⟩
  | .hbm, ⟨98, _⟩ => ⟨S_, .f32⟩
  | .hbm, ⟨99, _⟩ => ⟨S100000x168, .f32⟩
  | .hbm, ⟨100, _⟩ => ⟨S100000x168, .f32⟩
  | .hbm, ⟨101, _⟩ => ⟨S100000x168, .f32⟩
  | .hbm, ⟨102, _⟩ => ⟨S100000x168, .f32⟩
  | .hbm, ⟨103, _⟩ => ⟨S100000x168, .f32⟩
  | .hbm, ⟨104, _⟩ => ⟨S100000x168, .f32⟩
  | .hbm, ⟨105, _⟩ => ⟨S_, .f32⟩
  | .hbm, ⟨106, _⟩ => ⟨S100000x168, .f32⟩
  | .hbm, ⟨107, _⟩ => ⟨S100000x168, .f32⟩
  | .hbm, ⟨108, _⟩ => ⟨S_, .f32⟩
  | .hbm, ⟨109, _⟩ => ⟨S100000x168, .f32⟩
  | .hbm, ⟨110, _⟩ => ⟨S100000x168, .f32⟩
  | .hbm, ⟨111, _⟩ => ⟨S100000x168, .f32⟩
  | .hbm, ⟨112, _⟩ => ⟨S100000x168, .f32⟩
  | .hbm, ⟨113, _⟩ => ⟨S100000x168, .f32⟩
  | .hbm, ⟨114, _⟩ => ⟨S100000x168, .f32⟩
  | .hbm, ⟨115, _⟩ => ⟨S_, .f32⟩
  | .hbm, ⟨116, _⟩ => ⟨S100000x168, .f32⟩
  | .hbm, ⟨117, _⟩ => ⟨S100000x168, .f32⟩
  | .hbm, ⟨118, _⟩ => ⟨S_, .f32⟩
  | .hbm, ⟨119, _⟩ => ⟨S100000x168, .f32⟩
  | .hbm, ⟨120, _⟩ => ⟨S100000x168, .f32⟩
  | .hbm, ⟨121, _⟩ => ⟨S100000x168, .f32⟩
  | .hbm, ⟨122, _⟩ => ⟨S100000x168, .f32⟩
  | .hbm, ⟨123, _⟩ => ⟨S100000x336, .f32⟩
  | _, _ => ⟨S100000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_5 : Ref sig .tc := ⟨.hbm, 85, rfl⟩
abbrev main_v62 : Ref sig .tc := ⟨.hbm, 86, rfl⟩
abbrev main_v63 : Ref sig .tc := ⟨.hbm, 87, rfl⟩
abbrev main_cst_6 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_7 : Ref sig .tc := ⟨.hbm, 95, rfl⟩
abbrev main_v70 : Ref sig .tc := ⟨.hbm, 96, rfl⟩
abbrev main_v71 : Ref sig .tc := ⟨.hbm, 97, rfl⟩
abbrev main_cst_8 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_9 : Ref sig .tc := ⟨.hbm, 105, rfl⟩
abbrev main_v78 : Ref sig .tc := ⟨.hbm, 106, rfl⟩
abbrev main_v79 : Ref sig .tc := ⟨.hbm, 107, rfl⟩
abbrev main_cst_10 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_11 : Ref sig .tc := ⟨.hbm, 115, rfl⟩
abbrev main_v86 : Ref sig .tc := ⟨.hbm, 116, rfl⟩
abbrev main_v87 : Ref sig .tc := ⟨.hbm, 117, rfl⟩
abbrev main_cst_12 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩

abbrev nD : Nat := 1
abbrev τ : Topo := Topo.v7x

variable {F : FTy → Type} [FloatOps F]

class Facts₀ : Prop where
  bcast_S672_S1x672_1 : S672.BroadcastsInDim S1x672 (![1] : Fin 1 → Fin S1x672.rank)
  bcast_S1x672_S100000x672_0_1 : S1x672.BroadcastsInDim S100000x672 (![0, 1] : Fin 2 → Fin S100000x672.rank)
  slices_S100000x672_S100000x168_0_0 : S100000x672.Slices ![0, 0] S100000x168
  slices_S100000x672_S100000x168_0_168 : S100000x672.Slices ![0, 168] S100000x168
  slices_S100000x672_S100000x168_0_336 : S100000x672.Slices ![0, 336] S100000x168
  slices_S100000x672_S100000x168_0_504 : S100000x672.Slices ![0, 504] S100000x168
  bcast_S_S100000x168 : S_.BroadcastsInDim S100000x168 (![] : Fin 0 → Fin S100000x168.rank)
  bcast_S840_S1x840_1 : S840.BroadcastsInDim S1x840 (![1] : Fin 1 → Fin S1x840.rank)
  bcast_S1x840_S100000x840_0_1 : S1x840.BroadcastsInDim S100000x840 (![0, 1] : Fin 2 → Fin S100000x840.rank)
  slices_S100000x840_S100000x168_0_0 : S100000x840.Slices ![0, 0] S100000x168
  slices_S100000x840_S100000x168_0_168 : S100000x840.Slices ![0, 168] S100000x168
  slices_S100000x840_S100000x168_0_336 : S100000x840.Slices ![0, 336] S100000x168
  slices_S100000x840_S100000x168_0_504 : S100000x840.Slices ![0, 504] S100000x168
  slices_S100000x840_S100000x168_0_672 : S100000x840.Slices ![0, 672] S100000x168
  concatenates_S100000x168_S100000x168_S100000x336_d1 : Shape.Concatenates [S100000x168, S100000x168] S100000x336 1
  dot_S100000x300_S300x672_S100000x672_1_0_0_1_n_n_wf : DotDims.WF S100000x300 S300x672 S100000x672 [1] [0] [0] [1] [] []
  dot_S100000x50_S50x672_S100000x672_1_0_0_1_n_n_wf : DotDims.WF S100000x50 S50x672 S100000x672 [1] [0] [0] [1] [] []
  dot_S100000x168_S168x672_S100000x672_1_0_0_1_n_n_wf : DotDims.WF S100000x168 S168x672 S100000x672 [1] [0] [0] [1] [] []
  dot_S100000x50_S50x840_S100000x840_1_0_0_1_n_n_wf : DotDims.WF S100000x50 S50x840 S100000x840 [1] [0] [0] [1] [] []
  dot_S100000x168_S168x840_S100000x840_1_0_0_1_n_n_wf : DotDims.WF S100000x168 S168x840 S100000x840 [1] [0] [0] [1] [] []

variable [Facts₀]

def dot_S100000x300_S300x672_S100000x672_1_0_0_1_n_n : DotDims S100000x300 S300x672 S100000x672 where
  lhsContracting := [1]
  rhsContracting := [0]
  lhsNonContracting := [0]
  rhsNonContracting := [1]
  lhsBatch := []
  rhsBatch := []
  wf := dot_S100000x300_S300x672_S100000x672_1_0_0_1_n_n_wf
def dot_S100000x50_S50x672_S100000x672_1_0_0_1_n_n : DotDims S100000x50 S50x672 S100000x672 where
  lhsContracting := [1]
  rhsContracting := [0]
  lhsNonContracting := [0]
  rhsNonContracting := [1]
  lhsBatch := []
  rhsBatch := []
  wf := dot_S100000x50_S50x672_S100000x672_1_0_0_1_n_n_wf
def dot_S100000x168_S168x672_S100000x672_1_0_0_1_n_n : DotDims S100000x168 S168x672 S100000x672 where
  lhsContracting := [1]
  rhsContracting := [0]
  lhsNonContracting := [0]
  rhsNonContracting := [1]
  lhsBatch := []
  rhsBatch := []
  wf := dot_S100000x168_S168x672_S100000x672_1_0_0_1_n_n_wf
def dot_S100000x50_S50x840_S100000x840_1_0_0_1_n_n : DotDims S100000x50 S50x840 S100000x840 where
  lhsContracting := [1]
  rhsContracting := [0]
  lhsNonContracting := [0]
  rhsNonContracting := [1]
  lhsBatch := []
  rhsBatch := []
  wf := dot_S100000x50_S50x840_S100000x840_1_0_0_1_n_n_wf
def dot_S100000x168_S168x840_S100000x840_1_0_0_1_n_n : DotDims S100000x168 S168x840 S100000x840 where
  lhsContracting := [1]
  rhsContracting := [0]
  lhsNonContracting := [0]
  rhsNonContracting := [1]
  lhsBatch := []
  rhsBatch := []
  wf := dot_S100000x168_S168x840_S100000x840_1_0_0_1_n_n_wf

class Facts : Prop extends Facts₀ where

variable [Facts]
-- ==== Proof.CellSpec.lean ====
/-
  The mathematics both programs compute, one row of the batch at a time.

  A row carries a word vector `e` (300), two tag vectors `tg`, `tp` (50 each), a previous hidden state `h`
  and cell state `cp` (168 each), a child-sum vector `kk` and a down-state `q` (168 each). A LEAF cell forms four
  gate pre-activations per column `c < 168` — input, output, forget-left, update — each the sum of four
  matrix-vector products and a bias, and from them the leaf cell state and hidden state

      c₁ = σ(i)·tanh(u) + σ(f)·cp        h₁ = σ(o)·tanh(c₁).

  A NODE cell then forms five pre-activations from the tags and the leaf hidden state `h₁` (input, output, forget-left,
  forget-down, update), adds to the first four a product of the child sum `kk`, and yields

      c₂ = (σ(i₂)·tanh(u₂) + σ(fd₂)·q) + σ(fl₂)·c₁        h₂ = σ(o₂)·tanh(c₂).

  The row of the result is `h₂` (168 columns) followed by `c₂` (168 columns). Every weight is read through an
  accessor "gate g, column c, input k", so that a weight matrix stored with its gates side by side at stride 168
  and one stored with each gate padded to stride 256 are two accessors of one specification. The sums are written
  in the order both programs add them; no law of the extended reals is used between the two sides.
-/
import Idealize.ShloMosaic.PureOps.Ideal

noncomputable section

open scoped BigOperators

namespace Cert.TreeCell

open Idealize.ShloMosaic

/-- One row of the seven batched inputs. -/
structure Row where
  e : Fin 300 → EReal
  tg : Fin 50 → EReal
  tp : Fin 50 → EReal
  h : Fin 168 → EReal
  cp : Fin 168 → EReal
  kk : Fin 168 → EReal
  q : Fin 168 → EReal

/-- The ten weight arrays, each read as "gate, column, input index". -/
structure Weights where
  We : Fin 4 → Fin 168 → Fin 300 → EReal
  Wt : Fin 4 → Fin 168 → Fin 50 → EReal
  Wtp : Fin 4 → Fin 168 → Fin 50 → EReal
  Uh : Fin 4 → Fin 168 → Fin 168 → EReal
  bl : Fin 4 → Fin 168 → EReal
  Wtn : Fin 5 → Fin 168 → Fin 50 → EReal
  Wtpn : Fin 5 → Fin 168 → Fin 50 → EReal
  Uhn : Fin 5 → Fin 168 → Fin 168 → EReal
  Ukn : Fin 4 → Fin 168 → Fin 168 → EReal
  bn : Fin 5 → Fin 168 → EReal

variable (x : Row) (W : Weights)

/-- A leaf gate's pre-activation: four products, added left to right, then the bias. -/
def leafPre (g : Fin 4) (c : Fin 168) : EReal :=
  ((((∑ k, x.e k * W.We g c k) + ∑ k, x.tg k * W.Wt g c k) + ∑ k, x.tp k * W.Wtp g c k) + ∑ k, x.h k * W.Uh g c k)
    + W.bl g c

/-- The leaf cell state. Gates: 0 input, 1 output, 2 forget-left, 3 update. -/
def leafC (c : Fin 168) : EReal :=
  Ideal.logistic (leafPre x W 0 c) * Ideal.tanh (leafPre x W 3 c) + Ideal.logistic (leafPre x W 2 c) * x.cp c

/-- The leaf hidden state. -/
def leafH (c : Fin 168) : EReal :=
  Ideal.logistic (leafPre x W 1 c) * Ideal.tanh (leafC x W c)

/-- A node gate's pre-activation from the tags and the leaf hidden state. -/
def nodePre (g : Fin 5) (c : Fin 168) : EReal :=
  (((∑ k, x.tg k * W.Wtn g c k) + ∑ k, x.tp k * W.Wtpn g c k) + ∑ k, leafH x W k * W.Uhn g c k) + W.bn g c

/-- The child sum's contribution to the first four node gates. -/
def childPre (g : Fin 4) (c : Fin 168) : EReal :=
  ∑ k, x.kk k * W.Ukn g c k

/-- The node cell state. Gates: 0 input, 1 output, 2 forget-left, 3 forget-down, 4 update. -/
def nodeC (c : Fin 168) : EReal :=
  (Ideal.logistic (nodePre x W 0 c + childPre x W 0 c) * Ideal.tanh (nodePre x W 4 c)
      + Ideal.logistic (nodePre x W 3 c + childPre x W 3 c) * x.q c)
    + Ideal.logistic (nodePre x W 2 c + childPre x W 2 c) * leafC x W c

/-- The node hidden state. -/
def nodeH (c : Fin 168) : EReal :=
  Ideal.logistic (nodePre x W 1 c + childPre x W 1 c) * Ideal.tanh (nodeC x W c)

/-- The row of the result: the hidden state, then the cell state. -/
def outRow (j : Fin 336) : EReal :=
  if h : j.val < 168 then nodeH x W ⟨j.val, h⟩ else nodeC x W ⟨j.val - 168, by have := j.isLt; omega⟩

end Cert.TreeCell

end
-- ==== Proof.CellArrays.lean ====
/-
  The specification of CellSpec.lean instantiated at arrays: a row of the seven batched inputs, the ten weight
  arrays read with their gates side by side at stride 168 (as the arguments store them) or with each gate padded to
  stride 256 (as the kernel's operands store them), and the whole result array — row `r`, column `j` is the
  specification's row of row `r` of the inputs at column `j`.
-/
import proofs.«151848_j44324062495020_2_alg».proof.Proof.CellSpec
import Idealize.ShloMosaic.Lib.ValueIdx

noncomputable section

namespace Cert.TreeCell

open Idealize.ShloMosaic Idealize.ShloMosaic.ValueIdx

/-- A real-valued array of a literal rank-2 shape. -/
abbrev Arr2 (a b : Nat) : Type := (⟨2, ![a, b]⟩ : Shape).Idx → EReal
/-- A real-valued array of a literal rank-1 shape. -/
abbrev Arr1 (a : Nat) : Type := (⟨1, ![a]⟩ : Shape).Idx → EReal

/-- Column `c` of gate `g` when the gates lie side by side at stride 168. -/
abbrev col168 {G : Nat} (g : Fin G) (c : Fin 168) : Fin (G * 168) :=
  ⟨168 * g.val + c.val, by have := g.isLt; have := c.isLt; nlinarith⟩
/-- Column `c` of gate `g` when each gate is padded to stride 256. -/
abbrev col256 {G : Nat} (g : Fin G) (c : Fin 168) : Fin (G * 256) :=
  ⟨256 * g.val + c.val, by have := g.isLt; have := c.isLt; nlinarith⟩

/-- Row `r` of the seven batched inputs, out of arrays of `n` rows. -/
def rowOf {n : Nat} (e : Arr2 n 300) (tg tp : Arr2 n 50) (h cp kk q : Arr2 n 168) (r : Fin n) : Row where
  e k := e (ix2 r k)
  tg k := tg (ix2 r k)
  tp k := tp (ix2 r k)
  h k := h (ix2 r k)
  cp k := cp (ix2 r k)
  kk k := kk (ix2 r k)
  q k := q (ix2 r k)

/-- The weights as the arguments store them: gate `g`, column `c` at column `168 g + c`. -/
def weightsOf (We : Arr2 300 (4 * 168)) (Wt Wtp : Arr2 50 (4 * 168)) (Uh : Arr2 168 (4 * 168)) (bl : Arr1 (4 * 168))
    (Wtn Wtpn : Arr2 50 (5 * 168)) (Uhn : Arr2 168 (5 * 168)) (Ukn : Arr2 168 (4 * 168)) (bn : Arr1 (5 * 168)) : Weights where
  We g c k := We (ix2 k (col168 g c))
  Wt g c k := Wt (ix2 k (col168 g c))
  Wtp g c k := Wtp (ix2 k (col168 g c))
  Uh g c k := Uh (ix2 k (col168 g c))
  bl g c := bl (ix1 (col168 g c))
  Wtn g c k := Wtn (ix2 k (col168 g c))
  Wtpn g c k := Wtpn (ix2 k (col168 g c))
  Uhn g c k := Uhn (ix2 k (col168 g c))
  Ukn g c k := Ukn (ix2 k (col168 g c))
  bn g c := bn (ix1 (col168 g c))

/-- The weights as the kernel's operands store them: gate `g`, column `c` at column `256 g + c`; the two biases
    are one-row matrices. -/
def paddedWeightsOf (We : Arr2 300 (4 * 256)) (Wt Wtp : Arr2 50 (4 * 256)) (Uh : Arr2 168 (4 * 256)) (bl : Arr2 1 (4 * 256))
    (Wtn Wtpn : Arr2 50 (5 * 256)) (Uhn : Arr2 168 (5 * 256)) (Ukn : Arr2 168 (4 * 256)) (bn : Arr2 1 (5 * 256)) : Weights where
  We g c k := We (ix2 k (col256 g c))
  Wt g c k := Wt (ix2 k (col256 g c))
  Wtp g c k := Wtp (ix2 k (col256 g c))
  Uh g c k := Uh (ix2 k (col256 g c))
  bl g c := bl (ix2 0 (col256 g c))
  Wtn g c k := Wtn (ix2 k (col256 g c))
  Wtpn g c k := Wtpn (ix2 k (col256 g c))
  Uhn g c k := Uhn (ix2 k (col256 g c))
  Ukn g c k := Ukn (ix2 k (col256 g c))
  bn g c := bn (ix2 0 (col256 g c))

/-- The whole result: row `r`, column `j` is the specification's row of row `r` of the inputs, at column `j`. -/
def resultOf (e : Arr2 100000 300) (tg tp : Arr2 100000 50) (h cp kk q : Arr2 100000 168)
    (We : Arr2 300 (4 * 168)) (Wt Wtp : Arr2 50 (4 * 168)) (Uh : Arr2 168 (4 * 168)) (bl : Arr1 (4 * 168))
    (Wtn Wtpn : Arr2 50 (5 * 168)) (Uhn : Arr2 168 (5 * 168)) (Ukn : Arr2 168 (4 * 168)) (bn : Arr1 (5 * 168)) :
    Arr2 100000 336 :=
  fun i => outRow (rowOf e tg tp h cp kk q (i 0)) (weightsOf We Wt Wtp Uh bl Wtn Wtpn Uhn Ukn bn) (i 1)

end Cert.TreeCell

end
-- ==== Proof.RefValue.lean ====
/-
  The reference program computes the specification.

  The reference's run is read one operation at a time. Its four leaf products, added left to right with the bias,
  are the leaf gate pre-activations, gate `g`, column `c` at column `168 g + c`; the four column slices are the
  gates 0, 1, 2, 3. The quotient `1 / (1 + exp (-x))`, with the constant 1 spelled by its bit pattern, is the logistic
  function. So the reference's leaf cell and hidden state are the specification's, its five node slices plus the child
  products are the node gates, its node cell and hidden state are the specification's, and its result — the hidden
  state followed by the cell state along the columns — is the specification's row, row by row.
-/
import proofs.«151848_j44324062495020_2_alg».proof.Proof.CellArrays
import proofs.«151848_j44324062495020_2_alg».proof.Proof.RefRead

noncomputable section

open scoped BigOperators

namespace Cert.TreeCell

open Idealize.ShloMosaic Idealize.ShloMosaic.ValueIdx Cert.ReferenceIdeal Cert.ReferenceIdeal.Read

/-- Two rank-2 indices with the same coordinates are equal. -/
theorem idx2_ext {n0 n1 : Nat} (p q : (⟨2, ![n0, n1]⟩ : Shape).Idx)
    (h0 : (p 0).val = (q 0).val) (h1 : (p 1).val = (q 1).val) : p = q := by
  funext a
  match a with
  | ⟨0, _⟩ => exact Fin.ext h0
  | ⟨1, _⟩ => exact Fin.ext h1

/-- The bit pattern of 1.0 denotes 1. -/
theorem one_bits : FloatOps.ofBits (F := Ideal) .f32 0x3F800000#32 = (1 : EReal) :=
  IdealRules.sign_bit.ideal_onePat .f32

/-- `1 / (1 + exp (-y))`, as the reference spells it, is the logistic function. -/
theorem logistic_spelled (y : EReal) :
    FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) y)))
      = Ideal.logistic y := by
  rw [one_bits]
  rfl

/-- Two arrays of 168 columns joined along the columns, read at an index: a column below 168 reads the first
    array, a column from 168 on reads the second at that column less 168. -/
theorem concat_cols (A B : Arr2 100000 168)
    (h : Shape.Concatenates [(⟨2, ![100000, 168]⟩ : Shape), (⟨2, ![100000, 168]⟩ : Shape)] (⟨2, ![100000, 336]⟩ : Shape) 1)
    (j : (⟨2, ![100000, 336]⟩ : Shape).Idx) :
    concatenate (⟨2, ![100000, 336]⟩ : Shape) 1
        [⟨(⟨2, ![100000, 168]⟩ : Shape), A⟩, ⟨(⟨2, ![100000, 168]⟩ : Shape), B⟩] h j
      = if hj : (j 1).val < 168 then A (ix2 (j 0) ⟨(j 1).val, hj⟩)
        else B (ix2 (j 0) ⟨(j 1).val - 168, by have h336 : (j 1).val < 336 := (j 1).isLt; show (j 1).val - 168 < 168; omega⟩) := by
  by_cases hj : (j 1).val < 168
  · rw [dif_pos hj]
    refine concatenate_pair_apply_left (1 : Fin 2) A B h j rfl (ix2 (j 0) ⟨(j 1).val, hj⟩) ?_
    intro b
    match b with
    | ⟨0, _⟩ => rfl
    | ⟨1, _⟩ => rfl
  · rw [dif_neg hj]
    refine concatenate_pair_apply_right (1 : Fin 2) A B h j rfl rfl
      (ix2 (j 0) ⟨(j 1).val - 168, by have h336 : (j 1).val < 336 := (j 1).isLt; show (j 1).val - 168 < 168; omega⟩) ?_ ?_
    · intro b hb
      match b, hb with
      | ⟨0, _⟩, _ => rfl
      | ⟨1, _⟩, hb => exact absurd rfl hb
    · show (j 1).val - 168 + 168 = (j 1).val
      omega

section
variable (x0 : (⟨S100000x300, .f32⟩ : BufTy).Contents (Elt Ideal))
  (x1 x2 : (⟨S100000x50, .f32⟩ : BufTy).Contents (Elt Ideal))
  (x3 x4 x5 x6 : (⟨S100000x168, .f32⟩ : BufTy).Contents (Elt Ideal))
  (x7 : (⟨S300x672, .f32⟩ : BufTy).Contents (Elt Ideal))
  (x8 x9 : (⟨S50x672, .f32⟩ : BufTy).Contents (Elt Ideal))
  (x10 : (⟨S168x672, .f32⟩ : BufTy).Contents (Elt Ideal))
  (x11 : (⟨S672, .f32⟩ : BufTy).Contents (Elt Ideal))
  (x12 x13 : (⟨S50x840, .f32⟩ : BufTy).Contents (Elt Ideal))
  (x14 : (⟨S168x840, .f32⟩ : BufTy).Contents (Elt Ideal))
  (x15 : (⟨S168x672, .f32⟩ : BufTy).Contents (Elt Ideal))
  (x16 : (⟨S840, .f32⟩ : BufTy).Contents (Elt Ideal))

/-- The leaf pre-activations: the reference's sum of four products and the bias, at row `r` and column
    `168 g + c`, is gate `g`, column `c` of the specification. -/
theorem ref_leafPre (r : Fin 100000) (g : Fin 4) (c : Fin 168) :
    val_main_v9 (F := Ideal) x0 x1 x2 x3 x7 x8 x9 x10 x11 (ix2 r (col168 g c))
      = leafPre (rowOf x0 x1 x2 x3 x4 x5 x6 r) (weightsOf x7 x8 x9 x10 x11 x12 x13 x14 x15 x16) g c := by
  rw [val_main_v9_apply, val_main_v6_apply, val_main_v4_apply, val_main_v2_apply, val_main_v0_apply,
    val_main_v1_apply, val_main_v3_apply, val_main_v5_apply, val_main_v8_apply, val_main_v7_apply]
  have h_x0_lidxv0 : ∀ k : Fin 300, x0 (lidx_main_v0 (ix2 r (col168 g c)) k) = x0 (ix2 r k) :=
    fun k => congrArg x0 (idx2_ext _ _ rfl rfl)
  have h_x7_ridxv0 : ∀ k : Fin 300, x7 (ridx_main_v0 (ix2 r (col168 g c)) k) = x7 (ix2 k (col168 g c)) :=
    fun k => congrArg x7 (idx2_ext _ _ rfl rfl)
  have h_x1_lidxv1 : ∀ k : Fin 50, x1 (lidx_main_v1 (ix2 r (col168 g c)) k) = x1 (ix2 r k) :=
    fun k => congrArg x1 (idx2_ext _ _ rfl rfl)
  have h_x8_ridxv1 : ∀ k : Fin 50, x8 (ridx_main_v1 (ix2 r (col168 g c)) k) = x8 (ix2 k (col168 g c)) :=
    fun k => congrArg x8 (idx2_ext _ _ rfl rfl)
  have h_x2_lidxv3 : ∀ k : Fin 50, x2 (lidx_main_v3 (ix2 r (col168 g c)) k) = x2 (ix2 r k) :=
    fun k => congrArg x2 (idx2_ext _ _ rfl rfl)
  have h_x9_ridxv3 : ∀ k : Fin 50, x9 (ridx_main_v3 (ix2 r (col168 g c)) k) = x9 (ix2 k (col168 g c)) :=
    fun k => congrArg x9 (idx2_ext _ _ rfl rfl)
  have h_x3_lidxv5 : ∀ k : Fin 168, x3 (lidx_main_v5 (ix2 r (col168 g c)) k) = x3 (ix2 r k) :=
    fun k => congrArg x3 (idx2_ext _ _ rfl rfl)
  have h_x10_ridxv5 : ∀ k : Fin 168, x10 (ridx_main_v5 (ix2 r (col168 g c)) k) = x10 (ix2 k (col168 g c)) :=
    fun k => congrArg x10 (idx2_ext _ _ rfl rfl)
  have h_bias : x11 (idx_main_v7 (idx_main_v8 (ix2 r (col168 g c)))) = x11 (ix1 (col168 g c)) :=
    congrArg x11 (by funext a; match a with | ⟨0, _⟩ => rfl)
  simp only [h_x0_lidxv0, h_x7_ridxv0, h_x1_lidxv1, h_x8_ridxv1, h_x2_lidxv3, h_x9_ridxv3, h_x3_lidxv5,
    h_x10_ridxv5, h_bias]
  rfl

/-- The column slice at offset 0 of the leaf pre-activations is gate 0. -/
theorem ref_v10 (r : Fin 100000) (c : Fin 168) :
    val_main_v10 (F := Ideal) x0 x1 x2 x3 x7 x8 x9 x10 x11 (ix2 r c) = leafPre (rowOf x0 x1 x2 x3 x4 x5 x6 r) (weightsOf x7 x8 x9 x10 x11 x12 x13 x14 x15 x16) 0 c := by
  rw [val_main_v10_apply,
    show idx_main_v10 (ix2 r c) = ix2 r (col168 (0 : Fin 4) c) from idx2_ext _ _ rfl (by show c.val = 168 * 0 + c.val; omega)]
  exact ref_leafPre x0 x1 x2 x3 x4 x5 x6 x7 x8 x9 x10 x11 x12 x13 x14 x15 x16 r 0 c

/-- The column slice at offset 168 of the leaf pre-activations is gate 1. -/
theorem ref_v11 (r : Fin 100000) (c : Fin 168) :
    val_main_v11 (F := Ideal) x0 x1 x2 x3 x7 x8 x9 x10 x11 (ix2 r c) = leafPre (rowOf x0 x1 x2 x3 x4 x5 x6 r) (weightsOf x7 x8 x9 x10 x11 x12 x13 x14 x15 x16) 1 c := by
  rw [val_main_v11_apply,
    show idx_main_v11 (ix2 r c) = ix2 r (col168 (1 : Fin 4) c) from idx2_ext _ _ rfl rfl]
  exact ref_leafPre x0 x1 x2 x3 x4 x5 x6 x7 x8 x9 x10 x11 x12 x13 x14 x15 x16 r 1 c

/-- The column slice at offset 336 of the leaf pre-activations is gate 2. -/
theorem ref_v12 (r : Fin 100000) (c : Fin 168) :
    val_main_v12 (F := Ideal) x0 x1 x2 x3 x7 x8 x9 x10 x11 (ix2 r c) = leafPre (rowOf x0 x1 x2 x3 x4 x5 x6 r) (weightsOf x7 x8 x9 x10 x11 x12 x13 x14 x15 x16) 2 c := by
  rw [val_main_v12_apply,
    show idx_main_v12 (ix2 r c) = ix2 r (col168 (2 : Fin 4) c) from idx2_ext _ _ rfl rfl]
  exact ref_leafPre x0 x1 x2 x3 x4 x5 x6 x7 x8 x9 x10 x11 x12 x13 x14 x15 x16 r 2 c

/-- The column slice at offset 504 of the leaf pre-activations is gate 3. -/
theorem ref_v13 (r : Fin 100000) (c : Fin 168) :
    val_main_v13 (F := Ideal) x0 x1 x2 x3 x7 x8 x9 x10 x11 (ix2 r c) = leafPre (rowOf x0 x1 x2 x3 x4 x5 x6 r) (weightsOf x7 x8 x9 x10 x11 x12 x13 x14 x15 x16) 3 c := by
  rw [val_main_v13_apply,
    show idx_main_v13 (ix2 r c) = ix2 r (col168 (3 : Fin 4) c) from idx2_ext _ _ rfl rfl]
  exact ref_leafPre x0 x1 x2 x3 x4 x5 x6 x7 x8 x9 x10 x11 x12 x13 x14 x15 x16 r 3 c

/-- The logistic function of leaf gate 0. -/
theorem ref_v19 (r : Fin 100000) (c : Fin 168) :
    val_main_v19 (F := Ideal) x0 x1 x2 x3 x7 x8 x9 x10 x11 (ix2 r c) = Ideal.logistic (leafPre (rowOf x0 x1 x2 x3 x4 x5 x6 r) (weightsOf x7 x8 x9 x10 x11 x12 x13 x14 x15 x16) 0 c) := by
  rw [val_main_v19_apply, val_main_v18_apply, val_main_cst_0_apply, val_main_v17_apply, val_main_v16_apply,
    val_main_cst_apply, val_main_v15_apply, val_main_v14_apply, ref_v10 x0 x1 x2 x3 x4 x5 x6 x7 x8 x9 x10 x11 x12 x13 x14 x15 x16 r c]
  exact logistic_spelled _

/-- The logistic function of leaf gate 2. -/
theorem ref_v27 (r : Fin 100000) (c : Fin 168) :
    val_main_v27 (F := Ideal) x0 x1 x2 x3 x7 x8 x9 x10 x11 (ix2 r c) = Ideal.logistic (leafPre (rowOf x0 x1 x2 x3 x4 x5 x6 r) (weightsOf x7 x8 x9 x10 x11 x12 x13 x14 x15 x16) 2 c) := by
  rw [val_main_v27_apply, val_main_v26_apply, val_main_cst_2_apply, val_main_v25_apply, val_main_v24_apply,
    val_main_cst_1_apply, val_main_v23_apply, val_main_v22_apply, ref_v12 x0 x1 x2 x3 x4 x5 x6 x7 x8 x9 x10 x11 x12 x13 x14 x15 x16 r c]
  exact logistic_spelled _

/-- The logistic function of leaf gate 1. -/
theorem ref_v35 (r : Fin 100000) (c : Fin 168) :
    val_main_v35 (F := Ideal) x0 x1 x2 x3 x7 x8 x9 x10 x11 (ix2 r c) = Ideal.logistic (leafPre (rowOf x0 x1 x2 x3 x4 x5 x6 r) (weightsOf x7 x8 x9 x10 x11 x12 x13 x14 x15 x16) 1 c) := by
  rw [val_main_v35_apply, val_main_v34_apply, val_main_cst_4_apply, val_main_v33_apply, val_main_v32_apply,
    val_main_cst_3_apply, val_main_v31_apply, val_main_v30_apply, ref_v11 x0 x1 x2 x3 x4 x5 x6 x7 x8 x9 x10 x11 x12 x13 x14 x15 x16 r c]
  exact logistic_spelled _

/-- The reference's leaf cell state is the specification's. -/
theorem ref_leafC (r : Fin 100000) (c : Fin 168) :
    val_main_v29 (F := Ideal) x0 x1 x2 x3 x4 x7 x8 x9 x10 x11 (ix2 r c) = leafC (rowOf x0 x1 x2 x3 x4 x5 x6 r) (weightsOf x7 x8 x9 x10 x11 x12 x13 x14 x15 x16) c := by
  rw [val_main_v29_apply, val_main_v21_apply, val_main_v28_apply, val_main_v20_apply,
    ref_v19 x0 x1 x2 x3 x4 x5 x6 x7 x8 x9 x10 x11 x12 x13 x14 x15 x16 r c, ref_v27 x0 x1 x2 x3 x4 x5 x6 x7 x8 x9 x10 x11 x12 x13 x14 x15 x16 r c, ref_v13 x0 x1 x2 x3 x4 x5 x6 x7 x8 x9 x10 x11 x12 x13 x14 x15 x16 r c]
  rfl

/-- The reference's leaf hidden state is the specification's. -/
theorem ref_leafH (r : Fin 100000) (c : Fin 168) :
    val_main_v37 (F := Ideal) x0 x1 x2 x3 x4 x7 x8 x9 x10 x11 (ix2 r c) = leafH (rowOf x0 x1 x2 x3 x4 x5 x6 r) (weightsOf x7 x8 x9 x10 x11 x12 x13 x14 x15 x16) c := by
  rw [val_main_v37_apply, val_main_v36_apply, ref_v35 x0 x1 x2 x3 x4 x5 x6 x7 x8 x9 x10 x11 x12 x13 x14 x15 x16 r c, ref_leafC x0 x1 x2 x3 x4 x5 x6 x7 x8 x9 x10 x11 x12 x13 x14 x15 x16 r c]
  rfl

/-- The node pre-activations: two tag products and the product of the leaf hidden state, added left to right, and
    the bias, at row `r` and column `168 g + c`, are gate `g`, column `c` of the specification. -/
theorem ref_nodePre (r : Fin 100000) (g : Fin 5) (c : Fin 168) :
    val_main_v45 (F := Ideal) x0 x1 x2 x3 x4 x7 x8 x9 x10 x11 x12 x13 x14 x16 (ix2 r (col168 g c))
      = nodePre (rowOf x0 x1 x2 x3 x4 x5 x6 r) (weightsOf x7 x8 x9 x10 x11 x12 x13 x14 x15 x16) g c := by
  rw [val_main_v45_apply, val_main_v42_apply, val_main_v40_apply, val_main_v38_apply, val_main_v39_apply,
    val_main_v41_apply, val_main_v44_apply, val_main_v43_apply]
  have h37 : ∀ k : Fin 168, val_main_v37 (F := Ideal) x0 x1 x2 x3 x4 x7 x8 x9 x10 x11 (lidx_main_v41 (ix2 r (col168 g c)) k)
      = leafH (rowOf x0 x1 x2 x3 x4 x5 x6 r) (weightsOf x7 x8 x9 x10 x11 x12 x13 x14 x15 x16) k := fun k => by
    rw [show lidx_main_v41 (ix2 r (col168 g c)) k = ix2 r k from idx2_ext _ _ rfl rfl]
    exact ref_leafH x0 x1 x2 x3 x4 x5 x6 x7 x8 x9 x10 x11 x12 x13 x14 x15 x16 r k
  have h_x1_lidxv38 : ∀ k : Fin 50, x1 (lidx_main_v38 (ix2 r (col168 g c)) k) = x1 (ix2 r k) :=
    fun k => congrArg x1 (idx2_ext _ _ rfl rfl)
  have h_x12_ridxv38 : ∀ k : Fin 50, x12 (ridx_main_v38 (ix2 r (col168 g c)) k) = x12 (ix2 k (col168 g c)) :=
    fun k => congrArg x12 (idx2_ext _ _ rfl rfl)
  have h_x2_lidxv39 : ∀ k : Fin 50, x2 (lidx_main_v39 (ix2 r (col168 g c)) k) = x2 (ix2 r k) :=
    fun k => congrArg x2 (idx2_ext _ _ rfl rfl)
  have h_x13_ridxv39 : ∀ k : Fin 50, x13 (ridx_main_v39 (ix2 r (col168 g c)) k) = x13 (ix2 k (col168 g c)) :=
    fun k => congrArg x13 (idx2_ext _ _ rfl rfl)
  have h_x14_ridxv41 : ∀ k : Fin 168, x14 (ridx_main_v41 (ix2 r (col168 g c)) k) = x14 (ix2 k (col168 g c)) :=
    fun k => congrArg x14 (idx2_ext _ _ rfl rfl)
  have h_bias : x16 (idx_main_v43 (idx_main_v44 (ix2 r (col168 g c)))) = x16 (ix1 (col168 g c)) :=
    congrArg x16 (by funext a; match a with | ⟨0, _⟩ => rfl)
  simp only [h37, h_x1_lidxv38, h_x12_ridxv38, h_x2_lidxv39, h_x13_ridxv39, h_x14_ridxv41, h_bias]
  rfl

/-- The child products at row `r` and column `168 g + c` are gate `g`, column `c` of the specification. -/
theorem ref_childPre (r : Fin 100000) (g : Fin 4) (c : Fin 168) :
    val_main_v46 (F := Ideal) x5 x15 (ix2 r (col168 g c)) = childPre (rowOf x0 x1 x2 x3 x4 x5 x6 r) (weightsOf x7 x8 x9 x10 x11 x12 x13 x14 x15 x16) g c := by
  rw [val_main_v46_apply]
  have h_x5_lidxv46 : ∀ k : Fin 168, x5 (lidx_main_v46 (ix2 r (col168 g c)) k) = x5 (ix2 r k) :=
    fun k => congrArg x5 (idx2_ext _ _ rfl rfl)
  have h_x15_ridxv46 : ∀ k : Fin 168, x15 (ridx_main_v46 (ix2 r (col168 g c)) k) = x15 (ix2 k (col168 g c)) :=
    fun k => congrArg x15 (idx2_ext _ _ rfl rfl)
  simp only [h_x5_lidxv46, h_x15_ridxv46]
  rfl

/-- Node gate 0 with its child product: the slices at offset 0. -/
theorem ref_v56 (r : Fin 100000) (c : Fin 168) :
    val_main_v56 (F := Ideal) x0 x1 x2 x3 x4 x5 x7 x8 x9 x10 x11 x12 x13 x14 x15 x16 (ix2 r c)
      = nodePre (rowOf x0 x1 x2 x3 x4 x5 x6 r) (weightsOf x7 x8 x9 x10 x11 x12 x13 x14 x15 x16) 0 c + childPre (rowOf x0 x1 x2 x3 x4 x5 x6 r) (weightsOf x7 x8 x9 x10 x11 x12 x13 x14 x15 x16) 0 c := by
  rw [val_main_v56_apply, val_main_v47_apply, val_main_v52_apply,
    show idx_main_v47 (ix2 r c) = ix2 r (col168 (0 : Fin 5) c) from idx2_ext _ _ rfl (by show c.val = 168 * 0 + c.val; omega),
    show idx_main_v52 (ix2 r c) = ix2 r (col168 (0 : Fin 4) c) from idx2_ext _ _ rfl (by show c.val = 168 * 0 + c.val; omega),
    ref_nodePre x0 x1 x2 x3 x4 x5 x6 x7 x8 x9 x10 x11 x12 x13 x14 x15 x16 r 0 c, ref_childPre x0 x1 x2 x3 x4 x5 x6 x7 x8 x9 x10 x11 x12 x13 x14 x15 x16 r 0 c]
  rfl

/-- Node gate 1 with its child product: the slices at offset 168. -/
theorem ref_v57 (r : Fin 100000) (c : Fin 168) :
    val_main_v57 (F := Ideal) x0 x1 x2 x3 x4 x5 x7 x8 x9 x10 x11 x12 x13 x14 x15 x16 (ix2 r c)
      = nodePre (rowOf x0 x1 x2 x3 x4 x5 x6 r) (weightsOf x7 x8 x9 x10 x11 x12 x13 x14 x15 x16) 1 c + childPre (rowOf x0 x1 x2 x3 x4 x5 x6 r) (weightsOf x7 x8 x9 x10 x11 x12 x13 x14 x15 x16) 1 c := by
  rw [val_main_v57_apply, val_main_v48_apply, val_main_v53_apply,
    show idx_main_v48 (ix2 r c) = ix2 r (col168 (1 : Fin 5) c) from idx2_ext _ _ rfl rfl,
    show idx_main_v53 (ix2 r c) = ix2 r (col168 (1 : Fin 4) c) from idx2_ext _ _ rfl rfl,
    ref_nodePre x0 x1 x2 x3 x4 x5 x6 x7 x8 x9 x10 x11 x12 x13 x14 x15 x16 r 1 c, ref_childPre x0 x1 x2 x3 x4 x5 x6 x7 x8 x9 x10 x11 x12 x13 x14 x15 x16 r 1 c]
  rfl

/-- Node gate 2 with its child product: the slices at offset 336. -/
theorem ref_v58 (r : Fin 100000) (c : Fin 168) :
    val_main_v58 (F := Ideal) x0 x1 x2 x3 x4 x5 x7 x8 x9 x10 x11 x12 x13 x14 x15 x16 (ix2 r c)
      = nodePre (rowOf x0 x1 x2 x3 x4 x5 x6 r) (weightsOf x7 x8 x9 x10 x11 x12 x13 x14 x15 x16) 2 c + childPre (rowOf x0 x1 x2 x3 x4 x5 x6 r) (weightsOf x7 x8 x9 x10 x11 x12 x13 x14 x15 x16) 2 c := by
  rw [val_main_v58_apply, val_main_v49_apply, val_main_v54_apply,
    show idx_main_v49 (ix2 r c) = ix2 r (col168 (2 : Fin 5) c) from idx2_ext _ _ rfl rfl,
    show idx_main_v54 (ix2 r c) = ix2 r (col168 (2 : Fin 4) c) from idx2_ext _ _ rfl rfl,
    ref_nodePre x0 x1 x2 x3 x4 x5 x6 x7 x8 x9 x10 x11 x12 x13 x14 x15 x16 r 2 c, ref_childPre x0 x1 x2 x3 x4 x5 x6 x7 x8 x9 x10 x11 x12 x13 x14 x15 x16 r 2 c]
  rfl

/-- Node gate 3 with its child product: the slices at offset 504. -/
theorem ref_v59 (r : Fin 100000) (c : Fin 168) :
    val_main_v59 (F := Ideal) x0 x1 x2 x3 x4 x5 x7 x8 x9 x10 x11 x12 x13 x14 x15 x16 (ix2 r c)
      = nodePre (rowOf x0 x1 x2 x3 x4 x5 x6 r) (weightsOf x7 x8 x9 x10 x11 x12 x13 x14 x15 x16) 3 c + childPre (rowOf x0 x1 x2 x3 x4 x5 x6 r) (weightsOf x7 x8 x9 x10 x11 x12 x13 x14 x15 x16) 3 c := by
  rw [val_main_v59_apply, val_main_v50_apply, val_main_v55_apply,
    show idx_main_v50 (ix2 r c) = ix2 r (col168 (3 : Fin 5) c) from idx2_ext _ _ rfl rfl,
    show idx_main_v55 (ix2 r c) = ix2 r (col168 (3 : Fin 4) c) from idx2_ext _ _ rfl rfl,
    ref_nodePre x0 x1 x2 x3 x4 x5 x6 x7 x8 x9 x10 x11 x12 x13 x14 x15 x16 r 3 c, ref_childPre x0 x1 x2 x3 x4 x5 x6 x7 x8 x9 x10 x11 x12 x13 x14 x15 x16 r 3 c]
  rfl

/-- The slice at offset 672 of the node pre-activations is gate 4. -/
theorem ref_v51 (r : Fin 100000) (c : Fin 168) :
    val_main_v51 (F := Ideal) x0 x1 x2 x3 x4 x7 x8 x9 x10 x11 x12 x13 x14 x16 (ix2 r c) = nodePre (rowOf x0 x1 x2 x3 x4 x5 x6 r) (weightsOf x7 x8 x9 x10 x11 x12 x13 x14 x15 x16) 4 c := by
  rw [val_main_v51_apply,
    show idx_main_v51 (ix2 r c) = ix2 r (col168 (4 : Fin 5) c) from idx2_ext _ _ rfl rfl]
  exact ref_nodePre x0 x1 x2 x3 x4 x5 x6 x7 x8 x9 x10 x11 x12 x13 x14 x15 x16 r 4 c

/-- The logistic function of node gate 0. -/
theorem ref_v65 (r : Fin 100000) (c : Fin 168) :
    val_main_v65 (F := Ideal) x0 x1 x2 x3 x4 x5 x7 x8 x9 x10 x11 x12 x13 x14 x15 x16 (ix2 r c)
      = Ideal.logistic (nodePre (rowOf x0 x1 x2 x3 x4 x5 x6 r) (weightsOf x7 x8 x9 x10 x11 x12 x13 x14 x15 x16) 0 c + childPre (rowOf x0 x1 x2 x3 x4 x5 x6 r) (weightsOf x7 x8 x9 x10 x11 x12 x13 x14 x15 x16) 0 c) := by
  rw [val_main_v65_apply, val_main_v64_apply, val_main_cst_6_apply, val_main_v63_apply, val_main_v62_apply,
    val_main_cst_5_apply, val_main_v61_apply, val_main_v60_apply, ref_v56 x0 x1 x2 x3 x4 x5 x6 x7 x8 x9 x10 x11 x12 x13 x14 x15 x16 r c]
  exact logistic_spelled _

/-- The logistic function of node gate 3. -/
theorem ref_v73 (r : Fin 100000) (c : Fin 168) :
    val_main_v73 (F := Ideal) x0 x1 x2 x3 x4 x5 x7 x8 x9 x10 x11 x12 x13 x14 x15 x16 (ix2 r c)
      = Ideal.logistic (nodePre (rowOf x0 x1 x2 x3 x4 x5 x6 r) (weightsOf x7 x8 x9 x10 x11 x12 x13 x14 x15 x16) 3 c + childPre (rowOf x0 x1 x2 x3 x4 x5 x6 r) (weightsOf x7 x8 x9 x10 x11 x12 x13 x14 x15 x16) 3 c) := by
  rw [val_main_v73_apply, val_main_v72_apply, val_main_cst_8_apply, val_main_v71_apply, val_main_v70_apply,
    val_main_cst_7_apply, val_main_v69_apply, val_main_v68_apply, ref_v59 x0 x1 x2 x3 x4 x5 x6 x7 x8 x9 x10 x11 x12 x13 x14 x15 x16 r c]
  exact logistic_spelled _

/-- The logistic function of node gate 2. -/
theorem ref_v81 (r : Fin 100000) (c : Fin 168) :
    val_main_v81 (F := Ideal) x0 x1 x2 x3 x4 x5 x7 x8 x9 x10 x11 x12 x13 x14 x15 x16 (ix2 r c)
      = Ideal.logistic (nodePre (rowOf x0 x1 x2 x3 x4 x5 x6 r) (weightsOf x7 x8 x9 x10 x11 x12 x13 x14 x15 x16) 2 c + childPre (rowOf x0 x1 x2 x3 x4 x5 x6 r) (weightsOf x7 x8 x9 x10 x11 x12 x13 x14 x15 x16) 2 c) := by
  rw [val_main_v81_apply, val_main_v80_apply, val_main_cst_10_apply, val_main_v79_apply, val_main_v78_apply,
    val_main_cst_9_apply, val_main_v77_apply, val_main_v76_apply, ref_v58 x0 x1 x2 x3 x4 x5 x6 x7 x8 x9 x10 x11 x12 x13 x14 x15 x16 r c]
  exact logistic_spelled _

/-- The logistic function of node gate 1. -/
theorem ref_v89 (r : Fin 100000) (c : Fin 168) :
    val_main_v89 (F := Ideal) x0 x1 x2 x3 x4 x5 x7 x8 x9 x10 x11 x12 x13 x14 x15 x16 (ix2 r c)
      = Ideal.logistic (nodePre (rowOf x0 x1 x2 x3 x4 x5 x6 r) (weightsOf x7 x8 x9 x10 x11 x12 x13 x14 x15 x16) 1 c + childPre (rowOf x0 x1 x2 x3 x4 x5 x6 r) (weightsOf x7 x8 x9 x10 x11 x12 x13 x14 x15 x16) 1 c) := by
  rw [val_main_v89_apply, val_main_v88_apply, val_main_cst_12_apply, val_main_v87_apply, val_main_v86_apply,
    val_main_cst_11_apply, val_main_v85_apply, val_main_v84_apply, ref_v57 x0 x1 x2 x3 x4 x5 x6 x7 x8 x9 x10 x11 x12 x13 x14 x15 x16 r c]
  exact logistic_spelled _

/-- The reference's node cell state is the specification's. -/
theorem ref_nodeC (r : Fin 100000) (c : Fin 168) :
    val_main_v83 (F := Ideal) x0 x1 x2 x3 x4 x5 x6 x7 x8 x9 x10 x11 x12 x13 x14 x15 x16 (ix2 r c) = nodeC (rowOf x0 x1 x2 x3 x4 x5 x6 r) (weightsOf x7 x8 x9 x10 x11 x12 x13 x14 x15 x16) c := by
  rw [val_main_v83_apply, val_main_v75_apply, val_main_v67_apply, val_main_v74_apply, val_main_v82_apply,
    val_main_v66_apply, ref_v65 x0 x1 x2 x3 x4 x5 x6 x7 x8 x9 x10 x11 x12 x13 x14 x15 x16 r c, ref_v73 x0 x1 x2 x3 x4 x5 x6 x7 x8 x9 x10 x11 x12 x13 x14 x15 x16 r c, ref_v81 x0 x1 x2 x3 x4 x5 x6 x7 x8 x9 x10 x11 x12 x13 x14 x15 x16 r c, ref_v51 x0 x1 x2 x3 x4 x5 x6 x7 x8 x9 x10 x11 x12 x13 x14 x15 x16 r c,
    ref_leafC x0 x1 x2 x3 x4 x5 x6 x7 x8 x9 x10 x11 x12 x13 x14 x15 x16 r c]
  rfl

/-- The reference's node hidden state is the specification's. -/
theorem ref_nodeH (r : Fin 100000) (c : Fin 168) :
    val_main_v91 (F := Ideal) x0 x1 x2 x3 x4 x5 x6 x7 x8 x9 x10 x11 x12 x13 x14 x15 x16 (ix2 r c) = nodeH (rowOf x0 x1 x2 x3 x4 x5 x6 r) (weightsOf x7 x8 x9 x10 x11 x12 x13 x14 x15 x16) c := by
  rw [val_main_v91_apply, val_main_v90_apply, ref_v89 x0 x1 x2 x3 x4 x5 x6 x7 x8 x9 x10 x11 x12 x13 x14 x15 x16 r c, ref_nodeC x0 x1 x2 x3 x4 x5 x6 x7 x8 x9 x10 x11 x12 x13 x14 x15 x16 r c]
  rfl

/-- The reference's result is the specification's: the node hidden state followed by the node cell state. -/
theorem reference_eq :
    val_main_v92 (F := Ideal) x0 x1 x2 x3 x4 x5 x6 x7 x8 x9 x10 x11 x12 x13 x14 x15 x16 = resultOf x0 x1 x2 x3 x4 x5 x6 x7 x8 x9 x10 x11 x12 x13 x14 x15 x16 := by
  funext j
  unfold val_main_v92
  refine (concat_cols _ _ _ j).trans ?_
  show _ = outRow (rowOf x0 x1 x2 x3 x4 x5 x6 (j 0)) (weightsOf x7 x8 x9 x10 x11 x12 x13 x14 x15 x16) (j 1)
  unfold outRow
  by_cases hj : (j 1).val < 168
  · rw [dif_pos hj, dif_pos hj]
    exact ref_nodeH x0 x1 x2 x3 x4 x5 x6 x7 x8 x9 x10 x11 x12 x13 x14 x15 x16 (j 0) ⟨(j 1).val, hj⟩
  · rw [dif_neg hj, dif_neg hj]
    exact ref_nodeC x0 x1 x2 x3 x4 x5 x6 x7 x8 x9 x10 x11 x12 x13 x14 x15 x16 (j 0) _

end

end Cert.TreeCell

end
-- ==== Proof.ChunkValue.lean ====
/-
  One chunk of 200 rows of the kernel's body, read element by element, is the specification's cell.

  The body's arithmetic is cut by the generated skeleton into pure terms over the seventeen vectors it loads: seven
  row blocks (word vector, two tag vectors, previous hidden and cell state, child sum, down-state) and ten weight
  operands whose gates are padded to stride 256. At the extended reals a narrowing format change is the identity, a
  cast to the same shape is the identity, a product into the zero accumulator is the sum over the contracted
  coordinate of the operands' products, a slice of 168 columns at column offset 256 g reads column 256 g + c, and a
  one-row bias broadcast to 200 rows reads its row 0. Reading each term at row p, column c in that way gives, in the
  order the body adds them, exactly the sums the specification writes: the leaf pre-activations, the leaf cell and
  hidden state, the node pre-activations and the child sum's contribution, and from them the node cell state and
  hidden state that the body stores. Of the extended reals only 0 + x = x and the re-indexing of a finite sum along a
  bijection (the contraction index of a product is its one coordinate) are used; no sum is re-associated or re-ordered
  term against term.
-/
import proofs.«151848_j44324062495020_2_alg».proof.Proof.CellArrays
import proofs.«151848_j44324062495020_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.TreeCell

open Idealize.ShloMosaic Idealize.ShloMosaic.ValueIdx Idealize.SL.Sem
open Cert.KernelIdeal Cert.KernelIdeal.Gen

/-- A product into the zero accumulator, read at row `p`, column `j`: the sum over the contracted coordinate. -/
theorem mm_300_1024 (a : FVec Ideal S200x300 .bf16) (b : FVec Ideal S300x1024 .bf16) (p : Fin 200) (j : Fin 1024) :
    matmul (F := Ideal) dot_S200x300_S300x1024_S200x1024_1_0_0_1_n_n none a b (constant (F := Ideal) S200x1024 .f32 0x00000000#32) (ix2 p j)
      = ∑ k : Fin 300, a (ix2 p k) * b (ix2 k j) := by
  refine (Ideal.matmul_constant_zero_apply dot_S200x300_S300x1024_S200x1024_1_0_0_1_n_n none a b (ix2 p j)).trans ?_
  rw [← Equiv.sum_comp (contrEquiv1 dot_S200x300_S300x1024_S200x1024_1_0_0_1_n_n 300 rfl rfl).symm]
  refine Finset.sum_congr rfl fun k _ => ?_
  have hk := contrEquiv1_symm_val dot_S200x300_S300x1024_S200x1024_1_0_0_1_n_n 300 rfl rfl k
  have el : dot_S200x300_S300x1024_S200x1024_1_0_0_1_n_n.lhsIdx (ix2 p j) ((contrEquiv1 dot_S200x300_S300x1024_S200x1024_1_0_0_1_n_n 300 rfl rfl).symm k) = ix2 p k :=
    funext fun x => Fin.ext (by
      match x with
      | ⟨0, _⟩ =>
        show (dot_S200x300_S300x1024_S200x1024_1_0_0_1_n_n.lhsIdx (ix2 p j) _ 0).val = p.val
        unfold DotDims.lhsIdx
        rw [dif_neg (show ¬(0 : Fin S200x300.rank) ∈ dot_S200x300_S300x1024_S200x1024_1_0_0_1_n_n.lhsBatch by decide),
          dif_pos (show (0 : Fin S200x300.rank) ∈ dot_S200x300_S300x1024_S200x1024_1_0_0_1_n_n.lhsNonContracting by decide)]
        rfl
      | ⟨1, _⟩ => exact (dot_S200x300_S300x1024_S200x1024_1_0_0_1_n_n.lhsIdx_val_of_single rfl (ix2 p j) _).trans hk)
  have er : dot_S200x300_S300x1024_S200x1024_1_0_0_1_n_n.rhsIdx (ix2 p j) ((contrEquiv1 dot_S200x300_S300x1024_S200x1024_1_0_0_1_n_n 300 rfl rfl).symm k) = ix2 k j :=
    funext fun x => Fin.ext (by
      match x with
      | ⟨0, _⟩ => exact (dot_S200x300_S300x1024_S200x1024_1_0_0_1_n_n.rhsIdx_val_of_single rfl (ix2 p j) _).trans hk
      | ⟨1, _⟩ =>
        show (dot_S200x300_S300x1024_S200x1024_1_0_0_1_n_n.rhsIdx (ix2 p j) _ 1).val = j.val
        unfold DotDims.rhsIdx
        rw [dif_neg (show ¬(1 : Fin S300x1024.rank) ∈ dot_S200x300_S300x1024_S200x1024_1_0_0_1_n_n.rhsBatch by decide),
          dif_pos (show (1 : Fin S300x1024.rank) ∈ dot_S200x300_S300x1024_S200x1024_1_0_0_1_n_n.rhsNonContracting by decide)]
        rfl)
  rw [el, er]

/-- The same with the right operand passed through a cast to its own shape, which is the identity. -/
theorem mm_300_1024_cast (a : FVec Ideal S200x300 .bf16) (b : FVec Ideal S300x1024 .bf16) (p : Fin 200) (j : Fin 1024) :
    matmul (F := Ideal) dot_S200x300_S300x1024_S200x1024_1_0_0_1_n_n none a (shapeCast S300x1024 b shapeCasts_S300x1024_S300x1024)
        (constant (F := Ideal) S200x1024 .f32 0x00000000#32) (ix2 p j)
      = ∑ k : Fin 300, a (ix2 p k) * b (ix2 k j) := by
  rw [shapeCast_self]
  exact mm_300_1024 a b p j

/-- A product into the zero accumulator, read at row `p`, column `j`: the sum over the contracted coordinate. -/
theorem mm_50_1024 (a : FVec Ideal S200x50 .bf16) (b : FVec Ideal S50x1024 .bf16) (p : Fin 200) (j : Fin 1024) :
    matmul (F := Ideal) dot_S200x50_S50x1024_S200x1024_1_0_0_1_n_n none a b (constant (F := Ideal) S200x1024 .f32 0x00000000#32) (ix2 p j)
      = ∑ k : Fin 50, a (ix2 p k) * b (ix2 k j) := by
  refine (Ideal.matmul_constant_zero_apply dot_S200x50_S50x1024_S200x1024_1_0_0_1_n_n none a b (ix2 p j)).trans ?_
  rw [← Equiv.sum_comp (contrEquiv1 dot_S200x50_S50x1024_S200x1024_1_0_0_1_n_n 50 rfl rfl).symm]
  refine Finset.sum_congr rfl fun k _ => ?_
  have hk := contrEquiv1_symm_val dot_S200x50_S50x1024_S200x1024_1_0_0_1_n_n 50 rfl rfl k
  have el : dot_S200x50_S50x1024_S200x1024_1_0_0_1_n_n.lhsIdx (ix2 p j) ((contrEquiv1 dot_S200x50_S50x1024_S200x1024_1_0_0_1_n_n 50 rfl rfl).symm k) = ix2 p k :=
    funext fun x => Fin.ext (by
      match x with
      | ⟨0, _⟩ =>
        show (dot_S200x50_S50x1024_S200x1024_1_0_0_1_n_n.lhsIdx (ix2 p j) _ 0).val = p.val
        unfold DotDims.lhsIdx
        rw [dif_neg (show ¬(0 : Fin S200x50.rank) ∈ dot_S200x50_S50x1024_S200x1024_1_0_0_1_n_n.lhsBatch by decide),
          dif_pos (show (0 : Fin S200x50.rank) ∈ dot_S200x50_S50x1024_S200x1024_1_0_0_1_n_n.lhsNonContracting by decide)]
        rfl
      | ⟨1, _⟩ => exact (dot_S200x50_S50x1024_S200x1024_1_0_0_1_n_n.lhsIdx_val_of_single rfl (ix2 p j) _).trans hk)
  have er : dot_S200x50_S50x1024_S200x1024_1_0_0_1_n_n.rhsIdx (ix2 p j) ((contrEquiv1 dot_S200x50_S50x1024_S200x1024_1_0_0_1_n_n 50 rfl rfl).symm k) = ix2 k j :=
    funext fun x => Fin.ext (by
      match x with
      | ⟨0, _⟩ => exact (dot_S200x50_S50x1024_S200x1024_1_0_0_1_n_n.rhsIdx_val_of_single rfl (ix2 p j) _).trans hk
      | ⟨1, _⟩ =>
        show (dot_S200x50_S50x1024_S200x1024_1_0_0_1_n_n.rhsIdx (ix2 p j) _ 1).val = j.val
        unfold DotDims.rhsIdx
        rw [dif_neg (show ¬(1 : Fin S50x1024.rank) ∈ dot_S200x50_S50x1024_S200x1024_1_0_0_1_n_n.rhsBatch by decide),
          dif_pos (show (1 : Fin S50x1024.rank) ∈ dot_S200x50_S50x1024_S200x1024_1_0_0_1_n_n.rhsNonContracting by decide)]
        rfl)
  rw [el, er]

/-- The same with the right operand passed through a cast to its own shape, which is the identity. -/
theorem mm_50_1024_cast (a : FVec Ideal S200x50 .bf16) (b : FVec Ideal S50x1024 .bf16) (p : Fin 200) (j : Fin 1024) :
    matmul (F := Ideal) dot_S200x50_S50x1024_S200x1024_1_0_0_1_n_n none a (shapeCast S50x1024 b shapeCasts_S50x1024_S50x1024)
        (constant (F := Ideal) S200x1024 .f32 0x00000000#32) (ix2 p j)
      = ∑ k : Fin 50, a (ix2 p k) * b (ix2 k j) := by
  rw [shapeCast_self]
  exact mm_50_1024 a b p j

/-- A product into the zero accumulator, read at row `p`, column `j`: the sum over the contracted coordinate. -/
theorem mm_168_1024 (a : FVec Ideal S200x168 .bf16) (b : FVec Ideal S168x1024 .bf16) (p : Fin 200) (j : Fin 1024) :
    matmul (F := Ideal) dot_S200x168_S168x1024_S200x1024_1_0_0_1_n_n none a b (constant (F := Ideal) S200x1024 .f32 0x00000000#32) (ix2 p j)
      = ∑ k : Fin 168, a (ix2 p k) * b (ix2 k j) := by
  refine (Ideal.matmul_constant_zero_apply dot_S200x168_S168x1024_S200x1024_1_0_0_1_n_n none a b (ix2 p j)).trans ?_
  rw [← Equiv.sum_comp (contrEquiv1 dot_S200x168_S168x1024_S200x1024_1_0_0_1_n_n 168 rfl rfl).symm]
  refine Finset.sum_congr rfl fun k _ => ?_
  have hk := contrEquiv1_symm_val dot_S200x168_S168x1024_S200x1024_1_0_0_1_n_n 168 rfl rfl k
  have el : dot_S200x168_S168x1024_S200x1024_1_0_0_1_n_n.lhsIdx (ix2 p j) ((contrEquiv1 dot_S200x168_S168x1024_S200x1024_1_0_0_1_n_n 168 rfl rfl).symm k) = ix2 p k :=
    funext fun x => Fin.ext (by
      match x with
      | ⟨0, _⟩ =>
        show (dot_S200x168_S168x1024_S200x1024_1_0_0_1_n_n.lhsIdx (ix2 p j) _ 0).val = p.val
        unfold DotDims.lhsIdx
        rw [dif_neg (show ¬(0 : Fin S200x168.rank) ∈ dot_S200x168_S168x1024_S200x1024_1_0_0_1_n_n.lhsBatch by decide),
          dif_pos (show (0 : Fin S200x168.rank) ∈ dot_S200x168_S168x1024_S200x1024_1_0_0_1_n_n.lhsNonContracting by decide)]
        rfl
      | ⟨1, _⟩ => exact (dot_S200x168_S168x1024_S200x1024_1_0_0_1_n_n.lhsIdx_val_of_single rfl (ix2 p j) _).trans hk)
  have er : dot_S200x168_S168x1024_S200x1024_1_0_0_1_n_n.rhsIdx (ix2 p j) ((contrEquiv1 dot_S200x168_S168x1024_S200x1024_1_0_0_1_n_n 168 rfl rfl).symm k) = ix2 k j :=
    funext fun x => Fin.ext (by
      match x with
      | ⟨0, _⟩ => exact (dot_S200x168_S168x1024_S200x1024_1_0_0_1_n_n.rhsIdx_val_of_single rfl (ix2 p j) _).trans hk
      | ⟨1, _⟩ =>
        show (dot_S200x168_S168x1024_S200x1024_1_0_0_1_n_n.rhsIdx (ix2 p j) _ 1).val = j.val
        unfold DotDims.rhsIdx
        rw [dif_neg (show ¬(1 : Fin S168x1024.rank) ∈ dot_S200x168_S168x1024_S200x1024_1_0_0_1_n_n.rhsBatch by decide),
          dif_pos (show (1 : Fin S168x1024.rank) ∈ dot_S200x168_S168x1024_S200x1024_1_0_0_1_n_n.rhsNonContracting by decide)]
        rfl)
  rw [el, er]

/-- The same with the right operand passed through a cast to its own shape, which is the identity. -/
theorem mm_168_1024_cast (a : FVec Ideal S200x168 .bf16) (b : FVec Ideal S168x1024 .bf16) (p : Fin 200) (j : Fin 1024) :
    matmul (F := Ideal) dot_S200x168_S168x1024_S200x1024_1_0_0_1_n_n none a (shapeCast S168x1024 b shapeCasts_S168x1024_S168x1024)
        (constant (F := Ideal) S200x1024 .f32 0x00000000#32) (ix2 p j)
      = ∑ k : Fin 168, a (ix2 p k) * b (ix2 k j) := by
  rw [shapeCast_self]
  exact mm_168_1024 a b p j

/-- A product into the zero accumulator, read at row `p`, column `j`: the sum over the contracted coordinate. -/
theorem mm_50_1280 (a : FVec Ideal S200x50 .bf16) (b : FVec Ideal S50x1280 .bf16) (p : Fin 200) (j : Fin 1280) :
    matmul (F := Ideal) dot_S200x50_S50x1280_S200x1280_1_0_0_1_n_n none a b (constant (F := Ideal) S200x1280 .f32 0x00000000#32) (ix2 p j)
      = ∑ k : Fin 50, a (ix2 p k) * b (ix2 k j) := by
  refine (Ideal.matmul_constant_zero_apply dot_S200x50_S50x1280_S200x1280_1_0_0_1_n_n none a b (ix2 p j)).trans ?_
  rw [← Equiv.sum_comp (contrEquiv1 dot_S200x50_S50x1280_S200x1280_1_0_0_1_n_n 50 rfl rfl).symm]
  refine Finset.sum_congr rfl fun k _ => ?_
  have hk := contrEquiv1_symm_val dot_S200x50_S50x1280_S200x1280_1_0_0_1_n_n 50 rfl rfl k
  have el : dot_S200x50_S50x1280_S200x1280_1_0_0_1_n_n.lhsIdx (ix2 p j) ((contrEquiv1 dot_S200x50_S50x1280_S200x1280_1_0_0_1_n_n 50 rfl rfl).symm k) = ix2 p k :=
    funext fun x => Fin.ext (by
      match x with
      | ⟨0, _⟩ =>
        show (dot_S200x50_S50x1280_S200x1280_1_0_0_1_n_n.lhsIdx (ix2 p j) _ 0).val = p.val
        unfold DotDims.lhsIdx
        rw [dif_neg (show ¬(0 : Fin S200x50.rank) ∈ dot_S200x50_S50x1280_S200x1280_1_0_0_1_n_n.lhsBatch by decide),
          dif_pos (show (0 : Fin S200x50.rank) ∈ dot_S200x50_S50x1280_S200x1280_1_0_0_1_n_n.lhsNonContracting by decide)]
        rfl
      | ⟨1, _⟩ => exact (dot_S200x50_S50x1280_S200x1280_1_0_0_1_n_n.lhsIdx_val_of_single rfl (ix2 p j) _).trans hk)
  have er : dot_S200x50_S50x1280_S200x1280_1_0_0_1_n_n.rhsIdx (ix2 p j) ((contrEquiv1 dot_S200x50_S50x1280_S200x1280_1_0_0_1_n_n 50 rfl rfl).symm k) = ix2 k j :=
    funext fun x => Fin.ext (by
      match x with
      | ⟨0, _⟩ => exact (dot_S200x50_S50x1280_S200x1280_1_0_0_1_n_n.rhsIdx_val_of_single rfl (ix2 p j) _).trans hk
      | ⟨1, _⟩ =>
        show (dot_S200x50_S50x1280_S200x1280_1_0_0_1_n_n.rhsIdx (ix2 p j) _ 1).val = j.val
        unfold DotDims.rhsIdx
        rw [dif_neg (show ¬(1 : Fin S50x1280.rank) ∈ dot_S200x50_S50x1280_S200x1280_1_0_0_1_n_n.rhsBatch by decide),
          dif_pos (show (1 : Fin S50x1280.rank) ∈ dot_S200x50_S50x1280_S200x1280_1_0_0_1_n_n.rhsNonContracting by decide)]
        rfl)
  rw [el, er]

/-- The same with the right operand passed through a cast to its own shape, which is the identity. -/
theorem mm_50_1280_cast (a : FVec Ideal S200x50 .bf16) (b : FVec Ideal S50x1280 .bf16) (p : Fin 200) (j : Fin 1280) :
    matmul (F := Ideal) dot_S200x50_S50x1280_S200x1280_1_0_0_1_n_n none a (shapeCast S50x1280 b shapeCasts_S50x1280_S50x1280)
        (constant (F := Ideal) S200x1280 .f32 0x00000000#32) (ix2 p j)
      = ∑ k : Fin 50, a (ix2 p k) * b (ix2 k j) := by
  rw [shapeCast_self]
  exact mm_50_1280 a b p j

/-- A product into the zero accumulator, read at row `p`, column `j`: the sum over the contracted coordinate. -/
theorem mm_168_1280 (a : FVec Ideal S200x168 .bf16) (b : FVec Ideal S168x1280 .bf16) (p : Fin 200) (j : Fin 1280) :
    matmul (F := Ideal) dot_S200x168_S168x1280_S200x1280_1_0_0_1_n_n none a b (constant (F := Ideal) S200x1280 .f32 0x00000000#32) (ix2 p j)
      = ∑ k : Fin 168, a (ix2 p k) * b (ix2 k j) := by
  refine (Ideal.matmul_constant_zero_apply dot_S200x168_S168x1280_S200x1280_1_0_0_1_n_n none a b (ix2 p j)).trans ?_
  rw [← Equiv.sum_comp (contrEquiv1 dot_S200x168_S168x1280_S200x1280_1_0_0_1_n_n 168 rfl rfl).symm]
  refine Finset.sum_congr rfl fun k _ => ?_
  have hk := contrEquiv1_symm_val dot_S200x168_S168x1280_S200x1280_1_0_0_1_n_n 168 rfl rfl k
  have el : dot_S200x168_S168x1280_S200x1280_1_0_0_1_n_n.lhsIdx (ix2 p j) ((contrEquiv1 dot_S200x168_S168x1280_S200x1280_1_0_0_1_n_n 168 rfl rfl).symm k) = ix2 p k :=
    funext fun x => Fin.ext (by
      match x with
      | ⟨0, _⟩ =>
        show (dot_S200x168_S168x1280_S200x1280_1_0_0_1_n_n.lhsIdx (ix2 p j) _ 0).val = p.val
        unfold DotDims.lhsIdx
        rw [dif_neg (show ¬(0 : Fin S200x168.rank) ∈ dot_S200x168_S168x1280_S200x1280_1_0_0_1_n_n.lhsBatch by decide),
          dif_pos (show (0 : Fin S200x168.rank) ∈ dot_S200x168_S168x1280_S200x1280_1_0_0_1_n_n.lhsNonContracting by decide)]
        rfl
      | ⟨1, _⟩ => exact (dot_S200x168_S168x1280_S200x1280_1_0_0_1_n_n.lhsIdx_val_of_single rfl (ix2 p j) _).trans hk)
  have er : dot_S200x168_S168x1280_S200x1280_1_0_0_1_n_n.rhsIdx (ix2 p j) ((contrEquiv1 dot_S200x168_S168x1280_S200x1280_1_0_0_1_n_n 168 rfl rfl).symm k) = ix2 k j :=
    funext fun x => Fin.ext (by
      match x with
      | ⟨0, _⟩ => exact (dot_S200x168_S168x1280_S200x1280_1_0_0_1_n_n.rhsIdx_val_of_single rfl (ix2 p j) _).trans hk
      | ⟨1, _⟩ =>
        show (dot_S200x168_S168x1280_S200x1280_1_0_0_1_n_n.rhsIdx (ix2 p j) _ 1).val = j.val
        unfold DotDims.rhsIdx
        rw [dif_neg (show ¬(1 : Fin S168x1280.rank) ∈ dot_S200x168_S168x1280_S200x1280_1_0_0_1_n_n.rhsBatch by decide),
          dif_pos (show (1 : Fin S168x1280.rank) ∈ dot_S200x168_S168x1280_S200x1280_1_0_0_1_n_n.rhsNonContracting by decide)]
        rfl)
  rw [el, er]

/-- The same with the right operand passed through a cast to its own shape, which is the identity. -/
theorem mm_168_1280_cast (a : FVec Ideal S200x168 .bf16) (b : FVec Ideal S168x1280 .bf16) (p : Fin 200) (j : Fin 1280) :
    matmul (F := Ideal) dot_S200x168_S168x1280_S200x1280_1_0_0_1_n_n none a (shapeCast S168x1280 b shapeCasts_S168x1280_S168x1280)
        (constant (F := Ideal) S200x1280 .f32 0x00000000#32) (ix2 p j)
      = ∑ k : Fin 168, a (ix2 p k) * b (ix2 k j) := by
  rw [shapeCast_self]
  exact mm_168_1280 a b p j

/-- A unit-stride slice of 168 columns at column offset `o`, read at row `p`, column `c`: the operand at column `o + c`. -/
theorem slice_apply {N : Nat} (o : Nat) (X : (⟨2, ![200, N]⟩ : Shape).Idx → EReal)
    (h : Shape.Slices (⟨2, ![200, N]⟩ : Shape) ![0, o] S200x168) (p : Fin 200) (c : Fin 168) (j : Fin N)
    (hj : j.val = o + c.val) :
    extractStridedSlice S200x168 ![0, o] X h (ix2 p c) = X (ix2 p j) :=
  extractStridedSlice_apply ![0, o] X h (ix2 p c) (ix2 p j) (fun a => by
    match a with
    | ⟨0, _⟩ => show p.val = 0 + p.val; omega
    | ⟨1, _⟩ => show j.val = o + c.val; omega)

/-- A one-row matrix broadcast to 200 rows, read at row `p`, column `j`: its row 0 at column `j`. -/
theorem bias_apply {N : Nat} (X : (⟨2, ![1, N]⟩ : Shape).Idx → EReal)
    (h : Shape.Broadcasts (⟨2, ![1, N]⟩ : Shape) (⟨2, ![200, N]⟩ : Shape)) (p : Fin 200) (j : Fin N) :
    broadcastTo (⟨2, ![200, N]⟩ : Shape) X h (ix2 p j) = X (ix2 0 j) :=
  broadcastTo_apply X h (ix2 p j) (ix2 0 j) (fun a => by
    match a with
    | ⟨0, _⟩ => rfl
    | ⟨1, _⟩ =>
      show j.val = if N = 1 then 0 else j.val
      have := j.isLt
      split <;> omega)

/-! ## The payloads read at an index -/

/-- The first three leaf products, added left to right. -/
theorem pay6_apply (v6 : Vec Ideal S200x300 .f32) (v9 : Vec Ideal S200x50 .f32) (v12 : Vec Ideal S200x50 .f32) (v24 : Vec Ideal S300x1024 .bf16) (v27 : Vec Ideal S50x1024 .bf16) (v31 : Vec Ideal S50x1024 .bf16) (p : Fin 200) (j : Fin 1024) :
    k0_pay6 (F := Ideal) v6 v9 v12 v24 v27 v31 (ix2 p j)
      = ((∑ k : Fin 300, v6 (ix2 p k) * v24 (ix2 k j)) + ∑ k : Fin 50, v9 (ix2 p k) * v27 (ix2 k j))
          + ∑ k : Fin 50, v12 (ix2 p k) * v31 (ix2 k j) :=
  congrArg₂ (· + ·) (congrArg₂ (· + ·) (mm_300_1024_cast v6 v24 p j) (mm_50_1024_cast v9 v27 p j))
    (mm_50_1024_cast v12 v31 p j)

/-- The product of the previous hidden state. -/
theorem pay7_apply (v15 : Vec Ideal S200x168 .f32) (v35 : Vec Ideal S168x1024 .bf16) (p : Fin 200) (j : Fin 1024) :
    k0_pay7 (F := Ideal) v15 v35 (ix2 p j) = ∑ k : Fin 168, v15 (ix2 p k) * v35 (ix2 k j) :=
  mm_168_1024_cast v15 v35 p j

/-- The leaf pre-activations: the two partial sums, then the bias row. -/
theorem pay8_apply (v34 : FVec Ideal S200x1024 .f32) (v37 : FVec Ideal S200x1024 .f32) (v39 : Vec Ideal S1x1024 .f32) (p : Fin 200) (j : Fin 1024) :
    k0_pay8 (F := Ideal) v34 v37 v39 (ix2 p j) = (v34 (ix2 p j) + v37 (ix2 p j)) + v39 (ix2 0 j) := by
  show (v34 (ix2 p j) + v37 (ix2 p j))
      + broadcastTo S200x1024 (shapeCast S1x1024 v39 shapeCasts_S1x1024_S1x1024) broadcasts_S1x1024_S200x1024 (ix2 p j) = _
  refine congrArg ((v34 (ix2 p j) + v37 (ix2 p j)) + ·) ?_
  rw [shapeCast_self]
  exact bias_apply v39 broadcasts_S1x1024_S200x1024 p j

/-- The leaf cell state from the leaf pre-activations. -/
theorem pay9_apply (v18 : Vec Ideal S200x168 .f32) (v34 : FVec Ideal S200x1024 .f32) (v37 : FVec Ideal S200x1024 .f32) (v39 : Vec Ideal S1x1024 .f32) (p : Fin 200) (c : Fin 168) :
    k0_pay9 (F := Ideal) v18 v34 v37 v39 (ix2 p c)
      = Ideal.logistic (k0_pay8 (F := Ideal) v34 v37 v39 (ix2 p (col256 (0 : Fin 4) c)))
            * Ideal.tanh (k0_pay8 (F := Ideal) v34 v37 v39 (ix2 p (col256 (3 : Fin 4) c)))
          + Ideal.logistic (k0_pay8 (F := Ideal) v34 v37 v39 (ix2 p (col256 (2 : Fin 4) c))) * v18 (ix2 p c) :=
  congrArg₂ (· + ·)
    (congrArg₂ (· * ·)
      (congrArg Ideal.logistic (slice_apply 0 (k0_pay8 (F := Ideal) v34 v37 v39) slices_S200x1024_o0_0_S200x168 p c
        (col256 (0 : Fin 4) c) (by show 256 * 0 + c.val = 0 + c.val; omega)))
      (congrArg Ideal.tanh (slice_apply 768 (k0_pay8 (F := Ideal) v34 v37 v39) slices_S200x1024_o0_768_S200x168 p c
        (col256 (3 : Fin 4) c) (by show 256 * 3 + c.val = 768 + c.val; omega))))
    (congrArg (· * v18 (ix2 p c))
      (congrArg Ideal.logistic (slice_apply 512 (k0_pay8 (F := Ideal) v34 v37 v39) slices_S200x1024_o0_512_S200x168 p c
        (col256 (2 : Fin 4) c) (by show 256 * 2 + c.val = 512 + c.val; omega))))

/-- The leaf hidden state as the kernel forms it before the node products. -/
def hLeaf (v18 : Vec Ideal S200x168 .f32) (v34 : FVec Ideal S200x1024 .f32) (v37 : FVec Ideal S200x1024 .f32) (v39 : Vec Ideal S1x1024 .f32) : FVec Ideal S200x168 .f32 :=
  mulf (logistic (extractStridedSlice S200x168 ![0, 256] (k0_pay8 (F := Ideal) v34 v37 v39) slices_S200x1024_o0_256_S200x168))
    (tanh (k0_pay9 (F := Ideal) v18 v34 v37 v39))

theorem hLeaf_apply (v18 : Vec Ideal S200x168 .f32) (v34 : FVec Ideal S200x1024 .f32) (v37 : FVec Ideal S200x1024 .f32) (v39 : Vec Ideal S1x1024 .f32) (p : Fin 200) (c : Fin 168) :
    hLeaf v18 v34 v37 v39 (ix2 p c)
      = Ideal.logistic (k0_pay8 (F := Ideal) v34 v37 v39 (ix2 p (col256 (1 : Fin 4) c)))
          * Ideal.tanh (k0_pay9 (F := Ideal) v18 v34 v37 v39 (ix2 p c)) :=
  congrArg (· * Ideal.tanh (k0_pay9 (F := Ideal) v18 v34 v37 v39 (ix2 p c)))
    (congrArg Ideal.logistic (slice_apply 256 (k0_pay8 (F := Ideal) v34 v37 v39) slices_S200x1024_o0_256_S200x168 p c
      (col256 (1 : Fin 4) c) (by show 256 * 1 + c.val = 256 + c.val; omega)))

/-- The node pre-activations: three products added left to right, then the bias row. -/
theorem pay10_apply (v10 : FVec Ideal S200x50 .bf16) (v13 : FVec Ideal S200x50 .bf16) (v18 : Vec Ideal S200x168 .f32) (v34 : FVec Ideal S200x1024 .f32) (v37 : FVec Ideal S200x1024 .f32) (v39 : Vec Ideal S1x1024 .f32) (v57 : Vec Ideal S50x1280 .bf16) (v60 : Vec Ideal S50x1280 .bf16) (v64 : Vec Ideal S168x1280 .bf16) (v68 : Vec Ideal S1x1280 .f32) (p : Fin 200) (j : Fin 1280) :
    k0_pay10 (F := Ideal) v10 v13 v18 v34 v37 v39 v57 v60 v64 v68 (ix2 p j)
      = (((∑ k : Fin 50, v10 (ix2 p k) * v57 (ix2 k j)) + ∑ k : Fin 50, v13 (ix2 p k) * v60 (ix2 k j))
            + ∑ k : Fin 168, hLeaf v18 v34 v37 v39 (ix2 p k) * v64 (ix2 k j))
          + v68 (ix2 0 j) := by
  show ((matmul (F := Ideal) dot_S200x50_S50x1280_S200x1280_1_0_0_1_n_n none v10
            (shapeCast S50x1280 v57 shapeCasts_S50x1280_S50x1280) (constant (F := Ideal) S200x1280 .f32 0x00000000#32) (ix2 p j)
          + matmul (F := Ideal) dot_S200x50_S50x1280_S200x1280_1_0_0_1_n_n none v13
            (shapeCast S50x1280 v60 shapeCasts_S50x1280_S50x1280) (constant (F := Ideal) S200x1280 .f32 0x00000000#32) (ix2 p j))
        + matmul (F := Ideal) dot_S200x168_S168x1280_S200x1280_1_0_0_1_n_n none (hLeaf v18 v34 v37 v39)
            (shapeCast S168x1280 v64 shapeCasts_S168x1280_S168x1280) (constant (F := Ideal) S200x1280 .f32 0x00000000#32) (ix2 p j))
      + broadcastTo S200x1280 (shapeCast S1x1280 v68 shapeCasts_S1x1280_S1x1280) broadcasts_S1x1280_S200x1280 (ix2 p j) = _
  refine congrArg₂ (· + ·) (congrArg₂ (· + ·) (congrArg₂ (· + ·) (mm_50_1280_cast v10 v57 p j) (mm_50_1280_cast v13 v60 p j))
    (mm_168_1280_cast (hLeaf v18 v34 v37 v39) v64 p j)) ?_
  rw [shapeCast_self]
  exact bias_apply v68 broadcasts_S1x1280_S200x1280 p j

/-- The product of the child sum. -/
theorem pay11_apply (v21 : FVec Ideal S200x168 .bf16) (v72 : Vec Ideal S168x1024 .bf16) (p : Fin 200) (j : Fin 1024) :
    k0_pay11 (F := Ideal) v21 v72 (ix2 p j) = ∑ k : Fin 168, v21 (ix2 p k) * v72 (ix2 k j) :=
  mm_168_1024_cast v21 v72 p j

/-! The five node gates and the two child gates the cell reads are slices of the two wide arrays. -/

theorem pay12_apply (v10 : FVec Ideal S200x50 .bf16) (v13 : FVec Ideal S200x50 .bf16) (v18 : Vec Ideal S200x168 .f32) (v34 : FVec Ideal S200x1024 .f32) (v37 : FVec Ideal S200x1024 .f32) (v39 : Vec Ideal S1x1024 .f32) (v57 : Vec Ideal S50x1280 .bf16) (v60 : Vec Ideal S50x1280 .bf16) (v64 : Vec Ideal S168x1280 .bf16) (v68 : Vec Ideal S1x1280 .f32) (p : Fin 200) (c : Fin 168) :
    k0_pay12 (F := Ideal) v10 v13 v18 v34 v37 v39 v57 v60 v64 v68 (ix2 p c)
      = k0_pay10 (F := Ideal) v10 v13 v18 v34 v37 v39 v57 v60 v64 v68 (ix2 p (col256 (0 : Fin 5) c)) :=
  slice_apply 0 (k0_pay10 (F := Ideal) v10 v13 v18 v34 v37 v39 v57 v60 v64 v68) slices_S200x1280_o0_0_S200x168 p c
    (col256 (0 : Fin 5) c) (by show 256 * 0 + c.val = 0 + c.val; omega)

theorem pay13_apply (v10 : FVec Ideal S200x50 .bf16) (v13 : FVec Ideal S200x50 .bf16) (v18 : Vec Ideal S200x168 .f32) (v34 : FVec Ideal S200x1024 .f32) (v37 : FVec Ideal S200x1024 .f32) (v39 : Vec Ideal S1x1024 .f32) (v57 : Vec Ideal S50x1280 .bf16) (v60 : Vec Ideal S50x1280 .bf16) (v64 : Vec Ideal S168x1280 .bf16) (v68 : Vec Ideal S1x1280 .f32) (p : Fin 200) (c : Fin 168) :
    k0_pay13 (F := Ideal) v10 v13 v18 v34 v37 v39 v57 v60 v64 v68 (ix2 p c)
      = k0_pay10 (F := Ideal) v10 v13 v18 v34 v37 v39 v57 v60 v64 v68 (ix2 p (col256 (1 : Fin 5) c)) :=
  slice_apply 256 (k0_pay10 (F := Ideal) v10 v13 v18 v34 v37 v39 v57 v60 v64 v68) slices_S200x1280_o0_256_S200x168 p c
    (col256 (1 : Fin 5) c) (by show 256 * 1 + c.val = 256 + c.val; omega)

theorem pay14_apply (v10 : FVec Ideal S200x50 .bf16) (v13 : FVec Ideal S200x50 .bf16) (v18 : Vec Ideal S200x168 .f32) (v34 : FVec Ideal S200x1024 .f32) (v37 : FVec Ideal S200x1024 .f32) (v39 : Vec Ideal S1x1024 .f32) (v57 : Vec Ideal S50x1280 .bf16) (v60 : Vec Ideal S50x1280 .bf16) (v64 : Vec Ideal S168x1280 .bf16) (v68 : Vec Ideal S1x1280 .f32) (p : Fin 200) (c : Fin 168) :
    k0_pay14 (F := Ideal) v10 v13 v18 v34 v37 v39 v57 v60 v64 v68 (ix2 p c)
      = k0_pay10 (F := Ideal) v10 v13 v18 v34 v37 v39 v57 v60 v64 v68 (ix2 p (col256 (2 : Fin 5) c)) :=
  slice_apply 512 (k0_pay10 (F := Ideal) v10 v13 v18 v34 v37 v39 v57 v60 v64 v68) slices_S200x1280_o0_512_S200x168 p c
    (col256 (2 : Fin 5) c) (by show 256 * 2 + c.val = 512 + c.val; omega)

theorem pay15_apply (v10 : FVec Ideal S200x50 .bf16) (v13 : FVec Ideal S200x50 .bf16) (v18 : Vec Ideal S200x168 .f32) (v34 : FVec Ideal S200x1024 .f32) (v37 : FVec Ideal S200x1024 .f32) (v39 : Vec Ideal S1x1024 .f32) (v57 : Vec Ideal S50x1280 .bf16) (v60 : Vec Ideal S50x1280 .bf16) (v64 : Vec Ideal S168x1280 .bf16) (v68 : Vec Ideal S1x1280 .f32) (p : Fin 200) (c : Fin 168) :
    k0_pay15 (F := Ideal) v10 v13 v18 v34 v37 v39 v57 v60 v64 v68 (ix2 p c)
      = k0_pay10 (F := Ideal) v10 v13 v18 v34 v37 v39 v57 v60 v64 v68 (ix2 p (col256 (3 : Fin 5) c)) :=
  slice_apply 768 (k0_pay10 (F := Ideal) v10 v13 v18 v34 v37 v39 v57 v60 v64 v68) slices_S200x1280_o0_768_S200x168 p c
    (col256 (3 : Fin 5) c) (by show 256 * 3 + c.val = 768 + c.val; omega)

theorem pay16_apply (v10 : FVec Ideal S200x50 .bf16) (v13 : FVec Ideal S200x50 .bf16) (v18 : Vec Ideal S200x168 .f32) (v34 : FVec Ideal S200x1024 .f32) (v37 : FVec Ideal S200x1024 .f32) (v39 : Vec Ideal S1x1024 .f32) (v57 : Vec Ideal S50x1280 .bf16) (v60 : Vec Ideal S50x1280 .bf16) (v64 : Vec Ideal S168x1280 .bf16) (v68 : Vec Ideal S1x1280 .f32) (p : Fin 200) (c : Fin 168) :
    k0_pay16 (F := Ideal) v10 v13 v18 v34 v37 v39 v57 v60 v64 v68 (ix2 p c)
      = k0_pay10 (F := Ideal) v10 v13 v18 v34 v37 v39 v57 v60 v64 v68 (ix2 p (col256 (4 : Fin 5) c)) :=
  slice_apply 1024 (k0_pay10 (F := Ideal) v10 v13 v18 v34 v37 v39 v57 v60 v64 v68) slices_S200x1280_o0_1024_S200x168 p c
    (col256 (4 : Fin 5) c) (by show 256 * 4 + c.val = 1024 + c.val; omega)

theorem pay17_apply (v21 : FVec Ideal S200x168 .bf16) (v72 : Vec Ideal S168x1024 .bf16) (p : Fin 200) (c : Fin 168) :
    k0_pay17 (F := Ideal) v21 v72 (ix2 p c) = k0_pay11 (F := Ideal) v21 v72 (ix2 p (col256 (0 : Fin 4) c)) :=
  slice_apply 0 (k0_pay11 (F := Ideal) v21 v72) slices_S200x1024_o0_0_S200x168 p c
    (col256 (0 : Fin 4) c) (by show 256 * 0 + c.val = 0 + c.val; omega)

theorem pay18_apply (v21 : FVec Ideal S200x168 .bf16) (v72 : Vec Ideal S168x1024 .bf16) (p : Fin 200) (c : Fin 168) :
    k0_pay18 (F := Ideal) v21 v72 (ix2 p c) = k0_pay11 (F := Ideal) v21 v72 (ix2 p (col256 (1 : Fin 4) c)) :=
  slice_apply 256 (k0_pay11 (F := Ideal) v21 v72) slices_S200x1024_o0_256_S200x168 p c
    (col256 (1 : Fin 4) c) (by show 256 * 1 + c.val = 256 + c.val; omega)

/-- The node cell state from the gates. -/
theorem pay1_apply (v23 : Vec Ideal S200x168 .f32) (v52 : FVec Ideal S200x168 .f32) (v74 : FVec Ideal S200x1024 .f32) (v75 : FVec Ideal S200x168 .f32) (v77 : FVec Ideal S200x168 .f32) (v78 : FVec Ideal S200x168 .f32) (v79 : FVec Ideal S200x168 .f32) (v80 : FVec Ideal S200x168 .f32) (p : Fin 200) (c : Fin 168) :
    k0_pay1 (F := Ideal) v23 v52 v74 v75 v77 v78 v79 v80 (ix2 p c)
      = (Ideal.logistic (v75 (ix2 p c) + v80 (ix2 p c)) * Ideal.tanh (v79 (ix2 p c))
          + Ideal.logistic (v78 (ix2 p c) + v74 (ix2 p (col256 (3 : Fin 4) c))) * v23 (ix2 p c))
        + Ideal.logistic (v77 (ix2 p c) + v74 (ix2 p (col256 (2 : Fin 4) c))) * v52 (ix2 p c) :=
  congrArg₂ (· + ·)
    (congrArg (Ideal.logistic (v75 (ix2 p c) + v80 (ix2 p c)) * Ideal.tanh (v79 (ix2 p c)) + ·)
      (congrArg (· * v23 (ix2 p c)) (congrArg Ideal.logistic (congrArg (v78 (ix2 p c) + ·)
        (slice_apply 768 v74 slices_S200x1024_o0_768_S200x168 p c (col256 (3 : Fin 4) c)
          (by show 256 * 3 + c.val = 768 + c.val; omega))))))
    (congrArg (· * v52 (ix2 p c)) (congrArg Ideal.logistic (congrArg (v77 (ix2 p c) + ·)
      (slice_apply 512 v74 slices_S200x1024_o0_512_S200x168 p c (col256 (2 : Fin 4) c)
        (by show 256 * 2 + c.val = 512 + c.val; omega)))))

/-- The node hidden state from the output gate and the node cell state. -/
theorem pay2_apply (v23 : Vec Ideal S200x168 .f32) (v52 : FVec Ideal S200x168 .f32) (v74 : FVec Ideal S200x1024 .f32) (v75 : FVec Ideal S200x168 .f32) (v76 : FVec Ideal S200x168 .f32) (v77 : FVec Ideal S200x168 .f32) (v78 : FVec Ideal S200x168 .f32) (v79 : FVec Ideal S200x168 .f32) (v80 : FVec Ideal S200x168 .f32) (v81 : FVec Ideal S200x168 .f32) (p : Fin 200) (c : Fin 168) :
    k0_pay2 (F := Ideal) v23 v52 v74 v75 v76 v77 v78 v79 v80 v81 (ix2 p c)
      = Ideal.logistic (v76 (ix2 p c) + v81 (ix2 p c))
          * Ideal.tanh (k0_pay1 (F := Ideal) v23 v52 v74 v75 v77 v78 v79 v80 (ix2 p c)) := rfl

/-! ## The payloads are the specification's cell, row by row -/

/-- The leaf pre-activation of gate `g`, column `c`, sits at column `256 g + c`. -/
theorem leafPre_eq (v6 : Vec Ideal S200x300 .f32) (v9 : Vec Ideal S200x50 .f32) (v12 : Vec Ideal S200x50 .f32) (v15 : Vec Ideal S200x168 .f32) (v18 : Vec Ideal S200x168 .f32) (v20 : Vec Ideal S200x168 .f32) (v23 : Vec Ideal S200x168 .f32) (v24 : Vec Ideal S300x1024 .bf16) (v27 : Vec Ideal S50x1024 .bf16) (v31 : Vec Ideal S50x1024 .bf16) (v35 : Vec Ideal S168x1024 .bf16) (v39 : Vec Ideal S1x1024 .f32) (v57 : Vec Ideal S50x1280 .bf16) (v60 : Vec Ideal S50x1280 .bf16) (v64 : Vec Ideal S168x1280 .bf16) (v72 : Vec Ideal S168x1024 .bf16) (v68 : Vec Ideal S1x1280 .f32) (p : Fin 200) (g : Fin 4) (c : Fin 168) :
    k0_pay8 (F := Ideal) (k0_pay6 v6 v9 v12 v24 v27 v31) (k0_pay7 v15 v35) v39 (ix2 p (col256 g c))
      = leafPre (rowOf v6 v9 v12 v15 v18 v20 v23 p) (paddedWeightsOf v24 v27 v31 v35 v39 v57 v60 v64 v72 v68) g c := by
  refine (pay8_apply (k0_pay6 v6 v9 v12 v24 v27 v31) (k0_pay7 v15 v35) v39 p (col256 g c)).trans ?_
  rw [pay6_apply v6 v9 v12 v24 v27 v31 p (col256 g c), pay7_apply v15 v35 p (col256 g c)]
  rfl

/-- The leaf cell state. -/
theorem leafC_eq (v6 : Vec Ideal S200x300 .f32) (v9 : Vec Ideal S200x50 .f32) (v12 : Vec Ideal S200x50 .f32) (v15 : Vec Ideal S200x168 .f32) (v18 : Vec Ideal S200x168 .f32) (v20 : Vec Ideal S200x168 .f32) (v23 : Vec Ideal S200x168 .f32) (v24 : Vec Ideal S300x1024 .bf16) (v27 : Vec Ideal S50x1024 .bf16) (v31 : Vec Ideal S50x1024 .bf16) (v35 : Vec Ideal S168x1024 .bf16) (v39 : Vec Ideal S1x1024 .f32) (v57 : Vec Ideal S50x1280 .bf16) (v60 : Vec Ideal S50x1280 .bf16) (v64 : Vec Ideal S168x1280 .bf16) (v72 : Vec Ideal S168x1024 .bf16) (v68 : Vec Ideal S1x1280 .f32) (p : Fin 200) (c : Fin 168) :
    k0_pay9 (F := Ideal) v18 (k0_pay6 v6 v9 v12 v24 v27 v31) (k0_pay7 v15 v35) v39 (ix2 p c) = leafC (rowOf v6 v9 v12 v15 v18 v20 v23 p) (paddedWeightsOf v24 v27 v31 v35 v39 v57 v60 v64 v72 v68) c := by
  refine (pay9_apply v18 (k0_pay6 v6 v9 v12 v24 v27 v31) (k0_pay7 v15 v35) v39 p c).trans ?_
  rw [leafPre_eq v6 v9 v12 v15 v18 v20 v23 v24 v27 v31 v35 v39 v57 v60 v64 v72 v68 p 0 c, leafPre_eq v6 v9 v12 v15 v18 v20 v23 v24 v27 v31 v35 v39 v57 v60 v64 v72 v68 p 3 c, leafPre_eq v6 v9 v12 v15 v18 v20 v23 v24 v27 v31 v35 v39 v57 v60 v64 v72 v68 p 2 c]
  rfl

/-- The leaf hidden state. -/
theorem leafH_eq (v6 : Vec Ideal S200x300 .f32) (v9 : Vec Ideal S200x50 .f32) (v12 : Vec Ideal S200x50 .f32) (v15 : Vec Ideal S200x168 .f32) (v18 : Vec Ideal S200x168 .f32) (v20 : Vec Ideal S200x168 .f32) (v23 : Vec Ideal S200x168 .f32) (v24 : Vec Ideal S300x1024 .bf16) (v27 : Vec Ideal S50x1024 .bf16) (v31 : Vec Ideal S50x1024 .bf16) (v35 : Vec Ideal S168x1024 .bf16) (v39 : Vec Ideal S1x1024 .f32) (v57 : Vec Ideal S50x1280 .bf16) (v60 : Vec Ideal S50x1280 .bf16) (v64 : Vec Ideal S168x1280 .bf16) (v72 : Vec Ideal S168x1024 .bf16) (v68 : Vec Ideal S1x1280 .f32) (p : Fin 200) (c : Fin 168) :
    hLeaf v18 (k0_pay6 v6 v9 v12 v24 v27 v31) (k0_pay7 v15 v35) v39 (ix2 p c) = leafH (rowOf v6 v9 v12 v15 v18 v20 v23 p) (paddedWeightsOf v24 v27 v31 v35 v39 v57 v60 v64 v72 v68) c := by
  refine (hLeaf_apply v18 (k0_pay6 v6 v9 v12 v24 v27 v31) (k0_pay7 v15 v35) v39 p c).trans ?_
  rw [leafPre_eq v6 v9 v12 v15 v18 v20 v23 v24 v27 v31 v35 v39 v57 v60 v64 v72 v68 p 1 c, leafC_eq v6 v9 v12 v15 v18 v20 v23 v24 v27 v31 v35 v39 v57 v60 v64 v72 v68 p c]
  rfl

/-- The node pre-activation of gate `g`, column `c`, sits at column `256 g + c`. -/
theorem nodePre_eq (v6 : Vec Ideal S200x300 .f32) (v9 : Vec Ideal S200x50 .f32) (v12 : Vec Ideal S200x50 .f32) (v15 : Vec Ideal S200x168 .f32) (v18 : Vec Ideal S200x168 .f32) (v20 : Vec Ideal S200x168 .f32) (v23 : Vec Ideal S200x168 .f32) (v24 : Vec Ideal S300x1024 .bf16) (v27 : Vec Ideal S50x1024 .bf16) (v31 : Vec Ideal S50x1024 .bf16) (v35 : Vec Ideal S168x1024 .bf16) (v39 : Vec Ideal S1x1024 .f32) (v57 : Vec Ideal S50x1280 .bf16) (v60 : Vec Ideal S50x1280 .bf16) (v64 : Vec Ideal S168x1280 .bf16) (v72 : Vec Ideal S168x1024 .bf16) (v68 : Vec Ideal S1x1280 .f32) (p : Fin 200) (g : Fin 5) (c : Fin 168) :
    k0_pay10 (F := Ideal) (k0_pay3 v9) (k0_pay4 v12) v18 (k0_pay6 v6 v9 v12 v24 v27 v31) (k0_pay7 v15 v35) v39 v57 v60 v64 v68 (ix2 p (col256 g c))
      = nodePre (rowOf v6 v9 v12 v15 v18 v20 v23 p) (paddedWeightsOf v24 v27 v31 v35 v39 v57 v60 v64 v72 v68) g c := by
  refine (pay10_apply (k0_pay3 v9) (k0_pay4 v12) v18 (k0_pay6 v6 v9 v12 v24 v27 v31) (k0_pay7 v15 v35) v39 v57 v60 v64 v68 p (col256 g c)).trans ?_
  refine congrArg (· + v68 (ix2 0 (col256 g c))) (congrArg
    (((∑ k : Fin 50, v9 (ix2 p k) * v57 (ix2 k (col256 g c))) + ∑ k : Fin 50, v12 (ix2 p k) * v60 (ix2 k (col256 g c))) + ·)
    (Finset.sum_congr rfl fun k _ => congrArg (· * v64 (ix2 k (col256 g c))) (leafH_eq v6 v9 v12 v15 v18 v20 v23 v24 v27 v31 v35 v39 v57 v60 v64 v72 v68 p k)))

/-- The child sum's contribution to gate `g`, column `c`, sits at column `256 g + c`. -/
theorem childPre_eq (v6 : Vec Ideal S200x300 .f32) (v9 : Vec Ideal S200x50 .f32) (v12 : Vec Ideal S200x50 .f32) (v15 : Vec Ideal S200x168 .f32) (v18 : Vec Ideal S200x168 .f32) (v20 : Vec Ideal S200x168 .f32) (v23 : Vec Ideal S200x168 .f32) (v24 : Vec Ideal S300x1024 .bf16) (v27 : Vec Ideal S50x1024 .bf16) (v31 : Vec Ideal S50x1024 .bf16) (v35 : Vec Ideal S168x1024 .bf16) (v39 : Vec Ideal S1x1024 .f32) (v57 : Vec Ideal S50x1280 .bf16) (v60 : Vec Ideal S50x1280 .bf16) (v64 : Vec Ideal S168x1280 .bf16) (v72 : Vec Ideal S168x1024 .bf16) (v68 : Vec Ideal S1x1280 .f32) (p : Fin 200) (g : Fin 4) (c : Fin 168) :
    k0_pay11 (F := Ideal) (k0_pay5 v20) v72 (ix2 p (col256 g c)) = childPre (rowOf v6 v9 v12 v15 v18 v20 v23 p) (paddedWeightsOf v24 v27 v31 v35 v39 v57 v60 v64 v72 v68) g c :=
  pay11_apply (k0_pay5 v20) v72 p (col256 g c)

/-! ## One chunk of 200 rows -/

/-- The cell state the kernel stores for one chunk, as a function of the seventeen vectors its body loads. -/
def chunkC (v6 : Vec Ideal S200x300 .f32) (v9 : Vec Ideal S200x50 .f32) (v12 : Vec Ideal S200x50 .f32) (v15 : Vec Ideal S200x168 .f32) (v18 : Vec Ideal S200x168 .f32) (v20 : Vec Ideal S200x168 .f32) (v23 : Vec Ideal S200x168 .f32) (v24 : Vec Ideal S300x1024 .bf16) (v27 : Vec Ideal S50x1024 .bf16) (v31 : Vec Ideal S50x1024 .bf16) (v35 : Vec Ideal S168x1024 .bf16) (v39 : Vec Ideal S1x1024 .f32) (v57 : Vec Ideal S50x1280 .bf16) (v60 : Vec Ideal S50x1280 .bf16) (v64 : Vec Ideal S168x1280 .bf16) (v72 : Vec Ideal S168x1024 .bf16) (v68 : Vec Ideal S1x1280 .f32) : FVec Ideal S200x168 .f32 :=
  k0_pay1 (F := Ideal) v23 (k0_pay9 v18 (k0_pay6 v6 v9 v12 v24 v27 v31) (k0_pay7 v15 v35) v39) (k0_pay11 (k0_pay5 v20) v72) (k0_pay12 (k0_pay3 v9) (k0_pay4 v12) v18 (k0_pay6 v6 v9 v12 v24 v27 v31) (k0_pay7 v15 v35) v39 v57 v60 v64 v68) (k0_pay14 (k0_pay3 v9) (k0_pay4 v12) v18 (k0_pay6 v6 v9 v12 v24 v27 v31) (k0_pay7 v15 v35) v39 v57 v60 v64 v68) (k0_pay15 (k0_pay3 v9) (k0_pay4 v12) v18 (k0_pay6 v6 v9 v12 v24 v27 v31) (k0_pay7 v15 v35) v39 v57 v60 v64 v68) (k0_pay16 (k0_pay3 v9) (k0_pay4 v12) v18 (k0_pay6 v6 v9 v12 v24 v27 v31) (k0_pay7 v15 v35) v39 v57 v60 v64 v68) (k0_pay17 (k0_pay5 v20) v72)

/-- The hidden state the kernel stores for one chunk, as a function of the seventeen vectors its body loads. -/
def chunkH (v6 : Vec Ideal S200x300 .f32) (v9 : Vec Ideal S200x50 .f32) (v12 : Vec Ideal S200x50 .f32) (v15 : Vec Ideal S200x168 .f32) (v18 : Vec Ideal S200x168 .f32) (v20 : Vec Ideal S200x168 .f32) (v23 : Vec Ideal S200x168 .f32) (v24 : Vec Ideal S300x1024 .bf16) (v27 : Vec Ideal S50x1024 .bf16) (v31 : Vec Ideal S50x1024 .bf16) (v35 : Vec Ideal S168x1024 .bf16) (v39 : Vec Ideal S1x1024 .f32) (v57 : Vec Ideal S50x1280 .bf16) (v60 : Vec Ideal S50x1280 .bf16) (v64 : Vec Ideal S168x1280 .bf16) (v72 : Vec Ideal S168x1024 .bf16) (v68 : Vec Ideal S1x1280 .f32) : FVec Ideal S200x168 .f32 :=
  k0_pay2 (F := Ideal) v23 (k0_pay9 v18 (k0_pay6 v6 v9 v12 v24 v27 v31) (k0_pay7 v15 v35) v39) (k0_pay11 (k0_pay5 v20) v72) (k0_pay12 (k0_pay3 v9) (k0_pay4 v12) v18 (k0_pay6 v6 v9 v12 v24 v27 v31) (k0_pay7 v15 v35) v39 v57 v60 v64 v68) (k0_pay13 (k0_pay3 v9) (k0_pay4 v12) v18 (k0_pay6 v6 v9 v12 v24 v27 v31) (k0_pay7 v15 v35) v39 v57 v60 v64 v68) (k0_pay14 (k0_pay3 v9) (k0_pay4 v12) v18 (k0_pay6 v6 v9 v12 v24 v27 v31) (k0_pay7 v15 v35) v39 v57 v60 v64 v68) (k0_pay15 (k0_pay3 v9) (k0_pay4 v12) v18 (k0_pay6 v6 v9 v12 v24 v27 v31) (k0_pay7 v15 v35) v39 v57 v60 v64 v68) (k0_pay16 (k0_pay3 v9) (k0_pay4 v12) v18 (k0_pay6 v6 v9 v12 v24 v27 v31) (k0_pay7 v15 v35) v39 v57 v60 v64 v68) (k0_pay17 (k0_pay5 v20) v72) (k0_pay18 (k0_pay5 v20) v72)

/-- Row `p`, column `c` of the stored cell state is the specification's node cell state of row `p` of the chunk. -/
theorem chunk_cell (v6 : Vec Ideal S200x300 .f32) (v9 : Vec Ideal S200x50 .f32) (v12 : Vec Ideal S200x50 .f32) (v15 : Vec Ideal S200x168 .f32) (v18 : Vec Ideal S200x168 .f32) (v20 : Vec Ideal S200x168 .f32) (v23 : Vec Ideal S200x168 .f32) (v24 : Vec Ideal S300x1024 .bf16) (v27 : Vec Ideal S50x1024 .bf16) (v31 : Vec Ideal S50x1024 .bf16) (v35 : Vec Ideal S168x1024 .bf16) (v39 : Vec Ideal S1x1024 .f32) (v57 : Vec Ideal S50x1280 .bf16) (v60 : Vec Ideal S50x1280 .bf16) (v64 : Vec Ideal S168x1280 .bf16) (v72 : Vec Ideal S168x1024 .bf16) (v68 : Vec Ideal S1x1280 .f32) (p : Fin 200) (c : Fin 168) :
    chunkC v6 v9 v12 v15 v18 v20 v23 v24 v27 v31 v35 v39 v57 v60 v64 v72 v68 (ix2 p c) = nodeC (rowOf v6 v9 v12 v15 v18 v20 v23 p) (paddedWeightsOf v24 v27 v31 v35 v39 v57 v60 v64 v72 v68) c := by
  refine (pay1_apply v23 (k0_pay9 v18 (k0_pay6 v6 v9 v12 v24 v27 v31) (k0_pay7 v15 v35) v39) (k0_pay11 (k0_pay5 v20) v72) (k0_pay12 (k0_pay3 v9) (k0_pay4 v12) v18 (k0_pay6 v6 v9 v12 v24 v27 v31) (k0_pay7 v15 v35) v39 v57 v60 v64 v68) (k0_pay14 (k0_pay3 v9) (k0_pay4 v12) v18 (k0_pay6 v6 v9 v12 v24 v27 v31) (k0_pay7 v15 v35) v39 v57 v60 v64 v68) (k0_pay15 (k0_pay3 v9) (k0_pay4 v12) v18 (k0_pay6 v6 v9 v12 v24 v27 v31) (k0_pay7 v15 v35) v39 v57 v60 v64 v68) (k0_pay16 (k0_pay3 v9) (k0_pay4 v12) v18 (k0_pay6 v6 v9 v12 v24 v27 v31) (k0_pay7 v15 v35) v39 v57 v60 v64 v68) (k0_pay17 (k0_pay5 v20) v72) p c).trans ?_
  rw [pay12_apply (k0_pay3 v9) (k0_pay4 v12) v18 (k0_pay6 v6 v9 v12 v24 v27 v31) (k0_pay7 v15 v35) v39 v57 v60 v64 v68 p c, pay14_apply (k0_pay3 v9) (k0_pay4 v12) v18 (k0_pay6 v6 v9 v12 v24 v27 v31) (k0_pay7 v15 v35) v39 v57 v60 v64 v68 p c, pay15_apply (k0_pay3 v9) (k0_pay4 v12) v18 (k0_pay6 v6 v9 v12 v24 v27 v31) (k0_pay7 v15 v35) v39 v57 v60 v64 v68 p c, pay16_apply (k0_pay3 v9) (k0_pay4 v12) v18 (k0_pay6 v6 v9 v12 v24 v27 v31) (k0_pay7 v15 v35) v39 v57 v60 v64 v68 p c,
    pay17_apply (k0_pay5 v20) v72 p c,
    nodePre_eq v6 v9 v12 v15 v18 v20 v23 v24 v27 v31 v35 v39 v57 v60 v64 v72 v68 p 0 c, nodePre_eq v6 v9 v12 v15 v18 v20 v23 v24 v27 v31 v35 v39 v57 v60 v64 v72 v68 p 2 c, nodePre_eq v6 v9 v12 v15 v18 v20 v23 v24 v27 v31 v35 v39 v57 v60 v64 v72 v68 p 3 c, nodePre_eq v6 v9 v12 v15 v18 v20 v23 v24 v27 v31 v35 v39 v57 v60 v64 v72 v68 p 4 c,
    childPre_eq v6 v9 v12 v15 v18 v20 v23 v24 v27 v31 v35 v39 v57 v60 v64 v72 v68 p 0 c, childPre_eq v6 v9 v12 v15 v18 v20 v23 v24 v27 v31 v35 v39 v57 v60 v64 v72 v68 p 2 c, childPre_eq v6 v9 v12 v15 v18 v20 v23 v24 v27 v31 v35 v39 v57 v60 v64 v72 v68 p 3 c,
    leafC_eq v6 v9 v12 v15 v18 v20 v23 v24 v27 v31 v35 v39 v57 v60 v64 v72 v68 p c]
  rfl

/-- Row `p`, column `c` of the stored hidden state is the specification's node hidden state of row `p` of the chunk. -/
theorem chunk_hidden (v6 : Vec Ideal S200x300 .f32) (v9 : Vec Ideal S200x50 .f32) (v12 : Vec Ideal S200x50 .f32) (v15 : Vec Ideal S200x168 .f32) (v18 : Vec Ideal S200x168 .f32) (v20 : Vec Ideal S200x168 .f32) (v23 : Vec Ideal S200x168 .f32) (v24 : Vec Ideal S300x1024 .bf16) (v27 : Vec Ideal S50x1024 .bf16) (v31 : Vec Ideal S50x1024 .bf16) (v35 : Vec Ideal S168x1024 .bf16) (v39 : Vec Ideal S1x1024 .f32) (v57 : Vec Ideal S50x1280 .bf16) (v60 : Vec Ideal S50x1280 .bf16) (v64 : Vec Ideal S168x1280 .bf16) (v72 : Vec Ideal S168x1024 .bf16) (v68 : Vec Ideal S1x1280 .f32) (p : Fin 200) (c : Fin 168) :
    chunkH v6 v9 v12 v15 v18 v20 v23 v24 v27 v31 v35 v39 v57 v60 v64 v72 v68 (ix2 p c) = nodeH (rowOf v6 v9 v12 v15 v18 v20 v23 p) (paddedWeightsOf v24 v27 v31 v35 v39 v57 v60 v64 v72 v68) c := by
  refine (pay2_apply v23 (k0_pay9 v18 (k0_pay6 v6 v9 v12 v24 v27 v31) (k0_pay7 v15 v35) v39) (k0_pay11 (k0_pay5 v20) v72) (k0_pay12 (k0_pay3 v9) (k0_pay4 v12) v18 (k0_pay6 v6 v9 v12 v24 v27 v31) (k0_pay7 v15 v35) v39 v57 v60 v64 v68) (k0_pay13 (k0_pay3 v9) (k0_pay4 v12) v18 (k0_pay6 v6 v9 v12 v24 v27 v31) (k0_pay7 v15 v35) v39 v57 v60 v64 v68) (k0_pay14 (k0_pay3 v9) (k0_pay4 v12) v18 (k0_pay6 v6 v9 v12 v24 v27 v31) (k0_pay7 v15 v35) v39 v57 v60 v64 v68) (k0_pay15 (k0_pay3 v9) (k0_pay4 v12) v18 (k0_pay6 v6 v9 v12 v24 v27 v31) (k0_pay7 v15 v35) v39 v57 v60 v64 v68) (k0_pay16 (k0_pay3 v9) (k0_pay4 v12) v18 (k0_pay6 v6 v9 v12 v24 v27 v31) (k0_pay7 v15 v35) v39 v57 v60 v64 v68) (k0_pay17 (k0_pay5 v20) v72) (k0_pay18 (k0_pay5 v20) v72) p c).trans ?_
  rw [pay13_apply (k0_pay3 v9) (k0_pay4 v12) v18 (k0_pay6 v6 v9 v12 v24 v27 v31) (k0_pay7 v15 v35) v39 v57 v60 v64 v68 p c, pay18_apply (k0_pay5 v20) v72 p c, nodePre_eq v6 v9 v12 v15 v18 v20 v23 v24 v27 v31 v35 v39 v57 v60 v64 v72 v68 p 1 c, childPre_eq v6 v9 v12 v15 v18 v20 v23 v24 v27 v31 v35 v39 v57 v60 v64 v72 v68 p 1 c]
  exact congrArg (Ideal.logistic (nodePre (rowOf v6 v9 v12 v15 v18 v20 v23 p) (paddedWeightsOf v24 v27 v31 v35 v39 v57 v60 v64 v72 v68) 1 c + childPre (rowOf v6 v9 v12 v15 v18 v20 v23 p) (paddedWeightsOf v24 v27 v31 v35 v39 v57 v60 v64 v72 v68) 1 c) * Ideal.tanh ·)
    (chunk_cell v6 v9 v12 v15 v18 v20 v23 v24 v27 v31 v35 v39 v57 v60 v64 v72 v68 p c)

end Cert.TreeCell

end
-- ==== Proof.BlockValue.lean ====
/-
  What the kernel's body leaves in one block of 1000 rows of the result.

  The body walks the block in five chunks of 200 rows. Chunk `k` loads rows `200 k … 200 k + 199` of the seven
  row blocks and the ten weight operands whole, and stores two pieces of 200 × 168: the node hidden state at
  columns `0 … 167` and the node cell state at columns `168 … 335` of those rows. By ChunkValue.lean each stored
  element is the specification's cell of its own row, so every piece is the restriction of ONE function of the block
  index — row `r`, column `j` ↦ the specification's result row of row `r` of the blocks, at column `j` — to the
  piece's rectangle. The ten pieces tile the block, and a buffer filled by pieces that all restrict one function holds
  that function: the block ends holding the specification of its own 1000 rows.
-/
import proofs.«151848_j44324062495020_2_alg».proof.Proof.ChunkValue
import proofs.«151848_j44324062495020_2_alg».proof.Proof.Gen.KernelIdeal.Frame
import Idealize.ShloMosaic.Lib.Pipeline.Value

set_option maxRecDepth 16384

noncomputable section

namespace Cert.TreeCell

open Idealize.ShloMosaic Idealize.ShloMosaic.TcCoe Idealize.ShloMosaic.ValueIdx Idealize.ShloMosaic.Tactic
open Idealize.SL Idealize.SL.Sem
open Cert.KernelIdeal Cert.KernelIdeal.Gen

/-- The specification of one block of 1000 rows: row `r`, column `j` of the block is the specification's result row
    of row `r` of the seven row blocks, at column `j`. -/
def blockOf (e : Arr2 1000 300) (tg tp : Arr2 1000 50) (h cp kk q : Arr2 1000 168) (W : Weights) : Arr2 1000 336 :=
  fun y => outRow (rowOf e tg tp h cp kk q (y 0)) W (y 1)

/-- The all-zero offsets of a whole-array load. -/
theorem zero_offsets : (![0, 0] : Fin 2 → Nat) = fun _ => 0 := funext fun a => by fin_cases a <;> rfl

/-- A unit-stride rectangle of 200 rows starting at row `200 kk`, all `n` columns, places row `p`, column `j` of the
    chunk at row `200 kk + p`, column `j` of the block. -/
theorem chunk_row_index {n kk : Nat} (off : Fin 2 → Nat) (hoff : off = ![200 * kk, 0])
    (inb : ∀ a, off a + (![200, n] : Fin 2 → Nat) a ≤ (⟨2, ![1000, n]⟩ : Shape).size a) (p : Fin 200) (j : Fin n)
    (h : 200 * kk + p.val < 1000) :
    (Rect.unit (s := (⟨2, ![1000, n]⟩ : Shape)) off ![200, n] inb).idx (ix2 p j) = ix2 ⟨200 * kk + p.val, h⟩ j := by
  subst hoff
  funext a; apply Fin.ext
  match a with
  | ⟨0, _⟩ => show 200 * kk + 1 * p.val = 200 * kk + p.val; omega
  | ⟨1, _⟩ => show 0 + 1 * j.val = j.val; omega

section Trip

variable (𝒱 : Variants) (c : Dev nD) (bd : Option 𝒱.V) (i : grid0.Coords) (arg1 : Memref sig .tc .vmem S1000x300 .f32) (harg1 : arg1.IsWhole) (arg2 : Memref sig .tc .vmem S1000x50 .f32) (harg2 : arg2.IsWhole) (arg3 : Memref sig .tc .vmem S1000x50 .f32) (harg3 : arg3.IsWhole) (arg4 : Memref sig .tc .vmem S1000x168 .f32) (harg4 : arg4.IsWhole) (arg5 : Memref sig .tc .vmem S1000x168 .f32) (harg5 : arg5.IsWhole) (arg6 : Memref sig .tc .vmem S1000x168 .f32) (harg6 : arg6.IsWhole) (arg7 : Memref sig .tc .vmem S1000x168 .f32) (harg7 : arg7.IsWhole) (arg8 : Memref sig .tc .vmem S300x1024 .bf16) (harg8 : arg8.IsWhole) (arg9 : Memref sig .tc .vmem S50x1024 .bf16) (harg9 : arg9.IsWhole) (arg10 : Memref sig .tc .vmem S50x1024 .bf16) (harg10 : arg10.IsWhole) (arg11 : Memref sig .tc .vmem S168x1024 .bf16) (harg11 : arg11.IsWhole) (arg12 : Memref sig .tc .vmem S1x1024 .f32) (harg12 : arg12.IsWhole) (arg13 : Memref sig .tc .vmem S50x1280 .bf16) (harg13 : arg13.IsWhole) (arg14 : Memref sig .tc .vmem S50x1280 .bf16) (harg14 : arg14.IsWhole) (arg15 : Memref sig .tc .vmem S168x1280 .bf16) (harg15 : arg15.IsWhole) (arg16 : Memref sig .tc .vmem S168x1024 .bf16) (harg16 : arg16.IsWhole) (arg17 : Memref sig .tc .vmem S1x1280 .f32) (harg17 : arg17.IsWhole) (arg18 : Memref sig .tc .vmem S1000x336 .f32) (harg18 : arg18.IsWhole)
  (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (X_arg17 : BufTy.Contents (Elt Ideal) arg17.view.ty)

/-- The two pieces chunk `k` stores, last first: the cell state at columns 168 …, the hidden state at columns 0 …,
    each the chunk's arithmetic of the seventeen vectors the chunk loads. -/
theorem chunk_pieces (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 X_arg7 X_arg8 X_arg9 X_arg10 X_arg11 X_arg12 X_arg13 X_arg14 X_arg15 X_arg16 X_arg17 k
      = [⟨Rect.unit (s := S1000x336) (k0_off5 k) S200x168.size (k0_off5_inb k), chunkC
        (View.readAt (Elt Ideal) arg1.view (Rect.unit (s := S1000x300) (k0_off1 k) S200x300.size (k0_off1_inb k)).toLoadRect X_arg1)
        (View.readAt (Elt Ideal) arg2.view (Rect.unit (s := S1000x50) (k0_off2 k) S200x50.size (k0_off2_inb k)).toLoadRect X_arg2)
        (View.readAt (Elt Ideal) arg3.view (Rect.unit (s := S1000x50) (k0_off2 k) S200x50.size (k0_off2_inb k)).toLoadRect X_arg3)
        (View.readAt (Elt Ideal) arg4.view (Rect.unit (s := S1000x168) (k0_off3 k) S200x168.size (k0_off3_inb k)).toLoadRect X_arg4)
        (View.readAt (Elt Ideal) arg5.view (Rect.unit (s := S1000x168) (k0_off3 k) S200x168.size (k0_off3_inb k)).toLoadRect X_arg5)
        (View.readAt (Elt Ideal) arg6.view (Rect.unit (s := S1000x168) (k0_off3 k) S200x168.size (k0_off3_inb k)).toLoadRect X_arg6)
        (View.readAt (Elt Ideal) arg7.view (Rect.unit (s := S1000x168) (k0_off3 k) S200x168.size (k0_off3_inb k)).toLoadRect X_arg7)
        (View.readAt (Elt Ideal) arg8.view (Rect.unit (s := S300x1024) ![0, 0] S300x1024.size inb_S300x1024_S300x1024_0_0).toLoadRect X_arg8)
        (View.readAt (Elt Ideal) arg9.view (Rect.unit (s := S50x1024) ![0, 0] S50x1024.size inb_S50x1024_S50x1024_0_0).toLoadRect X_arg9)
        (View.readAt (Elt Ideal) arg10.view (Rect.unit (s := S50x1024) ![0, 0] S50x1024.size inb_S50x1024_S50x1024_0_0).toLoadRect X_arg10)
        (View.readAt (Elt Ideal) arg11.view (Rect.unit (s := S168x1024) ![0, 0] S168x1024.size inb_S168x1024_S168x1024_0_0).toLoadRect X_arg11)
        (View.readAt (Elt Ideal) arg12.view (Rect.unit (s := S1x1024) ![0, 0] S1x1024.size inb_S1x1024_S1x1024_0_0).toLoadRect X_arg12)
        (View.readAt (Elt Ideal) arg13.view (Rect.unit (s := S50x1280) ![0, 0] S50x1280.size inb_S50x1280_S50x1280_0_0).toLoadRect X_arg13)
        (View.readAt (Elt Ideal) arg14.view (Rect.unit (s := S50x1280) ![0, 0] S50x1280.size inb_S50x1280_S50x1280_0_0).toLoadRect X_arg14)
        (View.readAt (Elt Ideal) arg15.view (Rect.unit (s := S168x1280) ![0, 0] S168x1280.size inb_S168x1280_S168x1280_0_0).toLoadRect X_arg15)
        (View.readAt (Elt Ideal) arg16.view (Rect.unit (s := S168x1024) ![0, 0] S168x1024.size inb_S168x1024_S168x1024_0_0).toLoadRect X_arg16)
        (View.readAt (Elt Ideal) arg17.view (Rect.unit (s := S1x1280) ![0, 0] S1x1280.size inb_S1x1280_S1x1280_0_0).toLoadRect X_arg17)⟩,
         ⟨Rect.unit (s := S1000x336) (k0_off4 k) S200x168.size (k0_off4_inb k), chunkH
        (View.readAt (Elt Ideal) arg1.view (Rect.unit (s := S1000x300) (k0_off1 k) S200x300.size (k0_off1_inb k)).toLoadRect X_arg1)
        (View.readAt (Elt Ideal) arg2.view (Rect.unit (s := S1000x50) (k0_off2 k) S200x50.size (k0_off2_inb k)).toLoadRect X_arg2)
        (View.readAt (Elt Ideal) arg3.view (Rect.unit (s := S1000x50) (k0_off2 k) S200x50.size (k0_off2_inb k)).toLoadRect X_arg3)
        (View.readAt (Elt Ideal) arg4.view (Rect.unit (s := S1000x168) (k0_off3 k) S200x168.size (k0_off3_inb k)).toLoadRect X_arg4)
        (View.readAt (Elt Ideal) arg5.view (Rect.unit (s := S1000x168) (k0_off3 k) S200x168.size (k0_off3_inb k)).toLoadRect X_arg5)
        (View.readAt (Elt Ideal) arg6.view (Rect.unit (s := S1000x168) (k0_off3 k) S200x168.size (k0_off3_inb k)).toLoadRect X_arg6)
        (View.readAt (Elt Ideal) arg7.view (Rect.unit (s := S1000x168) (k0_off3 k) S200x168.size (k0_off3_inb k)).toLoadRect X_arg7)
        (View.readAt (Elt Ideal) arg8.view (Rect.unit (s := S300x1024) ![0, 0] S300x1024.size inb_S300x1024_S300x1024_0_0).toLoadRect X_arg8)
        (View.readAt (Elt Ideal) arg9.view (Rect.unit (s := S50x1024) ![0, 0] S50x1024.size inb_S50x1024_S50x1024_0_0).toLoadRect X_arg9)
        (View.readAt (Elt Ideal) arg10.view (Rect.unit (s := S50x1024) ![0, 0] S50x1024.size inb_S50x1024_S50x1024_0_0).toLoadRect X_arg10)
        (View.readAt (Elt Ideal) arg11.view (Rect.unit (s := S168x1024) ![0, 0] S168x1024.size inb_S168x1024_S168x1024_0_0).toLoadRect X_arg11)
        (View.readAt (Elt Ideal) arg12.view (Rect.unit (s := S1x1024) ![0, 0] S1x1024.size inb_S1x1024_S1x1024_0_0).toLoadRect X_arg12)
        (View.readAt (Elt Ideal) arg13.view (Rect.unit (s := S50x1280) ![0, 0] S50x1280.size inb_S50x1280_S50x1280_0_0).toLoadRect X_arg13)
        (View.readAt (Elt Ideal) arg14.view (Rect.unit (s := S50x1280) ![0, 0] S50x1280.size inb_S50x1280_S50x1280_0_0).toLoadRect X_arg14)
        (View.readAt (Elt Ideal) arg15.view (Rect.unit (s := S168x1280) ![0, 0] S168x1280.size inb_S168x1280_S168x1280_0_0).toLoadRect X_arg15)
        (View.readAt (Elt Ideal) arg16.view (Rect.unit (s := S168x1024) ![0, 0] S168x1024.size inb_S168x1024_S168x1024_0_0).toLoadRect X_arg16)
        (View.readAt (Elt Ideal) arg17.view (Rect.unit (s := S1x1280) ![0, 0] S1x1280.size inb_S1x1280_S1x1280_0_0).toLoadRect X_arg17)⟩] := by
  unfold tripL_k0_t1
  unfold trip_k0_t1
  dsimp only
  sl_unfold_words
  rfl

/-- Row `p` of the seven row blocks chunk `k` loads is row `200 k + p` of the block's. -/
theorem chunk_rows (k : Fin k0_t1_loop.trips) (p : Fin 200) (h : 200 * k.val + p.val < 1000) :
    rowOf
        (View.readAt (Elt Ideal) arg1.view (Rect.unit (s := S1000x300) (k0_off1 k) S200x300.size (k0_off1_inb k)).toLoadRect X_arg1)
        (View.readAt (Elt Ideal) arg2.view (Rect.unit (s := S1000x50) (k0_off2 k) S200x50.size (k0_off2_inb k)).toLoadRect X_arg2)
        (View.readAt (Elt Ideal) arg3.view (Rect.unit (s := S1000x50) (k0_off2 k) S200x50.size (k0_off2_inb k)).toLoadRect X_arg3)
        (View.readAt (Elt Ideal) arg4.view (Rect.unit (s := S1000x168) (k0_off3 k) S200x168.size (k0_off3_inb k)).toLoadRect X_arg4)
        (View.readAt (Elt Ideal) arg5.view (Rect.unit (s := S1000x168) (k0_off3 k) S200x168.size (k0_off3_inb k)).toLoadRect X_arg5)
        (View.readAt (Elt Ideal) arg6.view (Rect.unit (s := S1000x168) (k0_off3 k) S200x168.size (k0_off3_inb k)).toLoadRect X_arg6)
        (View.readAt (Elt Ideal) arg7.view (Rect.unit (s := S1000x168) (k0_off3 k) S200x168.size (k0_off3_inb k)).toLoadRect X_arg7) p
      = rowOf (arg1.view.read (Elt Ideal) X_arg1) (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) ⟨200 * k.val + p.val, h⟩ := by
  unfold rowOf
  congr 1 <;> funext j
  · exact congrArg (arg1.view.read (Elt Ideal) X_arg1) (chunk_row_index _ (k0_off1_eq k) _ p j h)
  · exact congrArg (arg2.view.read (Elt Ideal) X_arg2) (chunk_row_index _ (k0_off2_eq k) _ p j h)
  · exact congrArg (arg3.view.read (Elt Ideal) X_arg3) (chunk_row_index _ (k0_off2_eq k) _ p j h)
  · exact congrArg (arg4.view.read (Elt Ideal) X_arg4) (chunk_row_index _ (k0_off3_eq k) _ p j h)
  · exact congrArg (arg5.view.read (Elt Ideal) X_arg5) (chunk_row_index _ (k0_off3_eq k) _ p j h)
  · exact congrArg (arg6.view.read (Elt Ideal) X_arg6) (chunk_row_index _ (k0_off3_eq k) _ p j h)
  · exact congrArg (arg7.view.read (Elt Ideal) X_arg7) (chunk_row_index _ (k0_off3_eq k) _ p j h)

/-- The ten weight operands are loaded whole. -/
theorem chunk_weights :
    paddedWeightsOf
        (View.readAt (Elt Ideal) arg8.view (Rect.unit (s := S300x1024) ![0, 0] S300x1024.size inb_S300x1024_S300x1024_0_0).toLoadRect X_arg8)
        (View.readAt (Elt Ideal) arg9.view (Rect.unit (s := S50x1024) ![0, 0] S50x1024.size inb_S50x1024_S50x1024_0_0).toLoadRect X_arg9)
        (View.readAt (Elt Ideal) arg10.view (Rect.unit (s := S50x1024) ![0, 0] S50x1024.size inb_S50x1024_S50x1024_0_0).toLoadRect X_arg10)
        (View.readAt (Elt Ideal) arg11.view (Rect.unit (s := S168x1024) ![0, 0] S168x1024.size inb_S168x1024_S168x1024_0_0).toLoadRect X_arg11)
        (View.readAt (Elt Ideal) arg12.view (Rect.unit (s := S1x1024) ![0, 0] S1x1024.size inb_S1x1024_S1x1024_0_0).toLoadRect X_arg12)
        (View.readAt (Elt Ideal) arg13.view (Rect.unit (s := S50x1280) ![0, 0] S50x1280.size inb_S50x1280_S50x1280_0_0).toLoadRect X_arg13)
        (View.readAt (Elt Ideal) arg14.view (Rect.unit (s := S50x1280) ![0, 0] S50x1280.size inb_S50x1280_S50x1280_0_0).toLoadRect X_arg14)
        (View.readAt (Elt Ideal) arg15.view (Rect.unit (s := S168x1280) ![0, 0] S168x1280.size inb_S168x1280_S168x1280_0_0).toLoadRect X_arg15)
        (View.readAt (Elt Ideal) arg16.view (Rect.unit (s := S168x1024) ![0, 0] S168x1024.size inb_S168x1024_S168x1024_0_0).toLoadRect X_arg16)
        (View.readAt (Elt Ideal) arg17.view (Rect.unit (s := S1x1280) ![0, 0] S1x1280.size inb_S1x1280_S1x1280_0_0).toLoadRect X_arg17)
      = paddedWeightsOf (arg8.view.read (Elt Ideal) X_arg8) (arg9.view.read (Elt Ideal) X_arg9) (arg10.view.read (Elt Ideal) X_arg10) (arg11.view.read (Elt Ideal) X_arg11) (arg12.view.read (Elt Ideal) X_arg12) (arg13.view.read (Elt Ideal) X_arg13) (arg14.view.read (Elt Ideal) X_arg14) (arg15.view.read (Elt Ideal) X_arg15) (arg16.view.read (Elt Ideal) X_arg16) (arg17.view.read (Elt Ideal) X_arg17) := by
  simp only [View.readAt_eq_ld, View.ld_unit_zero (S := S300x1024) zero_offsets, View.ld_unit_zero (S := S50x1024) zero_offsets,
    View.ld_unit_zero (S := S168x1024) zero_offsets, View.ld_unit_zero (S := S1x1024) zero_offsets,
    View.ld_unit_zero (S := S50x1280) zero_offsets, View.ld_unit_zero (S := S168x1280) zero_offsets,
    View.ld_unit_zero (S := S1x1280) zero_offsets]

/-- The cell-state piece of chunk `k` restricts the block's specification to rows `200 k …`, columns `168 …`. -/
theorem cell_piece (k : Fin k0_t1_loop.trips) (x : S200x168.Idx) :
    chunkC
        (View.readAt (Elt Ideal) arg1.view (Rect.unit (s := S1000x300) (k0_off1 k) S200x300.size (k0_off1_inb k)).toLoadRect X_arg1)
        (View.readAt (Elt Ideal) arg2.view (Rect.unit (s := S1000x50) (k0_off2 k) S200x50.size (k0_off2_inb k)).toLoadRect X_arg2)
        (View.readAt (Elt Ideal) arg3.view (Rect.unit (s := S1000x50) (k0_off2 k) S200x50.size (k0_off2_inb k)).toLoadRect X_arg3)
        (View.readAt (Elt Ideal) arg4.view (Rect.unit (s := S1000x168) (k0_off3 k) S200x168.size (k0_off3_inb k)).toLoadRect X_arg4)
        (View.readAt (Elt Ideal) arg5.view (Rect.unit (s := S1000x168) (k0_off3 k) S200x168.size (k0_off3_inb k)).toLoadRect X_arg5)
        (View.readAt (Elt Ideal) arg6.view (Rect.unit (s := S1000x168) (k0_off3 k) S200x168.size (k0_off3_inb k)).toLoadRect X_arg6)
        (View.readAt (Elt Ideal) arg7.view (Rect.unit (s := S1000x168) (k0_off3 k) S200x168.size (k0_off3_inb k)).toLoadRect X_arg7)
        (View.readAt (Elt Ideal) arg8.view (Rect.unit (s := S300x1024) ![0, 0] S300x1024.size inb_S300x1024_S300x1024_0_0).toLoadRect X_arg8)
        (View.readAt (Elt Ideal) arg9.view (Rect.unit (s := S50x1024) ![0, 0] S50x1024.size inb_S50x1024_S50x1024_0_0).toLoadRect X_arg9)
        (View.readAt (Elt Ideal) arg10.view (Rect.unit (s := S50x1024) ![0, 0] S50x1024.size inb_S50x1024_S50x1024_0_0).toLoadRect X_arg10)
        (View.readAt (Elt Ideal) arg11.view (Rect.unit (s := S168x1024) ![0, 0] S168x1024.size inb_S168x1024_S168x1024_0_0).toLoadRect X_arg11)
        (View.readAt (Elt Ideal) arg12.view (Rect.unit (s := S1x1024) ![0, 0] S1x1024.size inb_S1x1024_S1x1024_0_0).toLoadRect X_arg12)
        (View.readAt (Elt Ideal) arg13.view (Rect.unit (s := S50x1280) ![0, 0] S50x1280.size inb_S50x1280_S50x1280_0_0).toLoadRect X_arg13)
        (View.readAt (Elt Ideal) arg14.view (Rect.unit (s := S50x1280) ![0, 0] S50x1280.size inb_S50x1280_S50x1280_0_0).toLoadRect X_arg14)
        (View.readAt (Elt Ideal) arg15.view (Rect.unit (s := S168x1280) ![0, 0] S168x1280.size inb_S168x1280_S168x1280_0_0).toLoadRect X_arg15)
        (View.readAt (Elt Ideal) arg16.view (Rect.unit (s := S168x1024) ![0, 0] S168x1024.size inb_S168x1024_S168x1024_0_0).toLoadRect X_arg16)
        (View.readAt (Elt Ideal) arg17.view (Rect.unit (s := S1x1280) ![0, 0] S1x1280.size inb_S1x1280_S1x1280_0_0).toLoadRect X_arg17) x
      = (blockOf (arg1.view.read (Elt Ideal) X_arg1) (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) (paddedWeightsOf (arg8.view.read (Elt Ideal) X_arg8) (arg9.view.read (Elt Ideal) X_arg9) (arg10.view.read (Elt Ideal) X_arg10) (arg11.view.read (Elt Ideal) X_arg11) (arg12.view.read (Elt Ideal) X_arg12) (arg13.view.read (Elt Ideal) X_arg13) (arg14.view.read (Elt Ideal) X_arg14) (arg15.view.read (Elt Ideal) X_arg15) (arg16.view.read (Elt Ideal) X_arg16) (arg17.view.read (Elt Ideal) X_arg17))) ((Rect.unit (s := S1000x336) (k0_off5 k) S200x168.size (k0_off5_inb k)).emb x) := by
  obtain ⟨p, cc, rfl⟩ : ∃ (p : Fin 200) (cc : Fin 168), x = ix2 p cc := ⟨x 0, x 1, eq_ix2 x⟩
  have hk : k.val < 5 := Nat.lt_of_lt_of_le k.isLt k0_t1_abs.2.1
  have hr : 200 * k.val + p.val < 1000 := by have := p.isLt; omega
  have hc : 168 + cc.val < 336 := by have := cc.isLt; omega
  have he : (Rect.unit (s := S1000x336) (k0_off5 k) S200x168.size (k0_off5_inb k)).emb (ix2 p cc)
      = ix2 (⟨200 * k.val + p.val, hr⟩ : Fin 1000) (⟨168 + cc.val, hc⟩ : Fin 336) := by
    funext a; apply Fin.ext
    match a with
    | ⟨0, _⟩ => show (k0_off5 k) 0 + 1 * p.val = 200 * k.val + p.val; rw [k0_off5_eq k]; show 200 * k.val + 1 * p.val = _; omega
    | ⟨1, _⟩ => show (k0_off5 k) 1 + 1 * cc.val = 168 + cc.val; rw [k0_off5_eq k]; show 168 + 1 * cc.val = _; omega
  rw [chunk_cell, chunk_rows arg1 arg2 arg3 arg4 arg5 arg6 arg7 X_arg1 X_arg2 X_arg3 X_arg4 X_arg5 X_arg6 X_arg7 k p hr,
    chunk_weights arg8 arg9 arg10 arg11 arg12 arg13 arg14 arg15 arg16 arg17 X_arg8 X_arg9 X_arg10 X_arg11 X_arg12 X_arg13 X_arg14 X_arg15 X_arg16 X_arg17, he]
  unfold blockOf outRow
  show _ = dite ((168 + cc.val) < 168) _ _
  rw [dif_neg (by omega)]
  exact congrArg (nodeC _ _) (Fin.ext (by show cc.val = 168 + cc.val - 168; omega))

/-- The hidden-state piece of chunk `k` restricts the block's specification to rows `200 k …`, columns `0 … 167`. -/
theorem hidden_piece (k : Fin k0_t1_loop.trips) (x : S200x168.Idx) :
    chunkH
        (View.readAt (Elt Ideal) arg1.view (Rect.unit (s := S1000x300) (k0_off1 k) S200x300.size (k0_off1_inb k)).toLoadRect X_arg1)
        (View.readAt (Elt Ideal) arg2.view (Rect.unit (s := S1000x50) (k0_off2 k) S200x50.size (k0_off2_inb k)).toLoadRect X_arg2)
        (View.readAt (Elt Ideal) arg3.view (Rect.unit (s := S1000x50) (k0_off2 k) S200x50.size (k0_off2_inb k)).toLoadRect X_arg3)
        (View.readAt (Elt Ideal) arg4.view (Rect.unit (s := S1000x168) (k0_off3 k) S200x168.size (k0_off3_inb k)).toLoadRect X_arg4)
        (View.readAt (Elt Ideal) arg5.view (Rect.unit (s := S1000x168) (k0_off3 k) S200x168.size (k0_off3_inb k)).toLoadRect X_arg5)
        (View.readAt (Elt Ideal) arg6.view (Rect.unit (s := S1000x168) (k0_off3 k) S200x168.size (k0_off3_inb k)).toLoadRect X_arg6)
        (View.readAt (Elt Ideal) arg7.view (Rect.unit (s := S1000x168) (k0_off3 k) S200x168.size (k0_off3_inb k)).toLoadRect X_arg7)
        (View.readAt (Elt Ideal) arg8.view (Rect.unit (s := S300x1024) ![0, 0] S300x1024.size inb_S300x1024_S300x1024_0_0).toLoadRect X_arg8)
        (View.readAt (Elt Ideal) arg9.view (Rect.unit (s := S50x1024) ![0, 0] S50x1024.size inb_S50x1024_S50x1024_0_0).toLoadRect X_arg9)
        (View.readAt (Elt Ideal) arg10.view (Rect.unit (s := S50x1024) ![0, 0] S50x1024.size inb_S50x1024_S50x1024_0_0).toLoadRect X_arg10)
        (View.readAt (Elt Ideal) arg11.view (Rect.unit (s := S168x1024) ![0, 0] S168x1024.size inb_S168x1024_S168x1024_0_0).toLoadRect X_arg11)
        (View.readAt (Elt Ideal) arg12.view (Rect.unit (s := S1x1024) ![0, 0] S1x1024.size inb_S1x1024_S1x1024_0_0).toLoadRect X_arg12)
        (View.readAt (Elt Ideal) arg13.view (Rect.unit (s := S50x1280) ![0, 0] S50x1280.size inb_S50x1280_S50x1280_0_0).toLoadRect X_arg13)
        (View.readAt (Elt Ideal) arg14.view (Rect.unit (s := S50x1280) ![0, 0] S50x1280.size inb_S50x1280_S50x1280_0_0).toLoadRect X_arg14)
        (View.readAt (Elt Ideal) arg15.view (Rect.unit (s := S168x1280) ![0, 0] S168x1280.size inb_S168x1280_S168x1280_0_0).toLoadRect X_arg15)
        (View.readAt (Elt Ideal) arg16.view (Rect.unit (s := S168x1024) ![0, 0] S168x1024.size inb_S168x1024_S168x1024_0_0).toLoadRect X_arg16)
        (View.readAt (Elt Ideal) arg17.view (Rect.unit (s := S1x1280) ![0, 0] S1x1280.size inb_S1x1280_S1x1280_0_0).toLoadRect X_arg17) x
      = (blockOf (arg1.view.read (Elt Ideal) X_arg1) (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) (paddedWeightsOf (arg8.view.read (Elt Ideal) X_arg8) (arg9.view.read (Elt Ideal) X_arg9) (arg10.view.read (Elt Ideal) X_arg10) (arg11.view.read (Elt Ideal) X_arg11) (arg12.view.read (Elt Ideal) X_arg12) (arg13.view.read (Elt Ideal) X_arg13) (arg14.view.read (Elt Ideal) X_arg14) (arg15.view.read (Elt Ideal) X_arg15) (arg16.view.read (Elt Ideal) X_arg16) (arg17.view.read (Elt Ideal) X_arg17))) ((Rect.unit (s := S1000x336) (k0_off4 k) S200x168.size (k0_off4_inb k)).emb x) := by
  obtain ⟨p, cc, rfl⟩ : ∃ (p : Fin 200) (cc : Fin 168), x = ix2 p cc := ⟨x 0, x 1, eq_ix2 x⟩
  have hk : k.val < 5 := Nat.lt_of_lt_of_le k.isLt k0_t1_abs.2.1
  have hr : 200 * k.val + p.val < 1000 := by have := p.isLt; omega
  have hc : cc.val < 336 := by have := cc.isLt; omega
  have he : (Rect.unit (s := S1000x336) (k0_off4 k) S200x168.size (k0_off4_inb k)).emb (ix2 p cc)
      = ix2 (⟨200 * k.val + p.val, hr⟩ : Fin 1000) (⟨cc.val, hc⟩ : Fin 336) := by
    funext a; apply Fin.ext
    match a with
    | ⟨0, _⟩ => show (k0_off4 k) 0 + 1 * p.val = 200 * k.val + p.val; rw [k0_off4_eq k]; show 200 * k.val + 1 * p.val = _; omega
    | ⟨1, _⟩ => show (k0_off4 k) 1 + 1 * cc.val = cc.val; rw [k0_off4_eq k]; show 0 + 1 * cc.val = _; omega
  rw [chunk_hidden, chunk_rows arg1 arg2 arg3 arg4 arg5 arg6 arg7 X_arg1 X_arg2 X_arg3 X_arg4 X_arg5 X_arg6 X_arg7 k p hr,
    chunk_weights arg8 arg9 arg10 arg11 arg12 arg13 arg14 arg15 arg16 arg17 X_arg8 X_arg9 X_arg10 X_arg11 X_arg12 X_arg13 X_arg14 X_arg15 X_arg16 X_arg17, he]
  unfold blockOf outRow
  show _ = dite (cc.val < 168) _ _
  rw [dif_pos cc.isLt]

/-- Every piece chunk `k` stores restricts the block's specification to its rectangle. -/
theorem chunk_pieces_spec (k : Fin k0_t1_loop.trips) :
    ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 X_arg7 X_arg8 X_arg9 X_arg10 X_arg11 X_arg12 X_arg13 X_arg14 X_arg15 X_arg16 X_arg17 k, ∀ x : p.1.shape.Idx, p.2 x = (blockOf (arg1.view.read (Elt Ideal) X_arg1) (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) (paddedWeightsOf (arg8.view.read (Elt Ideal) X_arg8) (arg9.view.read (Elt Ideal) X_arg9) (arg10.view.read (Elt Ideal) X_arg10) (arg11.view.read (Elt Ideal) X_arg11) (arg12.view.read (Elt Ideal) X_arg12) (arg13.view.read (Elt Ideal) X_arg13) (arg14.view.read (Elt Ideal) X_arg14) (arg15.view.read (Elt Ideal) X_arg15) (arg16.view.read (Elt Ideal) X_arg16) (arg17.view.read (Elt Ideal) X_arg17))) (p.1.emb x) := by
  intro p hp
  rw [chunk_pieces] at hp
  rcases List.mem_cons.mp hp with rfl | hp
  · exact cell_piece arg1 arg2 arg3 arg4 arg5 arg6 arg7 arg8 arg9 arg10 arg11 arg12 arg13 arg14 arg15 arg16 arg17 X_arg1 X_arg2 X_arg3 X_arg4 X_arg5 X_arg6 X_arg7 X_arg8 X_arg9 X_arg10 X_arg11 X_arg12 X_arg13 X_arg14 X_arg15 X_arg16 X_arg17 k
  · rcases List.mem_cons.mp hp with rfl | hp
    · exact hidden_piece arg1 arg2 arg3 arg4 arg5 arg6 arg7 arg8 arg9 arg10 arg11 arg12 arg13 arg14 arg15 arg16 arg17 X_arg1 X_arg2 X_arg3 X_arg4 X_arg5 X_arg6 X_arg7 X_arg8 X_arg9 X_arg10 X_arg11 X_arg12 X_arg13 X_arg14 X_arg15 X_arg16 X_arg17 k
    · exact absurd hp List.not_mem_nil

/-- A piece stored by the first `n` chunks is a piece of one of them. -/
theorem mem_chunks : ∀ (n : Nat) (p : View.Piece (Elt Ideal) S1000x336 .f32),
    p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 X_arg7 X_arg8 X_arg9 X_arg10 X_arg11 X_arg12 X_arg13 X_arg14 X_arg15 X_arg16 X_arg17 n → ∃ k : Fin k0_t1_loop.trips, p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 X_arg7 X_arg8 X_arg9 X_arg10 X_arg11 X_arg12 X_arg13 X_arg14 X_arg15 X_arg16 X_arg17 k
  | 0, p, h => by rw [pb_k0_t1.eq_1] at h; exact absurd h List.not_mem_nil
  | n + 1, p, h => by
    rw [pb_k0_t1.eq_2] at h
    unfold pb_k0_t1Step at h
    split at h
    · rename_i hn
      rcases List.mem_append.mp h with h | h
      · exact ⟨⟨n, hn⟩, h⟩
      · exact mem_chunks n p h
    · exact mem_chunks n p h

end Trip

section Block

variable (c : Dev nD) (i : grid0.Coords) (arg1 : Memref sig .tc .vmem S1000x300 .f32) (harg1 : arg1.IsWhole) (arg2 : Memref sig .tc .vmem S1000x50 .f32) (harg2 : arg2.IsWhole) (arg3 : Memref sig .tc .vmem S1000x50 .f32) (harg3 : arg3.IsWhole) (arg4 : Memref sig .tc .vmem S1000x168 .f32) (harg4 : arg4.IsWhole) (arg5 : Memref sig .tc .vmem S1000x168 .f32) (harg5 : arg5.IsWhole) (arg6 : Memref sig .tc .vmem S1000x168 .f32) (harg6 : arg6.IsWhole) (arg7 : Memref sig .tc .vmem S1000x168 .f32) (harg7 : arg7.IsWhole) (arg8 : Memref sig .tc .vmem S300x1024 .bf16) (harg8 : arg8.IsWhole) (arg9 : Memref sig .tc .vmem S50x1024 .bf16) (harg9 : arg9.IsWhole) (arg10 : Memref sig .tc .vmem S50x1024 .bf16) (harg10 : arg10.IsWhole) (arg11 : Memref sig .tc .vmem S168x1024 .bf16) (harg11 : arg11.IsWhole) (arg12 : Memref sig .tc .vmem S1x1024 .f32) (harg12 : arg12.IsWhole) (arg13 : Memref sig .tc .vmem S50x1280 .bf16) (harg13 : arg13.IsWhole) (arg14 : Memref sig .tc .vmem S50x1280 .bf16) (harg14 : arg14.IsWhole) (arg15 : Memref sig .tc .vmem S168x1280 .bf16) (harg15 : arg15.IsWhole) (arg16 : Memref sig .tc .vmem S168x1024 .bf16) (harg16 : arg16.IsWhole) (arg17 : Memref sig .tc .vmem S1x1280 .f32) (harg17 : arg17.IsWhole) (arg18 : Memref sig .tc .vmem S1000x336 .f32) (harg18 : arg18.IsWhole)
  (x0 : Vec Ideal S1000x300 .f32) (x1 : Vec Ideal S1000x50 .f32) (x2 : Vec Ideal S1000x50 .f32) (x3 : Vec Ideal S1000x168 .f32) (x4 : Vec Ideal S1000x168 .f32) (x5 : Vec Ideal S1000x168 .f32) (x6 : Vec Ideal S1000x168 .f32) (x7 : Vec Ideal S300x1024 .bf16) (x8 : Vec Ideal S50x1024 .bf16) (x9 : Vec Ideal S50x1024 .bf16) (x10 : Vec Ideal S168x1024 .bf16) (x11 : Vec Ideal S1x1024 .f32) (x12 : Vec Ideal S50x1280 .bf16) (x13 : Vec Ideal S50x1280 .bf16) (x14 : Vec Ideal S168x1280 .bf16) (x15 : Vec Ideal S168x1024 .bf16) (x16 : Vec Ideal S1x1280 .f32)

/-- The body, run on staging buffers holding the blocks `x0 … x16`, leaves in the result's buffer the specification
    of those blocks: every piece any chunk stored restricts it, and the pieces tile the buffer. -/
theorem block_value :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16
      = blockOf x0 x1 x2 x3 x4 x5 x6 (paddedWeightsOf x7 x8 x9 x10 x11 x12 x13 x14 x15 x16) := by
  unfold out0_A_17
  rw [View.read_writes_junk_eq_canon]
  funext y
  refine View.canon_apply_of_pieces (blockOf x0 x1 x2 x3 x4 x5 x6 (paddedWeightsOf x7 x8 x9 x10 x11 x12 x13 x14 x15 x16)) _ ?_ y
    (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 y)
  intro p hp x
  have hp' : p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) k0_t1_loop.trips := by
    unfold kernelRun0_A at hp; exact hp
  obtain ⟨k, hk⟩ := mem_chunks Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) k0_t1_loop.trips p hp'
  have h := chunk_pieces_spec Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) k p hk x
  simp only [harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread] at h
  exact h

end Block

end Cert.TreeCell

end
-- ==== Proof.PaddedOperands.lean ====
/-
  The kernel's ten weight operands are the weight arguments re-laid.

  Before its one launch the program turns each weight matrix `[K, G·168]` — `G` gates of 168 columns side by side —
  into `[K, G·256]`: it splits the column axis into (gate, column), pads the column axis with 88 zeros at its end,
  joins the two axes again, and changes the float format (the identity on extended reals). The two biases go the
  same way from a vector `[G·168]` to a one-row matrix `[1, G·256]`, without the change of format. Hence, for every
  gate `g`, column `j < 168` and row `k`, the operand at `(k, 256 g + j)` is the argument at `(k, 168 g + j)`: the
  specification's padded accessor of the operands is its plain accessor of the arguments. The zero padding
  (columns 168 … 255 of each gate) is never read by this statement.
-/
import proofs.«151848_j44324062495020_2_alg».proof.Proof.CellArrays
import proofs.«151848_j44324062495020_2_alg».proof.Proof.Gen.KernelIdeal.Frame.Runs
import Idealize.ShloMosaic.Lib.StableHlo.Run
import Idealize.ShloMosaic.Lib.Pipeline.Value
import Idealize.ShloMosaic.Lib.ValueLayout
import Idealize.ShloMosaic.Lib.KernelVsHost

noncomputable section

namespace Cert.TreeCell

open Idealize.ShloMosaic Idealize.ShloMosaic.ValueIdx Idealize.ShloMosaic.TcCoe
open Cert.KernelIdeal Cert.KernelIdeal.Gen

section Layout

variable {α : Type}

/-- A matrix of `K` rows whose `G` gates lie side by side at stride 168, re-laid with each gate padded to stride 256:
    split the columns into (gate, column), pad the column axis by 88 at its end, join the two axes again. Entry
    `(k, 256 g + c)` of the result, for a column `c < 168`, is entry `(k, 168 g + c)` of the matrix: the index passes
    through `(k, g, c)` of both rank-3 arrays, and both joins are row-major. The padding value is never read. -/
theorem padded_matrix_read {K G : Nat} (x : (⟨2, ![K, G * 168]⟩ : Shape).Idx → α) {u : Shape} (v : u.Idx → α)
    (h1 : (⟨2, ![K, G * 168]⟩ : Shape).ShapeCasts ⟨3, ![K, G, 168]⟩)
    (h2 : (⟨3, ![K, G, 168]⟩ : Shape).Pads (![0, 0, 0] : Fin 3 → Nat) ![0, 0, 88] ![0, 0, 0] ⟨3, ![K, G, 256]⟩)
    (hu : 0 < u.numel)
    (h3 : (⟨3, ![K, G, 256]⟩ : Shape).ShapeCasts ⟨2, ![K, G * 256]⟩)
    (k : Fin K) (g : Fin G) (c : Fin 168) :
    shapeCast ⟨2, ![K, G * 256]⟩
        (pad ⟨3, ![K, G, 256]⟩ ![0, 0, 0] ![0, 0, 88] ![0, 0, 0] (shapeCast ⟨3, ![K, G, 168]⟩ x h1) v h2 hu) h3
        (ix2 k (col256 g c))
      = x (ix2 k (col168 g c)) := by
  have hc := c.isLt
  refine (shapeCast_apply _ h3 (ix2 k (col256 g c)) (ix3 k g ⟨c.val, by omega⟩) ?_).trans ?_
  · rw [Shape.rowMajor_val_three, Shape.rowMajor_val_two]
    show (k.val * G + g.val) * 256 + c.val = k.val * (G * 256) + (256 * g.val + c.val)
    ring
  refine (pad_apply_of_inside _ _ _ _ v h2 hu (ix3 k g ⟨c.val, by omega⟩) (ix3 k g c) ?_).trans ?_
  · intro a
    match a with
    | ⟨0, _⟩ => show k.val = 0 + k.val * (0 + 1); omega
    | ⟨1, _⟩ => show g.val = 0 + g.val * (0 + 1); omega
    | ⟨2, _⟩ => show c.val = 0 + c.val * (0 + 1); omega
  refine shapeCast_apply _ h1 (ix3 k g c) (ix2 k (col168 g c)) ?_
  rw [Shape.rowMajor_val_three, Shape.rowMajor_val_two]
  show k.val * (G * 168) + (168 * g.val + c.val) = (k.val * G + g.val) * 168 + c.val
  ring

/-- The same for a bias: a vector of `G` gates at stride 168, split into (gate, column), padded to stride 256 and
    joined into a ONE-row matrix. Entry `(0, 256 g + c)` of the result is entry `168 g + c` of the vector. -/
theorem padded_bias_read {G : Nat} (x : (⟨1, ![G * 168]⟩ : Shape).Idx → α) {u : Shape} (v : u.Idx → α)
    (h1 : (⟨1, ![G * 168]⟩ : Shape).ShapeCasts ⟨2, ![G, 168]⟩)
    (h2 : (⟨2, ![G, 168]⟩ : Shape).Pads (![0, 0] : Fin 2 → Nat) ![0, 88] ![0, 0] ⟨2, ![G, 256]⟩)
    (hu : 0 < u.numel)
    (h3 : (⟨2, ![G, 256]⟩ : Shape).ShapeCasts ⟨2, ![1, G * 256]⟩)
    (g : Fin G) (c : Fin 168) :
    shapeCast ⟨2, ![1, G * 256]⟩
        (pad ⟨2, ![G, 256]⟩ ![0, 0] ![0, 88] ![0, 0] (shapeCast ⟨2, ![G, 168]⟩ x h1) v h2 hu) h3
        (ix2 0 (col256 g c))
      = x (ix1 (col168 g c)) := by
  have hc := c.isLt
  refine (shapeCast_apply _ h3 (ix2 0 (col256 g c)) (ix2 g ⟨c.val, by omega⟩) ?_).trans ?_
  · rw [Shape.rowMajor_val_two, Shape.rowMajor_val_two]
    show g.val * 256 + c.val = 0 * (G * 256) + (256 * g.val + c.val)
    ring
  refine (pad_apply_of_inside _ _ _ _ v h2 hu (ix2 g ⟨c.val, by omega⟩) (ix2 g c) ?_).trans ?_
  · intro a
    match a with
    | ⟨0, _⟩ => show g.val = 0 + g.val * (0 + 1); omega
    | ⟨1, _⟩ => show c.val = 0 + c.val * (0 + 1); omega
  refine shapeCast_apply _ h1 (ix2 g c) (ix1 (col168 g c)) ?_
  rw [Shape.rowMajor_val_two, Shape.rowMajor_val_one]
  show 168 * g.val + c.val = g.val * 168 + c.val
  ring

end Layout

/-! ## The ten operands, each read through the four operations that produced it

  What the region finds at an operand is the value of the operations that wrote it, the later operations writing
  other arrays; the change of format reads through at an index by definition, and the rest is the layout lemma of
  the operand's shape family. -/

section Operands

variable (m : (ℓ : Loc nD τ sig) → Buf (Elt Ideal) ℓ) (c : Dev nD)

set_option maxHeartbeats 4000000

/-- Operand `main_v3` read at row `k`, gate `g`, column `j`: argument `main_arg7` at `(k, 168 g + j)`. -/
theorem v3_read (k : Fin 300) (g : Fin 4) (j : Fin 168) :
    (V m c main_v3 : Arr2 300 (4 * 256)) (ix2 k (col256 g j))
      = (m ((c : Thread nD τ).loc main_arg7) : Arr2 300 (4 * 168)) (ix2 k (col168 g j)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, List.flatten_cons, List.flatten_nil, List.append_nil, List.cons_append, List.nil_append]
  after_results_simp
  exact padded_matrix_read (K := 300) (G := 4) (m ((c : Thread nD τ).loc main_arg7)) _
    shapeCasts_S300x672_S300x4x168 pads_S300x4x168_S300x4x256_000_000_0880 h_S_ shapeCasts_S300x4x256_S300x1024 k g j

/-- Operand `main_v7` read at row `k`, gate `g`, column `j`: argument `main_arg8` at `(k, 168 g + j)`. -/
theorem v7_read (k : Fin 50) (g : Fin 4) (j : Fin 168) :
    (V m c main_v7 : Arr2 50 (4 * 256)) (ix2 k (col256 g j))
      = (m ((c : Thread nD τ).loc main_arg8) : Arr2 50 (4 * 168)) (ix2 k (col168 g j)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, List.flatten_cons, List.flatten_nil, List.append_nil, List.cons_append, List.nil_append]
  after_results_simp
  exact padded_matrix_read (K := 50) (G := 4) (m ((c : Thread nD τ).loc main_arg8)) _
    shapeCasts_S50x672_S50x4x168 pads_S50x4x168_S50x4x256_000_000_0880 h_S_ shapeCasts_S50x4x256_S50x1024 k g j

/-- Operand `main_v11` read at row `k`, gate `g`, column `j`: argument `main_arg9` at `(k, 168 g + j)`. -/
theorem v11_read (k : Fin 50) (g : Fin 4) (j : Fin 168) :
    (V m c main_v11 : Arr2 50 (4 * 256)) (ix2 k (col256 g j))
      = (m ((c : Thread nD τ).loc main_arg9) : Arr2 50 (4 * 168)) (ix2 k (col168 g j)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, List.flatten_cons, List.flatten_nil, List.append_nil, List.cons_append, List.nil_append]
  after_results_simp
  exact padded_matrix_read (K := 50) (G := 4) (m ((c : Thread nD τ).loc main_arg9)) _
    shapeCasts_S50x672_S50x4x168 pads_S50x4x168_S50x4x256_000_000_0880 h_S_ shapeCasts_S50x4x256_S50x1024 k g j

/-- Operand `main_v15` read at row `k`, gate `g`, column `j`: argument `main_arg10` at `(k, 168 g + j)`. -/
theorem v15_read (k : Fin 168) (g : Fin 4) (j : Fin 168) :
    (V m c main_v15 : Arr2 168 (4 * 256)) (ix2 k (col256 g j))
      = (m ((c : Thread nD τ).loc main_arg10) : Arr2 168 (4 * 168)) (ix2 k (col168 g j)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, List.flatten_cons, List.flatten_nil, List.append_nil, List.cons_append, List.nil_append]
  after_results_simp
  exact padded_matrix_read (K := 168) (G := 4) (m ((c : Thread nD τ).loc main_arg10)) _
    shapeCasts_S168x672_S168x4x168 pads_S168x4x168_S168x4x256_000_000_0880 h_S_ shapeCasts_S168x4x256_S168x1024 k g j

/-- Operand `main_v18`, a one-row matrix, read at gate `g`, column `j`: the bias `main_arg11` at `168 g + j`. -/
theorem v18_read (g : Fin 4) (j : Fin 168) :
    (V m c main_v18 : Arr2 1 (4 * 256)) (ix2 0 (col256 g j))
      = (m ((c : Thread nD τ).loc main_arg11) : Arr1 (4 * 168)) (ix1 (col168 g j)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, List.flatten_cons, List.flatten_nil, List.append_nil, List.cons_append, List.nil_append]
  after_results_simp
  exact padded_bias_read (G := 4) (m ((c : Thread nD τ).loc main_arg11)) _
    shapeCasts_S672_S4x168 pads_S4x168_S4x256_000_0880 h_S_ shapeCasts_S4x256_S1x1024 g j

/-- Operand `main_v22` read at row `k`, gate `g`, column `j`: argument `main_arg12` at `(k, 168 g + j)`. -/
theorem v22_read (k : Fin 50) (g : Fin 5) (j : Fin 168) :
    (V m c main_v22 : Arr2 50 (5 * 256)) (ix2 k (col256 g j))
      = (m ((c : Thread nD τ).loc main_arg12) : Arr2 50 (5 * 168)) (ix2 k (col168 g j)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, List.flatten_cons, List.flatten_nil, List.append_nil, List.cons_append, List.nil_append]
  after_results_simp
  exact padded_matrix_read (K := 50) (G := 5) (m ((c : Thread nD τ).loc main_arg12)) _
    shapeCasts_S50x840_S50x5x168 pads_S50x5x168_S50x5x256_000_000_0880 h_S_ shapeCasts_S50x5x256_S50x1280 k g j

/-- Operand `main_v26` read at row `k`, gate `g`, column `j`: argument `main_arg13` at `(k, 168 g + j)`. -/
theorem v26_read (k : Fin 50) (g : Fin 5) (j : Fin 168) :
    (V m c main_v26 : Arr2 50 (5 * 256)) (ix2 k (col256 g j))
      = (m ((c : Thread nD τ).loc main_arg13) : Arr2 50 (5 * 168)) (ix2 k (col168 g j)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, List.flatten_cons, List.flatten_nil, List.append_nil, List.cons_append, List.nil_append]
  after_results_simp
  exact padded_matrix_read (K := 50) (G := 5) (m ((c : Thread nD τ).loc main_arg13)) _
    shapeCasts_S50x840_S50x5x168 pads_S50x5x168_S50x5x256_000_000_0880 h_S_ shapeCasts_S50x5x256_S50x1280 k g j

/-- Operand `main_v30` read at row `k`, gate `g`, column `j`: argument `main_arg14` at `(k, 168 g + j)`. -/
theorem v30_read (k : Fin 168) (g : Fin 5) (j : Fin 168) :
    (V m c main_v30 : Arr2 168 (5 * 256)) (ix2 k (col256 g j))
      = (m ((c : Thread nD τ).loc main_arg14) : Arr2 168 (5 * 168)) (ix2 k (col168 g j)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, List.flatten_cons, List.flatten_nil, List.append_nil, List.cons_append, List.nil_append]
  after_results_simp
  exact padded_matrix_read (K := 168) (G := 5) (m ((c : Thread nD τ).loc main_arg14)) _
    shapeCasts_S168x840_S168x5x168 pads_S168x5x168_S168x5x256_000_000_0880 h_S_ shapeCasts_S168x5x256_S168x1280 k g j

/-- Operand `main_v34` read at row `k`, gate `g`, column `j`: argument `main_arg15` at `(k, 168 g + j)`. -/
theorem v34_read (k : Fin 168) (g : Fin 4) (j : Fin 168) :
    (V m c main_v34 : Arr2 168 (4 * 256)) (ix2 k (col256 g j))
      = (m ((c : Thread nD τ).loc main_arg15) : Arr2 168 (4 * 168)) (ix2 k (col168 g j)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, List.flatten_cons, List.flatten_nil, List.append_nil, List.cons_append, List.nil_append]
  after_results_simp
  exact padded_matrix_read (K := 168) (G := 4) (m ((c : Thread nD τ).loc main_arg15)) _
    shapeCasts_S168x672_S168x4x168 pads_S168x4x168_S168x4x256_000_000_0880 h_S_ shapeCasts_S168x4x256_S168x1024 k g j

/-- Operand `main_v37`, a one-row matrix, read at gate `g`, column `j`: the bias `main_arg16` at `168 g + j`. -/
theorem v37_read (g : Fin 5) (j : Fin 168) :
    (V m c main_v37 : Arr2 1 (5 * 256)) (ix2 0 (col256 g j))
      = (m ((c : Thread nD τ).loc main_arg16) : Arr1 (5 * 168)) (ix1 (col168 g j)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, List.flatten_cons, List.flatten_nil, List.append_nil, List.cons_append, List.nil_append]
  after_results_simp
  exact padded_bias_read (G := 5) (m ((c : Thread nD τ).loc main_arg16)) _
    shapeCasts_S840_S5x168 pads_S5x168_S5x256_000_0880 h_S_ shapeCasts_S5x256_S1x1280 g j

/-- The specification's weights read off the kernel's padded operands are those read off the arguments. -/
theorem padded_operands :
    paddedWeightsOf (V m c main_v3) (V m c main_v7) (V m c main_v11) (V m c main_v15) (V m c main_v18) (V m c main_v22) (V m c main_v26) (V m c main_v30) (V m c main_v34) (V m c main_v37)
      = weightsOf (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16)) := by
  unfold paddedWeightsOf weightsOf
  congr 1
  · funext g j k; exact v3_read m c k g j
  · funext g j k; exact v7_read m c k g j
  · funext g j k; exact v11_read m c k g j
  · funext g j k; exact v15_read m c k g j
  · funext g j; exact v18_read m c g j
  · funext g j k; exact v22_read m c k g j
  · funext g j k; exact v26_read m c k g j
  · funext g j k; exact v30_read m c k g j
  · funext g j k; exact v34_read m c k g j
  · funext g j; exact v37_read m c g j

end Operands

end Cert.TreeCell

end
-- ==== Proof.FinalArray.lean ====
/-
  The whole result array after the kernel's run.

  The launch walks 100 grid points; point `t` stages rows `1000 t … 1000 t + 999` of the seven batched inputs and
  all of each of the ten weight operands, runs the body, and writes the block of 1000 rows of the result back to rows
  `1000 t …`. By BlockValue.lean the block the body leaves is the specification of the staged rows; the staged rows
  are rows `1000 t + r` of the arguments; the staged operands are the padded re-layouts of the weight arguments, read
  by PaddedOperands.lean as the arguments themselves. So what point `t` writes back is block `t` of ONE function of
  the arguments — `resultOf` — and since the 100 blocks tile the result, the result array ends holding it.
-/
import proofs.«151848_j44324062495020_2_alg».proof.Proof.BlockValue
import proofs.«151848_j44324062495020_2_alg».proof.Proof.PaddedOperands
import proofs.«151848_j44324062495020_2_alg».proof.Proof.Gen.KernelIdeal.Value

set_option maxRecDepth 16384

noncomputable section

namespace Cert.TreeCell

open Idealize.ShloMosaic Idealize.ShloMosaic.TcCoe Idealize.ShloMosaic.ValueIdx
open Idealize.SL Idealize.SL.Sem
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

/-- The specification at the arguments as launched. -/
abbrev finalOf (c : Dev nD) : Arr2 100000 336 :=
  resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- The printed index maps over the 100 grid points: a row window's block index is the point on the row axis and 0
    on the column axis; a weight window's is (0, 0); the result window's is the point and 0. -/
theorem window_indices : ∀ t : Fin cfg0.N,
    win0_0.index t (0 : Fin 2) = win0_17.index t (0 : Fin 2)
    ∧ win0_0.index t (1 : Fin 2) = 0
    ∧ win0_1.index t (0 : Fin 2) = win0_17.index t (0 : Fin 2)
    ∧ win0_1.index t (1 : Fin 2) = 0
    ∧ win0_2.index t (0 : Fin 2) = win0_17.index t (0 : Fin 2)
    ∧ win0_2.index t (1 : Fin 2) = 0
    ∧ win0_3.index t (0 : Fin 2) = win0_17.index t (0 : Fin 2)
    ∧ win0_3.index t (1 : Fin 2) = 0
    ∧ win0_4.index t (0 : Fin 2) = win0_17.index t (0 : Fin 2)
    ∧ win0_4.index t (1 : Fin 2) = 0
    ∧ win0_5.index t (0 : Fin 2) = win0_17.index t (0 : Fin 2)
    ∧ win0_5.index t (1 : Fin 2) = 0
    ∧ win0_6.index t (0 : Fin 2) = win0_17.index t (0 : Fin 2)
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0
    ∧ win0_16.index t (0 : Fin 2) = 0
    ∧ win0_16.index t (1 : Fin 2) = 0
    ∧ win0_17.index t (0 : Fin 2) = t.val
    ∧ win0_17.index t (1 : Fin 2) = 0 :=
  (by decide +kernel : ∀ t : Fin grid0.N, _)

/-- The block of weight operand 7 staged at any point is the whole operand. -/
theorem operand7_whole (c : Dev nD) (t : Fin cfg0.N) : (iblk m c 7 t : Arr2 300 1024) = V m c main_v3 := by
  obtain ⟨a0, b0, a1, b1, a2, b2, a3, b3, a4, b4, a5, b5, a6, b6, a7, b7, a8, b8, a9, b9, a10, b10, a11, b11, a12, b12, a13, b13, a14, b14, a15, b15, a16, b16, a17, b17⟩ := window_indices t
  funext y
  show V m c main_v3 (((cfg0.win 7).blk t).view.emb y) = V m c main_v3 y
  refine congrArg _ (funext fun a => Fin.ext ?_)
  match a with
  | ⟨0, _⟩ => show win0_7.index t (0 : Fin 2) * 300 + 1 * (y 0).val = (y 0).val; rw [a7]; omega
  | ⟨1, _⟩ => show win0_7.index t (1 : Fin 2) * 1024 + 1 * (y 1).val = (y 1).val; rw [b7]; omega

/-- The block of weight operand 8 staged at any point is the whole operand. -/
theorem operand8_whole (c : Dev nD) (t : Fin cfg0.N) : (iblk m c 8 t : Arr2 50 1024) = V m c main_v7 := by
  obtain ⟨a0, b0, a1, b1, a2, b2, a3, b3, a4, b4, a5, b5, a6, b6, a7, b7, a8, b8, a9, b9, a10, b10, a11, b11, a12, b12, a13, b13, a14, b14, a15, b15, a16, b16, a17, b17⟩ := window_indices t
  funext y
  show V m c main_v7 (((cfg0.win 8).blk t).view.emb y) = V m c main_v7 y
  refine congrArg _ (funext fun a => Fin.ext ?_)
  match a with
  | ⟨0, _⟩ => show win0_8.index t (0 : Fin 2) * 50 + 1 * (y 0).val = (y 0).val; rw [a8]; omega
  | ⟨1, _⟩ => show win0_8.index t (1 : Fin 2) * 1024 + 1 * (y 1).val = (y 1).val; rw [b8]; omega

/-- The block of weight operand 9 staged at any point is the whole operand. -/
theorem operand9_whole (c : Dev nD) (t : Fin cfg0.N) : (iblk m c 9 t : Arr2 50 1024) = V m c main_v11 := by
  obtain ⟨a0, b0, a1, b1, a2, b2, a3, b3, a4, b4, a5, b5, a6, b6, a7, b7, a8, b8, a9, b9, a10, b10, a11, b11, a12, b12, a13, b13, a14, b14, a15, b15, a16, b16, a17, b17⟩ := window_indices t
  funext y
  show V m c main_v11 (((cfg0.win 9).blk t).view.emb y) = V m c main_v11 y
  refine congrArg _ (funext fun a => Fin.ext ?_)
  match a with
  | ⟨0, _⟩ => show win0_9.index t (0 : Fin 2) * 50 + 1 * (y 0).val = (y 0).val; rw [a9]; omega
  | ⟨1, _⟩ => show win0_9.index t (1 : Fin 2) * 1024 + 1 * (y 1).val = (y 1).val; rw [b9]; omega

/-- The block of weight operand 10 staged at any point is the whole operand. -/
theorem operand10_whole (c : Dev nD) (t : Fin cfg0.N) : (iblk m c 10 t : Arr2 168 1024) = V m c main_v15 := by
  obtain ⟨a0, b0, a1, b1, a2, b2, a3, b3, a4, b4, a5, b5, a6, b6, a7, b7, a8, b8, a9, b9, a10, b10, a11, b11, a12, b12, a13, b13, a14, b14, a15, b15, a16, b16, a17, b17⟩ := window_indices t
  funext y
  show V m c main_v15 (((cfg0.win 10).blk t).view.emb y) = V m c main_v15 y
  refine congrArg _ (funext fun a => Fin.ext ?_)
  match a with
  | ⟨0, _⟩ => show win0_10.index t (0 : Fin 2) * 168 + 1 * (y 0).val = (y 0).val; rw [a10]; omega
  | ⟨1, _⟩ => show win0_10.index t (1 : Fin 2) * 1024 + 1 * (y 1).val = (y 1).val; rw [b10]; omega

/-- The block of weight operand 11 staged at any point is the whole operand. -/
theorem operand11_whole (c : Dev nD) (t : Fin cfg0.N) : (iblk m c 11 t : Arr2 1 1024) = V m c main_v18 := by
  obtain ⟨a0, b0, a1, b1, a2, b2, a3, b3, a4, b4, a5, b5, a6, b6, a7, b7, a8, b8, a9, b9, a10, b10, a11, b11, a12, b12, a13, b13, a14, b14, a15, b15, a16, b16, a17, b17⟩ := window_indices t
  funext y
  show V m c main_v18 (((cfg0.win 11).blk t).view.emb y) = V m c main_v18 y
  refine congrArg _ (funext fun a => Fin.ext ?_)
  match a with
  | ⟨0, _⟩ => show win0_11.index t (0 : Fin 2) * 1 + 1 * (y 0).val = (y 0).val; rw [a11]; omega
  | ⟨1, _⟩ => show win0_11.index t (1 : Fin 2) * 1024 + 1 * (y 1).val = (y 1).val; rw [b11]; omega

/-- The block of weight operand 12 staged at any point is the whole operand. -/
theorem operand12_whole (c : Dev nD) (t : Fin cfg0.N) : (iblk m c 12 t : Arr2 50 1280) = V m c main_v22 := by
  obtain ⟨a0, b0, a1, b1, a2, b2, a3, b3, a4, b4, a5, b5, a6, b6, a7, b7, a8, b8, a9, b9, a10, b10, a11, b11, a12, b12, a13, b13, a14, b14, a15, b15, a16, b16, a17, b17⟩ := window_indices t
  funext y
  show V m c main_v22 (((cfg0.win 12).blk t).view.emb y) = V m c main_v22 y
  refine congrArg _ (funext fun a => Fin.ext ?_)
  match a with
  | ⟨0, _⟩ => show win0_12.index t (0 : Fin 2) * 50 + 1 * (y 0).val = (y 0).val; rw [a12]; omega
  | ⟨1, _⟩ => show win0_12.index t (1 : Fin 2) * 1280 + 1 * (y 1).val = (y 1).val; rw [b12]; omega

/-- The block of weight operand 13 staged at any point is the whole operand. -/
theorem operand13_whole (c : Dev nD) (t : Fin cfg0.N) : (iblk m c 13 t : Arr2 50 1280) = V m c main_v26 := by
  obtain ⟨a0, b0, a1, b1, a2, b2, a3, b3, a4, b4, a5, b5, a6, b6, a7, b7, a8, b8, a9, b9, a10, b10, a11, b11, a12, b12, a13, b13, a14, b14, a15, b15, a16, b16, a17, b17⟩ := window_indices t
  funext y
  show V m c main_v26 (((cfg0.win 13).blk t).view.emb y) = V m c main_v26 y
  refine congrArg _ (funext fun a => Fin.ext ?_)
  match a with
  | ⟨0, _⟩ => show win0_13.index t (0 : Fin 2) * 50 + 1 * (y 0).val = (y 0).val; rw [a13]; omega
  | ⟨1, _⟩ => show win0_13.index t (1 : Fin 2) * 1280 + 1 * (y 1).val = (y 1).val; rw [b13]; omega

/-- The block of weight operand 14 staged at any point is the whole operand. -/
theorem operand14_whole (c : Dev nD) (t : Fin cfg0.N) : (iblk m c 14 t : Arr2 168 1280) = V m c main_v30 := by
  obtain ⟨a0, b0, a1, b1, a2, b2, a3, b3, a4, b4, a5, b5, a6, b6, a7, b7, a8, b8, a9, b9, a10, b10, a11, b11, a12, b12, a13, b13, a14, b14, a15, b15, a16, b16, a17, b17⟩ := window_indices t
  funext y
  show V m c main_v30 (((cfg0.win 14).blk t).view.emb y) = V m c main_v30 y
  refine congrArg _ (funext fun a => Fin.ext ?_)
  match a with
  | ⟨0, _⟩ => show win0_14.index t (0 : Fin 2) * 168 + 1 * (y 0).val = (y 0).val; rw [a14]; omega
  | ⟨1, _⟩ => show win0_14.index t (1 : Fin 2) * 1280 + 1 * (y 1).val = (y 1).val; rw [b14]; omega

/-- The block of weight operand 15 staged at any point is the whole operand. -/
theorem operand15_whole (c : Dev nD) (t : Fin cfg0.N) : (iblk m c 15 t : Arr2 168 1024) = V m c main_v34 := by
  obtain ⟨a0, b0, a1, b1, a2, b2, a3, b3, a4, b4, a5, b5, a6, b6, a7, b7, a8, b8, a9, b9, a10, b10, a11, b11, a12, b12, a13, b13, a14, b14, a15, b15, a16, b16, a17, b17⟩ := window_indices t
  funext y
  show V m c main_v34 (((cfg0.win 15).blk t).view.emb y) = V m c main_v34 y
  refine congrArg _ (funext fun a => Fin.ext ?_)
  match a with
  | ⟨0, _⟩ => show win0_15.index t (0 : Fin 2) * 168 + 1 * (y 0).val = (y 0).val; rw [a15]; omega
  | ⟨1, _⟩ => show win0_15.index t (1 : Fin 2) * 1024 + 1 * (y 1).val = (y 1).val; rw [b15]; omega

/-- The block of weight operand 16 staged at any point is the whole operand. -/
theorem operand16_whole (c : Dev nD) (t : Fin cfg0.N) : (iblk m c 16 t : Arr2 1 1280) = V m c main_v37 := by
  obtain ⟨a0, b0, a1, b1, a2, b2, a3, b3, a4, b4, a5, b5, a6, b6, a7, b7, a8, b8, a9, b9, a10, b10, a11, b11, a12, b12, a13, b13, a14, b14, a15, b15, a16, b16, a17, b17⟩ := window_indices t
  funext y
  show V m c main_v37 (((cfg0.win 16).blk t).view.emb y) = V m c main_v37 y
  refine congrArg _ (funext fun a => Fin.ext ?_)
  match a with
  | ⟨0, _⟩ => show win0_16.index t (0 : Fin 2) * 1 + 1 * (y 0).val = (y 0).val; rw [a16]; omega
  | ⟨1, _⟩ => show win0_16.index t (1 : Fin 2) * 1280 + 1 * (y 1).val = (y 1).val; rw [b16]; omega

set_option maxHeartbeats 2000000 in
/-- What point `t` writes back is block `t` of the specification at the arguments. -/
theorem flushed_eq (c : Dev nD) (t : Fin cfg0.N) :
    (dats m 0 c).flushed 17 t = ((cfg0.win 17).blk t).view.read (Elt Ideal) (finalOf m c) := by
  obtain ⟨a0, b0, a1, b1, a2, b2, a3, b3, a4, b4, a5, b5, a6, b6, a7, b7, a8, b8, a9, b9, a10, b10, a11, b11, a12, b12, a13, b13, a14, b14, a15, b15, a16, b16, a17, b17⟩ := window_indices t
  rw [flushed17_A, block_value]
  have hW : paddedWeightsOf (iblk m c 7 t) (iblk m c 8 t) (iblk m c 9 t) (iblk m c 10 t) (iblk m c 11 t) (iblk m c 12 t) (iblk m c 13 t) (iblk m c 14 t) (iblk m c 15 t) (iblk m c 16 t)
      = weightsOf (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
    rw [operand7_whole m c t, operand8_whole m c t, operand9_whole m c t, operand10_whole m c t, operand11_whole m c t, operand12_whole m c t, operand13_whole m c t, operand14_whole m c t, operand15_whole m c t, operand16_whole m c t]
    exact padded_operands m c
  funext j
  show blockOf (iblk m c 0 t) (iblk m c 1 t) (iblk m c 2 t) (iblk m c 3 t) (iblk m c 4 t) (iblk m c 5 t) (iblk m c 6 t) (paddedWeightsOf (iblk m c 7 t) (iblk m c 8 t) (iblk m c 9 t) (iblk m c 10 t) (iblk m c 11 t) (iblk m c 12 t) (iblk m c 13 t) (iblk m c 14 t) (iblk m c 15 t) (iblk m c 16 t)) j = finalOf m c (((cfg0.win 17).blk t).view.emb j)
  rw [hW]
  unfold blockOf finalOf resultOf
  have hj1 : (((cfg0.win 17).blk t).view.emb j) 1 = j 1 := by
    apply Fin.ext
    show win0_17.index t (1 : Fin 2) * 336 + 1 * (j 1).val = (j 1).val
    rw [b17]; omega
  rw [hj1]
  refine congrArg (fun R => outRow R _ (j 1)) ?_
  unfold rowOf
  congr 1 <;> funext k
  · show V m c main_arg0 (((cfg0.win 0).blk t).view.emb (ix2 (j 0) k)) = m ((c : Thread nD τ).loc main_arg0) (ix2 ((((cfg0.win 17).blk t).view.emb j) 0) k)
    rw [V_main_arg0]
    refine congrArg _ (funext fun a => Fin.ext ?_)
    match a with
    | ⟨0, _⟩ => show win0_0.index t (0 : Fin 2) * 1000 + 1 * (j 0).val = win0_17.index t (0 : Fin 2) * 1000 + 1 * (j 0).val; rw [a0]
    | ⟨1, _⟩ => show win0_0.index t (1 : Fin 2) * 300 + 1 * k.val = k.val; rw [b0]; omega
  · show V m c main_arg1 (((cfg0.win 1).blk t).view.emb (ix2 (j 0) k)) = m ((c : Thread nD τ).loc main_arg1) (ix2 ((((cfg0.win 17).blk t).view.emb j) 0) k)
    rw [V_main_arg1]
    refine congrArg _ (funext fun a => Fin.ext ?_)
    match a with
    | ⟨0, _⟩ => show win0_1.index t (0 : Fin 2) * 1000 + 1 * (j 0).val = win0_17.index t (0 : Fin 2) * 1000 + 1 * (j 0).val; rw [a1]
    | ⟨1, _⟩ => show win0_1.index t (1 : Fin 2) * 50 + 1 * k.val = k.val; rw [b1]; omega
  · show V m c main_arg2 (((cfg0.win 2).blk t).view.emb (ix2 (j 0) k)) = m ((c : Thread nD τ).loc main_arg2) (ix2 ((((cfg0.win 17).blk t).view.emb j) 0) k)
    rw [V_main_arg2]
    refine congrArg _ (funext fun a => Fin.ext ?_)
    match a with
    | ⟨0, _⟩ => show win0_2.index t (0 : Fin 2) * 1000 + 1 * (j 0).val = win0_17.index t (0 : Fin 2) * 1000 + 1 * (j 0).val; rw [a2]
    | ⟨1, _⟩ => show win0_2.index t (1 : Fin 2) * 50 + 1 * k.val = k.val; rw [b2]; omega
  · show V m c main_arg3 (((cfg0.win 3).blk t).view.emb (ix2 (j 0) k)) = m ((c : Thread nD τ).loc main_arg3) (ix2 ((((cfg0.win 17).blk t).view.emb j) 0) k)
    rw [V_main_arg3]
    refine congrArg _ (funext fun a => Fin.ext ?_)
    match a with
    | ⟨0, _⟩ => show win0_3.index t (0 : Fin 2) * 1000 + 1 * (j 0).val = win0_17.index t (0 : Fin 2) * 1000 + 1 * (j 0).val; rw [a3]
    | ⟨1, _⟩ => show win0_3.index t (1 : Fin 2) * 168 + 1 * k.val = k.val; rw [b3]; omega
  · show V m c main_arg4 (((cfg0.win 4).blk t).view.emb (ix2 (j 0) k)) = m ((c : Thread nD τ).loc main_arg4) (ix2 ((((cfg0.win 17).blk t).view.emb j) 0) k)
    rw [V_main_arg4]
    refine congrArg _ (funext fun a => Fin.ext ?_)
    match a with
    | ⟨0, _⟩ => show win0_4.index t (0 : Fin 2) * 1000 + 1 * (j 0).val = win0_17.index t (0 : Fin 2) * 1000 + 1 * (j 0).val; rw [a4]
    | ⟨1, _⟩ => show win0_4.index t (1 : Fin 2) * 168 + 1 * k.val = k.val; rw [b4]; omega
  · show V m c main_arg5 (((cfg0.win 5).blk t).view.emb (ix2 (j 0) k)) = m ((c : Thread nD τ).loc main_arg5) (ix2 ((((cfg0.win 17).blk t).view.emb j) 0) k)
    rw [V_main_arg5]
    refine congrArg _ (funext fun a => Fin.ext ?_)
    match a with
    | ⟨0, _⟩ => show win0_5.index t (0 : Fin 2) * 1000 + 1 * (j 0).val = win0_17.index t (0 : Fin 2) * 1000 + 1 * (j 0).val; rw [a5]
    | ⟨1, _⟩ => show win0_5.index t (1 : Fin 2) * 168 + 1 * k.val = k.val; rw [b5]; omega
  · show V m c main_arg6 (((cfg0.win 6).blk t).view.emb (ix2 (j 0) k)) = m ((c : Thread nD τ).loc main_arg6) (ix2 ((((cfg0.win 17).blk t).view.emb j) 0) k)
    rw [V_main_arg6]
    refine congrArg _ (funext fun a => Fin.ext ?_)
    match a with
    | ⟨0, _⟩ => show win0_6.index t (0 : Fin 2) * 1000 + 1 * (j 0).val = win0_17.index t (0 : Fin 2) * 1000 + 1 * (j 0).val; rw [a6]
    | ⟨1, _⟩ => show win0_6.index t (1 : Fin 2) * 168 + 1 * k.val = k.val; rw [b6]; omega

/-- An index of the result is in point `t`'s block iff its row is among rows `1000 t …`. -/
theorem mem_block (t : Fin cfg0.N) (i : S100000x336.Idx) :
    i ∈ ((cfg0.win 17).blk t).view.set ↔ ∀ a : Fin 2, win0_17.index t a * S1000x336.size a ≤ (i a).val ∧ (i a).val < win0_17.index t a * S1000x336.size a + S1000x336.size a := by
  show i ∈ ((View.whole main_v38).slice (win0_17.rect t)).set ↔ _
  rw [View.set_slice_whole, Rect.mem_set_unit]
  exact Iff.rfl

/-- The 100 blocks tile the result: row `r` lies in the block of point `r / 1000`. -/
theorem blocks_cover (i : S100000x336.Idx) :
    ∃ t : Fin cfg0.N, (cfg0.win 17).flush t = true ∧ i ∈ ((cfg0.win 17).blk t).view.set := by
  have hi0 : (i 0).val < 100000 := (i 0).isLt
  have hi1 : (i 1).val < 336 := (i 1).isLt
  have ht : (i 0).val / 1000 < 100 := by omega
  refine ⟨⟨(i 0).val / 1000, ht⟩, flush0_17 _, ?_⟩
  obtain ⟨a0, b0, a1, b1, a2, b2, a3, b3, a4, b4, a5, b5, a6, b6, a7, b7, a8, b8, a9, b9, a10, b10, a11, b11, a12, b12, a13, b13, a14, b14, a15, b15, a16, b16, a17, b17⟩ := window_indices ⟨(i 0).val / 1000, ht⟩
  rw [mem_block]
  intro a
  match a with
  | ⟨0, _⟩ =>
    show win0_17.index ⟨(i 0).val / 1000, ht⟩ (0 : Fin 2) * 1000 ≤ (i 0).val ∧ (i 0).val < win0_17.index ⟨(i 0).val / 1000, ht⟩ (0 : Fin 2) * 1000 + 1000
    rw [a17]; show (i 0).val / 1000 * 1000 ≤ (i 0).val ∧ (i 0).val < (i 0).val / 1000 * 1000 + 1000; omega
  | ⟨1, _⟩ =>
    show win0_17.index ⟨(i 0).val / 1000, ht⟩ (1 : Fin 2) * 336 ≤ (i 1).val ∧ (i 1).val < win0_17.index ⟨(i 0).val / 1000, ht⟩ (1 : Fin 2) * 336 + 336
    rw [b17]; omega

/-- The result array after the run is the specification at the arguments. -/
theorem final (c : Dev nD) : (dats m 0 c).arrAt 17 cfg0.N = finalOf m c :=
  (dats m 0 c).arrAt_eq_of_cover 17 (finalOf m c) (fun t _ => flushed_eq m c t) blocks_cover

/-- The kernel's run: every weakly fair execution terminates with the result array at the specification of the
    arguments as launched, the arguments unchanged. -/
theorem kernel_run : θ_run defs (onTc (τ := τ) (main (F := Ideal))) ⟨m, fun _ => 0, ρ⟩ fun r => ∀ c : Dev nD,
      r.2.mem ((c : Thread nD τ).loc main_v38) = finalOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (run_blocks m ρ)

end Cert.TreeCell

end
-- ==== Proof.lean ====
/-
  The certificate of a tree-structured recurrent cell: a fused kernel against its array-level reference, equal as
  extended reals.

  Both programs take seven batched inputs of 100000 rows (a word vector, two tag vectors, a previous hidden and cell
  state, a child sum and a down-state) and ten weight arrays, and return 100000 rows of 336 numbers: a LEAF cell's
  state feeds a NODE cell, whose hidden state (168 columns) and cell state (168 columns) are the result. The reference
  writes this with whole-array products, slices of width 168, the logistic function spelled 1 / (1 + exp (-x)), and a
  concatenation. The kernel first re-lays every weight array with each gate padded from 168 to 256 columns, then walks
  100 blocks of 1000 rows, each in five chunks of 200 rows, computing the same sums in the same order on the chunk's
  rows and slicing each gate at its padded offset; the padding is never read.

  CellSpec.lean states the mathematics one row at a time, with every weight read through an accessor (gate, column,
  input index), and CellArrays.lean instantiates it at arrays. RefValue.lean shows the reference's result is that
  specification; ChunkValue.lean that one chunk of the kernel's body computes it; BlockValue.lean that a block ends
  holding it; PaddedOperands.lean that the padded operands read as the weight arguments; FinalArray.lean that the
  whole result array ends holding it. At the extended reals a change of float format is the identity and a matrix
  product is the plain sum of products, and the two programs add their terms in the same order: no law of the extended
  reals beyond re-indexing a finite sum is needed, and the precondition (finite inputs) is never opened.

  The two kernels' frames are the generated frame certificates; the reference has no kernel, and its frame is its run
  with the result dropped. The idealization's ledger is empty.
-/
import proofs.«151848_j44324062495020_2_alg».proof.Defs
import proofs.«151848_j44324062495020_2_alg».proof.Proof.Gen.Kernel
import proofs.«151848_j44324062495020_2_alg».proof.Proof.Gen.Kernel.Skeleton
import proofs.«151848_j44324062495020_2_alg».proof.Proof.Gen.Kernel.Loops
import proofs.«151848_j44324062495020_2_alg».proof.Proof.Gen.Kernel.Launch
import proofs.«151848_j44324062495020_2_alg».proof.Proof.Gen.Kernel.Points
import proofs.«151848_j44324062495020_2_alg».proof.Proof.Gen.Kernel.Frame
import proofs.«151848_j44324062495020_2_alg».proof.Proof.Gen.KernelIdeal
import proofs.«151848_j44324062495020_2_alg».proof.Proof.Gen.KernelIdeal.Skeleton
import proofs.«151848_j44324062495020_2_alg».proof.Proof.Gen.KernelIdeal.Loops
import proofs.«151848_j44324062495020_2_alg».proof.Proof.Gen.KernelIdeal.Launch
import proofs.«151848_j44324062495020_2_alg».proof.Proof.Gen.KernelIdeal.Points
import proofs.«151848_j44324062495020_2_alg».proof.Proof.Gen.KernelIdeal.Frame
import proofs.«151848_j44324062495020_2_alg».proof.Proof.Gen.ReferenceIdeal
import proofs.«151848_j44324062495020_2_alg».proof.Proof.Gen.Pre_finite_inputs
import proofs.«151848_j44324062495020_2_alg».proof.Proof.Gen.KernelIdeal.Value
import proofs.«151848_j44324062495020_2_alg».proof.Proof.RefRun
import proofs.«151848_j44324062495020_2_alg».proof.Proof.RefRead
import proofs.«151848_j44324062495020_2_alg».proof.Proof.RefValue
import proofs.«151848_j44324062495020_2_alg».proof.Proof.FinalArray
import Idealize.ShloMosaic.Adequacy
import Idealize.ShloMosaic.Init

noncomputable section

namespace Cert.Proof

open Idealize.ShloMosaic Idealize.ShloMosaic.TcCoe Idealize.SL.Sem

/-- The word-level kernel's frame: the generated frame certificate. -/
theorem frame_kernel : Cert.frame_Kernel := fun m ρ _ => Cert.Kernel.Gen.frame m ρ

/-- The idealized kernel's frame: the generated frame certificate. -/
theorem frame_kernel_ideal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the seventeen arguments both programs end with the result array at the specification
    of those arguments: the kernel's by FinalArray.lean, the reference's by RefValue.lean. -/
theorem algebraic : Cert.algebraic_KernelIdeal_ReferenceIdeal := by
  intro m ρ m' ρ' _ hagree
  refine ⟨fun c => Cert.TreeCell.finalOf m c, Cert.TreeCell.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16⟩ := hagree c
  rw [Cert.ReferenceIdeal.Read.val_main_v92_eq, Cert.TreeCell.reference_eq, e0, e1, e2, e3, e4, e5, e6, e7, e8, e9, e10, e11, e12, e13,
    e14, e15, e16]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
